-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x3200000 : Shape := ⟨2, ![2, 3200000]⟩
abbrev S2x16 : Shape := ⟨2, ![2, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x2 .f32) (main_arg1 : IVec S2x3200000 32) (main_arg2 : FVec F S2x16 .f32) (main_arg3 : FVec F S16 .f32) (main_arg4 : FVec F S16x2 .f32) (main_arg5 : FVec F S2 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x16 .f32 := Host.absf main_arg2
  let main_cst_0 : FVec F S_ .f32 := constant S_ .f32 0x7F800000#32
  let main_v5 : FVec F S2x16 .f32 := broadcastInDim S2x16 ![] bcast_S_S2x16 main_cst_0
  let main_v6 : IVec S2x16 1 := cmpf .olt main_v4 main_v5
  let main_c_1 : IVec S_ 1 := constantI S_ 1 1#1
  let main_v7 : IVec S_ 1 := (fun x v => Host.reduce IntOp.andi x v reducesTo_S2x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x2 : Shape := ⟨2, ![100000, 2]⟩
abbrev S2x3200000 : Shape := ⟨2, ![2, 3200000]⟩
abbrev S2x16 : Shape := ⟨2, ![2, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S10000x2 : Shape := ⟨2, ![10000, 2]⟩
abbrev S10000x1 : Shape := ⟨2, ![10000, 1]⟩
abbrev S3300000x2 : Shape := ⟨2, ![3300000, 2]⟩
abbrev S1x16 : Shape := ⟨2, ![1, 16]⟩
abbrev S100000x16 : Shape := ⟨2, ![100000, 16]⟩
abbrev S10000x16 : Shape := ⟨2, ![10000, 16]⟩
abbrev S1x2 : Shape := ⟨2, ![1, 2]⟩
abbrev S10000 : Shape := ⟨1, ![10000]⟩

abbrev nBuf : Space → Nat
  | .hbm => 63
  | .vmem => 28
  | .smem => 0
  | _ => 0

abbrev bufTy : (tb : Table) → Fin (tcTables nBuf tb) → BufTy
  | .hbm, ⟨0, _⟩ => ⟨S100000x2, .f32⟩
  | .hbm, ⟨1, _⟩ => ⟨S2x3200000, .i32⟩
  | .hbm, ⟨2, _⟩ => ⟨S2x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x2, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000x2, .f32⟩
  | .hbm, ⟨41, _⟩ => ⟨S_, .f32⟩
  | .hbm, ⟨42, _⟩ => ⟨S100000x2, .f32⟩
  | .hbm, ⟨43, _⟩ => ⟨S3300000x1, .i32⟩
  | .hbm, ⟨44, _⟩ => ⟨S100000x2, .f32⟩
  | .hbm, ⟨45, _⟩ => ⟨S1x16, .f32⟩
  | .hbm, ⟨46, _⟩ => ⟨S100000x16, .f32⟩
  | .hbm, ⟨47, _⟩ => ⟨S100000x2, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x2, .f32⟩
  | .hbm, ⟨57, _⟩ => ⟨S_, .f32⟩
  | .hbm, ⟨58, _⟩ => ⟨S100000x2, .f32⟩
  | .hbm, ⟨59, _⟩ => ⟨S3300000x1, .i32⟩
  | .hbm, ⟨60, _⟩ => ⟨S100000x2, .f32⟩
  | .hbm, ⟨61, _⟩ => ⟨S1x2, .f32⟩
  | .hbm, ⟨62, _⟩ => ⟨S100000x2, .f32⟩
  | .local _ .vmem, ⟨0, _⟩ => ⟨S10000x2, .f32⟩
  | .local _ .vmem, ⟨1, _⟩ => ⟨S10000x2, .f32⟩
  | .local _ .vmem, ⟨2, _⟩ => ⟨S10000x1, .f32⟩
  | .local _ .vmem, ⟨3, _⟩ => ⟨S10000x1, .f32⟩
  | .local _ .vmem, ⟨4, _⟩ => ⟨S10000x2, .f32⟩
  | .local _ .vmem, ⟨5, _⟩ => ⟨S10000x2, .f32⟩
  | .local _ .vmem, ⟨6, _⟩ => ⟨S10000x2, .f32⟩
  | .local _ .vmem, ⟨7, _⟩ => ⟨S10000x2, .f32⟩
  | .local _ .vmem, ⟨8, _⟩ => ⟨S10000x1, .f32⟩
  | .local _ .vmem, ⟨9, _⟩ => ⟨S10000x1, .f32⟩
  | .local _ .vmem, ⟨10, _⟩ => ⟨S2x16, .f32⟩
  | .local _ .vmem, ⟨11, _⟩ => ⟨S1x16, .f32⟩
  | .local _ .vmem, ⟨12, _⟩ => ⟨S10000x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S16x2, .f32⟩
  | .local _ .vmem, ⟨17, _⟩ => ⟨S10000x1, .f32⟩
  | .local _ .vmem, ⟨18, _⟩ => ⟨S10000x1, .f32⟩
  | .local _ .vmem, ⟨19, _⟩ => ⟨S10000x2, .f32⟩
  | .local _ .vmem, ⟨20, _⟩ => ⟨S10000x2, .f32⟩
  | .local _ .vmem, ⟨21, _⟩ => ⟨S10000x2, .f32⟩
  | .local _ .vmem, ⟨22, _⟩ => ⟨S10000x2, .f32⟩
  | .local _ .vmem, ⟨23, _⟩ => ⟨S10000x1, .f32⟩
  | .local _ .vmem, ⟨24, _⟩ => ⟨S10000x1, .f32⟩
  | .local _ .vmem, ⟨25, _⟩ => ⟨S1x2, .f32⟩
  | .local _ .vmem, ⟨26, _⟩ => ⟨S10000x2, .f32⟩
  | .local _ .vmem, ⟨27, _⟩ => ⟨S10000x2, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S10000x2_S10000x2_0_0 : ∀ a, (![0, 0] : Fin 2 → Nat) a + S10000x2.size a ≤ S10000x2.size a
  h_S10000x2 : 0 < S10000x2.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x2 : S10000x1.Broadcasts S10000x2
  bcast_S_S100000x2 : S_.BroadcastsInDim S100000x2 (![] : Fin 0 → Fin S100000x2.rank)
  shapeCasts_S16_S1x16 : S16.ShapeCasts S1x16
  shapeCasts_S10000x2_S10000x2 : S10000x2.ShapeCasts S10000x2
  inb_S2x16_S2x16_0_0 : ∀ a, (![0, 0] : Fin 2 → Nat) a + S2x16.size a ≤ S2x16.size a
  h_S2x16 : 0 < S2x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x2_S16x2_0_0 : ∀ a, (![0, 0] : Fin 2 → Nat) a + S16x2.size a ≤ S16x2.size a
  h_S16x2 : 0 < S16x2.numel
  shapeCasts_S2_S1x2 : S2.ShapeCasts S1x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  scatter_S100000_S3300000x1_S3300000_n_0_0_1_wf : ScatterDims.WF S100000 S3300000x1 S3300000 [] [0] [0] 1
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  dot_S10000x2_S2x16_S10000x16_1_0_0_1_n_n_wf : DotDims.WF S10000x2 S2x16 S10000x16 [1] [0] [0] [1] [] []
  dot_S10000x16_S16x2_S10000x2_1_0_0_1_n_n_wf : DotDims.WF S10000x16 S16x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x2.size a ≤ S100000x2.size a
  hwx0_2 : ∀ i : grid0.Coords, EltTy.bits .f32 = 32 ∨ (Rect.block (s := S100000x2) S10000x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x2.size a ≤ S100000x2.size a
  hwx1_0 : ∀ i : grid1.Coords, EltTy.bits .f32 = 32 ∨ (Rect.block (s := S100000x2) S10000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x16.size a ≤ S2x16.size a
  hwx1_2 : ∀ i : grid1.Coords, EltTy.bits .f32 = 32 ∨ (Rect.block (s := S2x16) S2x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x16.size a ≤ S100000x16.size a
  hwx1_4 : ∀ i : grid1.Coords, EltTy.bits .f32 = 32 ∨ (Rect.block (s := S100000x16) S10000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x2.size a ≤ S16x2.size a
  hwx2_1 : ∀ i : grid2.Coords, EltTy.bits .f32 = 32 ∨ (Rect.block (s := S16x2) S16x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x2.size a ≤ S100000x2.size a
  hwx2_3 : ∀ i : grid2.Coords, EltTy.bits .f32 = 32 ∨ (Rect.block (s := S100000x2) S10000x2.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x2.size a ≤ S100000x2.size a
  hwx3_0 : ∀ i : grid3.Coords, EltTy.bits .f32 = 32 ∨ (Rect.block (s := S100000x2) S10000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x2.size a ≤ S100000x2.size a
  hwx3_3 : ∀ i : grid3.Coords, EltTy.bits .f32 = 32 ∨ (Rect.block (s := S100000x2) S10000x2.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def dot_S10000x2_S2x16_S10000x16_1_0_0_1_n_n : DotDims S10000x2 S2x16 S10000x16 where
  lhsContracting := [1]
  rhsContracting := [0]
  lhsNonContracting := [0]
  rhsNonContracting := [1]
  lhsBatch := []
  rhsBatch := []
  wf := dot_S10000x2_S2x16_S10000x16_1_0_0_1_n_n_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf

abbrev win0_0 : Pipeline.Window sig grid0 :=
  Pipeline.Window.ofSpec (Memref.whole main_arg0) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S10000x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S10000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S10000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S10000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S10000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S10000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x2 : Shape := ⟨2, ![100000, 2]⟩
abbrev S2x3200000 : Shape := ⟨2, ![2, 3200000]⟩
abbrev S2x16 : Shape := ⟨2, ![2, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 152
  | .vmem => 0
  | .smem => 0
  | _ => 0

abbrev hbmTy0_0 (i : Nat) : BufTy := match i % 128 with
  | 0 => ⟨S100000x2, .f32⟩
  | 1 => ⟨S2x3200000, .i32⟩
  | 2 => ⟨S2x16, .f32⟩
  | 3 => ⟨S16, .f32⟩
  | 4 => ⟨S16x2, .f32⟩
  | 5 => ⟨S2, .f32⟩
  | 6 => ⟨S1x3200000, .i32⟩
  | 7 => ⟨S3200000, .i32⟩
  | 8 => ⟨S100000, .i32⟩
  | 9 => ⟨S3300000, .i32⟩
  | 10 => ⟨S1x3200000, .i32⟩
  | 11 => ⟨S3200000, .i32⟩
  | 12 => ⟨S100000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S100000x16, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x16, .f32⟩
  | 60 => ⟨S3300000x1, .f32⟩
  | 61 => ⟨S3300000x16, .f32⟩
  | 62 => ⟨S3300000x16, .f32⟩
  | 63 => ⟨S_, .f32⟩
  | 64 => ⟨S100000x16, .f32⟩
  | 65 => ⟨S3300000x1, .i32⟩
  | 66 => ⟨S100000x16, .f32⟩
  | 67 => ⟨S1x16, .f32⟩
  | 68 => ⟨S100000x16, .f32⟩
  | 69 => ⟨S100000x16, .f32⟩
  | 70 => ⟨S_, .f32⟩
  | 71 => ⟨S100000x16, .f32⟩
  | 72 => ⟨S100000x16, .f32⟩
  | 73 => ⟨S1x3200000, .i32⟩
  | 74 => ⟨S3200000, .i32⟩
  | 75 => ⟨S100000, .i32⟩
  | 76 => ⟨S3300000, .i32⟩
  | 77 => ⟨S1x3200000, .i32⟩
  | 78 => ⟨S3200000, .i32⟩
  | 79 => ⟨S100000, .i32⟩
  | 80 => ⟨S3300000, .i32⟩
  | 81 => ⟨S_, .f32⟩
  | 82 => ⟨S3300000, .f32⟩
  | 83 => ⟨S_, .f32⟩
  | 84 => ⟨S100000, .f32⟩
  | 85 => ⟨S3300000x1, .i32⟩
  | 86 => ⟨S100000, .f32⟩
  | 87 => ⟨S_, .f32⟩
  | 88 => ⟨S100000, .f32⟩
  | 89 => ⟨S100000, .i1⟩
  | 90 => ⟨S_, .f32⟩
  | 91 => ⟨S100000, .f32⟩
  | 92 => ⟨S100000, .f32⟩
  | 93 => ⟨S100000, .f32⟩
  | 94 => ⟨S_, .f32⟩
  | 95 => ⟨S_, .f32⟩
  | 96 => ⟨S100000, .f32⟩
  | 97 => ⟨S100000, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000, .f32⟩
  | 107 => ⟨S_, .i32⟩
  | 108 => ⟨S3300000, .i32⟩
  | 109 => ⟨S3300000, .i1⟩
  | 110 => ⟨S_, .i32⟩
  | 111 => ⟨S3300000, .i32⟩
  | 112 => ⟨S3300000, .i32⟩
  | 113 => ⟨S3300000, .i32⟩
  | 114 => ⟨S3300000x1, .i32⟩
  | 115 => ⟨S3300000, .f32⟩
  | 116 => ⟨S3300000, .f32⟩
  | 117 => ⟨S100000x2, .f32⟩
  | 118 => ⟨S_, .i32⟩
  | 119 => ⟨S3300000, .i32⟩
  | 120 => ⟨S3300000, .i1⟩
  | 121 => ⟨S_, .i32⟩
  | 122 => ⟨S3300000, .i32⟩
  | 123 => ⟨S3300000, .i32⟩
  | 124 => ⟨S3300000, .i32⟩
  | 125 => ⟨S3300000x1, .i32⟩
  | 126 => ⟨S3300000x2, .f32⟩
  | 127 => ⟨S3300000x1, .f32⟩
  | _ => ⟨S100000x2, .f32⟩

abbrev hbmTy0_1 (i : Nat) : BufTy := match i % 128 with
  | 0 => ⟨S3300000x2, .f32⟩
  | 1 => ⟨S3300000x2, .f32⟩
  | 2 => ⟨S_, .f32⟩
  | 3 => ⟨S100000x2, .f32⟩
  | 4 => ⟨S3300000x1, .i32⟩
  | 5 => ⟨S100000x2, .f32⟩
  | 6 => ⟨S1x2, .f32⟩
  | 7 => ⟨S100000x2, .f32⟩
  | 8 => ⟨S100000x2, .f32⟩
  | 9 => ⟨S_, .f32⟩
  | 10 => ⟨S100000, .f32⟩
  | 11 => ⟨S_, .f32⟩
  | 12 => ⟨S100000, .f32⟩
  | 13 => ⟨S100000, .f32⟩
  | 14 => ⟨S100000x1, .f32⟩
  | 15 => ⟨S100000x2, .f32⟩
  | 16 => ⟨S100000x2, .f32⟩
  | 17 => ⟨S100000x2, .f32⟩
  | 18 => ⟨S_, .f32⟩
  | 19 => ⟨S100000, .f32⟩
  | 20 => ⟨S100000x1, .f32⟩
  | 21 => ⟨S100000x1, .f32⟩
  | 22 => ⟨S100000x2, .f32⟩
  | 23 => ⟨S100000x2, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_v68 : Ref sig .tc := ⟨.hbm, 97, rfl⟩
abbrev main_c_15 : Ref sig .tc := ⟨.hbm, 98, rfl⟩
abbrev main_v69 : Ref sig .tc := ⟨.hbm, 99, rfl⟩
abbrev main_v70 : Ref sig .tc := ⟨.hbm, 100, rfl⟩
abbrev main_c_16 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_19 : Ref sig .tc := ⟨.hbm, 118, rfl⟩
abbrev main_v85 : Ref sig .tc := ⟨.hbm, 119, rfl⟩
abbrev main_v86 : Ref sig .tc := ⟨.hbm, 120, rfl⟩
abbrev main_c_20 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_21 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_call3_cst : Ref sig .tc := ⟨.hbm, 137, rfl⟩
abbrev main_call3_v0 : Ref sig .tc := ⟨.hbm, 138, rfl⟩
abbrev main_call3_cst_0 : Ref sig .tc := ⟨.hbm, 139, rfl⟩
abbrev main_call3_v1 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_v5 : Ref sig .tc := ⟨.hbm, 144, rfl⟩
abbrev main_call3_v6 : Ref sig .tc := ⟨.hbm, 145, rfl⟩
abbrev main_call3_cst_1 : Ref sig .tc := ⟨.hbm, 146, rfl⟩
abbrev main_call3_v7 : Ref sig .tc := ⟨.hbm, 147, rfl⟩
abbrev main_call3_v8 : Ref sig .tc := ⟨.hbm, 148, rfl⟩
abbrev main_call3_v9 : Ref sig .tc := ⟨.hbm, 149, rfl⟩
abbrev main_call3_v10 : Ref sig .tc := ⟨.hbm, 150, rfl⟩
abbrev main_v101 : Ref sig .tc := ⟨.hbm, 151, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x2_S2x16_S100000x16_1_0_0_1_n_n_wf : DotDims.WF S100000x2 S2x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x2_S2x16_S100000x16_1_0_0_1_n_n : DotDims S100000x2 S2x16 S100000x16 where
  lhsContracting := [1]
  rhsContracting := [0]
  lhsNonContracting := [0]
  rhsNonContracting := [1]
  lhsBatch := []
  rhsBatch := []
  wf := dot_S100000x2_S2x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KRun.lean ====
/-
  The idealized kernel's run with its result array named. @main is nine segments (host stretches and four kernel regions);
  every weakly fair execution terminates, nothing faulting, and in every final state the result array main_v43 holds the
  contents the last boundary of the fold through @main gives it (W9: the fourth region's arrays at what its
  write-backs leave), the six argument arrays as launched.
-/
import proofs.«160260_j74964359185003_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the nine segments, read at the result array and at the arguments: the last thread state holds every
    unscoped buffer at the last boundary's contents, and the result array is one of them. -/
theorem run_named : θ_run defs (onTc (τ := τ) (main (F := F))) ⟨m, fun _ => 0, ρ⟩ (fun r => ∀ c : Dev nD,
      r.2.mem ((c.tc : Thread nD τ).loc main_v43) = W9 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v43 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.KRun

end
-- ==== Proof.Spec.lean ====
/-
  The four node-level maps of a two-layer graph convolution over N = 100000 nodes, each as ONE function of whole
  arrays, index by index, on the extended reals. d is the per-node scale as a column [N, 1].
    scaleRows   (n, k) ↦ x(n, k) · d(n)
    hidden      (n, f) ↦ max(Σ_k (p(n, k) · d(n)) · W(k, f) + b(0, f), 0)           (scale, 2 → 16, bias, relu)
    project     (n, c) ↦ (Σ_q a(n, q) · W(q, c)) · d(n)                              (16 → 2, scale)
    logits      (n, c) ↦ p(n, c) · d(n) + b(0, c),   and   outRows = the log-softmax of each row of logits
  The log-softmax of a row v of two entries is  (v c − M) − log(Σ_k exp(v k − M))  with M the row's maximum, the
  maximum taken as a fold from −∞.
-/
import Idealize.ShloMosaic.PureOps.Ideal
import Idealize.ShloMosaic.PureOps.Ideal.Laws
import Idealize.ShloMosaic.Lib.ValueIdx

noncomputable section

open scoped BigOperators

namespace Cert.GCN

open Idealize.ShloMosaic Idealize.ShloMosaic.ValueIdx

abbrev Arr (a b : Nat) : Type := (⟨2, ![a, b]⟩ : Shape).Idx → EReal

/-- The float word of −∞. -/
abbrev negInf : EReal := Ideal.ofBits .f32 0xFF800000#32

/-- The maximum of a row of two entries, folded from −∞. -/
def rowMax (v : Fin 2 → EReal) : EReal := (Finset.univ : Finset (Fin 2)).fold max negInf v

/-- The log-softmax of a row of two entries, at entry c. -/
def lsm (v : Fin 2 → EReal) (c : Fin 2) : EReal :=
  (v c - rowMax v) - Ideal.log (∑ k : Fin 2, Ideal.exp (v k - rowMax v))

/-- Every row scaled by its node's scale. -/
def scaleRows (x : Arr 100000 2) (d : Arr 100000 1) : Arr 100000 2 :=
  fun j => x (ix2 (j 0) (j 1)) * d (ix2 (j 0) 0)

/-- Scale, the 2 → 16 linear map, bias, relu. -/
def hidden (p : Arr 100000 2) (d : Arr 100000 1) (W : Arr 2 16) (b : Arr 1 16) : Arr 100000 16 :=
  fun j => max ((∑ k : Fin 2, (p (ix2 (j 0) k) * d (ix2 (j 0) 0)) * W (ix2 k (j 1))) + b (ix2 0 (j 1))) 0

/-- The 16 → 2 linear map, then the scale. -/
def project (a : Arr 100000 16) (W : Arr 16 2) (d : Arr 100000 1) : Arr 100000 2 :=
  fun j => (∑ q : Fin 16, a (ix2 (j 0) q) * W (ix2 q (j 1))) * d (ix2 (j 0) 0)

/-- Row n of the logits: scale and bias. -/
def logitRow (p : Arr 100000 2) (d : Arr 100000 1) (b : Arr 1 2) (n : Fin 100000) : Fin 2 → EReal :=
  fun k => p (ix2 n k) * d (ix2 n 0) + b (ix2 0 k)

/-- The log-softmax of every row of the logits. -/
def outRows (p : Arr 100000 2) (d : Arr 100000 1) (b : Arr 1 2) : Arr 100000 2 :=
  fun j => lsm (logitRow p d b (j 0)) (j 1)

theorem scaleRows_apply (x : Arr 100000 2) (d : Arr 100000 1) (n : Fin 100000) (k : Fin 2) :
    scaleRows x d (ix2 n k) = x (ix2 n k) * d (ix2 n 0) := rfl

theorem hidden_apply (p : Arr 100000 2) (d : Arr 100000 1) (W : Arr 2 16) (b : Arr 1 16) (n : Fin 100000) (f : Fin 16) :
    hidden p d W b (ix2 n f) = max ((∑ k : Fin 2, (p (ix2 n k) * d (ix2 n 0)) * W (ix2 k f)) + b (ix2 0 f)) 0 := rfl

theorem project_apply (a : Arr 100000 16) (W : Arr 16 2) (d : Arr 100000 1) (n : Fin 100000) (c : Fin 2) :
    project a W d (ix2 n c) = (∑ q : Fin 16, a (ix2 n q) * W (ix2 q c)) * d (ix2 n 0) := rfl

theorem outRows_apply (p : Arr 100000 2) (d : Arr 100000 1) (b : Arr 1 2) (n : Fin 100000) (c : Fin 2) :
    outRows p d b (ix2 n c) = lsm (logitRow p d b n) c := rfl

end Cert.GCN

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.LibPrefixMax.lean ====
/-
  Running maxima of a sequence of integers, and the signed maximum of machine words.

  * The greatest entry of a prefix a 0, ..., a j is pinned down by two facts (it bounds every entry of the prefix, and it is
    one of them): IsPrefMax, unique by antisymmetry. Two computations that each produce a value with these two facts
    produce the same value, however they arrange the comparisons.
  * THE DOUBLING SCAN. Start from the sequence itself (each entry is the greatest of the window of width 1 ending at it) and
    repeatedly replace entry j by the larger of itself and the entry w places before it (a fill value where there is no
    such place), w the current window width: the windows double. IsWinMax.double is one such step, stated for the
    positions below a bound N; once the width reaches N, and the fill is no larger than any entry, entry j is the
    greatest of the prefix ending at j (IsWinMax.isPrefMax).
  * The signed maximum of two words is the maximum of their signed values (toInt_maxsi); it commutes and associates; a
    left fold of it over a list is bounded below by the start and by every element and is one of them
    (foldl_maxsi_spec, isPrefMax_of_foldl_maxsi); and the signed values' maximum over a nonempty finite set, converted to an extended real, is the
    fold of the extended reals' max from bottom over the converted values (fold_max_coe_toInt).

  Nothing here mentions a program.
-/
import Mathlib
import Idealize.ShloMosaic.PureOps.Float

namespace Cert.PrefixMax

open Idealize.ShloMosaic

/-! ## The greatest entry of a prefix -/

/-- v is the greatest of a 0, ..., a j: it bounds them all and is one of them. -/
def IsPrefMax (a : ℕ → ℤ) (j : ℕ) (v : ℤ) : Prop := (∀ k, k ≤ j → a k ≤ v) ∧ ∃ k, k ≤ j ∧ v = a k

theorem IsPrefMax.unique {a : ℕ → ℤ} {j : ℕ} {v v' : ℤ} (h : IsPrefMax a j v) (h' : IsPrefMax a j v') : v = v' := by
  obtain ⟨k, hk, rfl⟩ := h.2
  obtain ⟨k', hk', rfl⟩ := h'.2
  exact le_antisymm (h'.1 k hk) (h.1 k' hk')

/-- The greatest of a prefix depends on the prefix's entries only. -/
theorem IsPrefMax.congr {a a' : ℕ → ℤ} {j : ℕ} {v : ℤ} (h : IsPrefMax a j v) (e : ∀ k, k ≤ j → a k = a' k) :
    IsPrefMax a' j v := by
  obtain ⟨hub, k, hk, rfl⟩ := h
  exact ⟨fun k' hk' => by rw [← e k' hk']; exact hub k' hk', k, hk, e k hk⟩

/-! ## The doubling scan -/

/-- The entry s places before j, or the fill f where the sequence has not started yet. -/
def back (a : ℕ → ℤ) (f : ℤ) (j s : ℕ) : ℤ := if s ≤ j then a (j - s) else f

/-- At every position j below N, b j is the greatest of the w entries ending at j, the fill standing in for the
    places before the start. -/
def IsWinMax (N : ℕ) (a : ℕ → ℤ) (f : ℤ) (w : ℕ) (b : ℕ → ℤ) : Prop :=
  ∀ j, j < N → (∀ s, s < w → back a f j s ≤ b j) ∧ ∃ s, s < w ∧ b j = back a f j s

/-- Width one: the sequence itself. -/
theorem isWinMax_one (N : ℕ) (a : ℕ → ℤ) (f : ℤ) : IsWinMax N a f 1 a := fun j _ =>
  ⟨fun s hs => by
      obtain rfl : s = 0 := by omega
      unfold back; rw [if_pos (Nat.zero_le _), Nat.sub_zero],
    0, Nat.one_pos, by unfold back; rw [if_pos (Nat.zero_le _), Nat.sub_zero]⟩

/-- ONE STEP: the larger of the window ending at j and the window ending w places earlier (the fill, when there is no
    such place) is the window of width w + w ending at j. -/
theorem IsWinMax.double {N : ℕ} {a : ℕ → ℤ} {f : ℤ} {w : ℕ} {b b' : ℕ → ℤ} (h : IsWinMax N a f w b) (hw : 0 < w)
    (hb : ∀ j, j < N → b' j = max (b j) (if w ≤ j then b (j - w) else f)) : IsWinMax N a f (w + w) b' := by
  intro j hj
  rw [hb j hj]
  obtain ⟨hub, s0, hs0, e0⟩ := h j hj
  by_cases hwj : w ≤ j
  · rw [if_pos hwj]
    obtain ⟨hub', s1, hs1, e1⟩ := h (j - w) (by omega)
    refine ⟨fun s hs => ?_, ?_⟩
    · by_cases hsw : s < w
      · exact le_trans (hub s hsw) (le_max_left _ _)
      · have e : back a f j s = back a f (j - w) (s - w) := by
          unfold back
          by_cases hsj : s ≤ j
          · rw [if_pos hsj, if_pos (by omega), show j - w - (s - w) = j - s by omega]
          · rw [if_neg hsj, if_neg (by omega)]
        rw [e]
        exact le_trans (hub' (s - w) (by omega)) (le_max_right _ _)
    · rcases max_cases (b j) (b (j - w)) with ⟨hm, _⟩ | ⟨hm, _⟩
      · exact ⟨s0, by omega, by rw [hm, e0]⟩
      · refine ⟨w + s1, by omega, ?_⟩
        rw [hm, e1]
        unfold back
        by_cases hsj : s1 ≤ j - w
        · rw [if_pos hsj, if_pos (by omega), show j - (w + s1) = j - w - s1 by omega]
        · rw [if_neg hsj, if_neg (by omega)]
  · rw [if_neg hwj]
    refine ⟨fun s hs => ?_, ?_⟩
    · by_cases hsw : s < w
      · exact le_trans (hub s hsw) (le_max_left _ _)
      · have e : back a f j s = f := by unfold back; rw [if_neg (by omega)]
        rw [e]; exact le_max_right _ _
    · rcases max_cases (b j) f with ⟨hm, _⟩ | ⟨hm, _⟩
      · exact ⟨s0, by omega, by rw [hm, e0]⟩
      · exact ⟨w, by omega, by rw [hm]; unfold back; rw [if_neg (by omega)]⟩

/-- Once the window is as wide as the sequence is long, and the fill is no larger than any entry, the window ending at j
    is the prefix ending at j. -/
theorem IsWinMax.isPrefMax {N : ℕ} {a : ℕ → ℤ} {f : ℤ} {w : ℕ} {b : ℕ → ℤ} (h : IsWinMax N a f w b) (hN : N ≤ w)
    (hf : ∀ k, k < N → f ≤ a k) (j : ℕ) (hj : j < N) : IsPrefMax a j (b j) := by
  obtain ⟨hub, s, hs, e⟩ := h j hj
  refine ⟨fun k hk => ?_, ?_⟩
  · have h1 := hub (j - k) (by omega)
    unfold back at h1
    rw [if_pos (by omega), show j - (j - k) = k by omega] at h1
    exact h1
  · by_cases hsj : s ≤ j
    · exact ⟨j - s, by omega, by rw [e]; unfold back; rw [if_pos hsj]⟩
    · refine ⟨j, le_rfl, ?_⟩
      have e' : b j = f := by rw [e]; unfold back; rw [if_neg hsj]
      have h1 := hub 0 (by omega)
      unfold back at h1
      rw [if_pos (Nat.zero_le _), Nat.sub_zero] at h1
      exact le_antisymm (by rw [e']; exact hf j hj) h1

/-! ## The signed maximum of words -/

theorem toInt_maxsi {w : ℕ} (x y : BitVec w) : (IntOp.maxsi x y).toInt = max x.toInt y.toInt := by
  unfold IntOp.maxsi
  split
  · rename_i h
    rw [BitVec.slt_iff_toInt_lt] at h
    rw [max_eq_left (le_of_lt h)]
  · rename_i h
    rw [BitVec.slt_iff_toInt_lt] at h
    rw [max_eq_right (not_lt.mp h)]

instance maxsi_comm {w : ℕ} : Std.Commutative (IntOp.maxsi : BitVec w → BitVec w → BitVec w) :=
  ⟨fun x y => BitVec.eq_of_toInt_eq (by rw [toInt_maxsi, toInt_maxsi, max_comm])⟩

instance maxsi_assoc {w : ℕ} : Std.Associative (IntOp.maxsi : BitVec w → BitVec w → BitVec w) :=
  ⟨fun x y z => BitVec.eq_of_toInt_eq (by simp only [toInt_maxsi, max_assoc])⟩

/-- A left fold of the signed maximum from v over the values g n, n in a list: at least v, at least every value,
    and one of them. -/
theorem foldl_maxsi_spec {ι : Type} {w : ℕ} (g : ι → BitVec w) : ∀ (l : List ι) (v : BitVec w),
    v.toInt ≤ (l.foldl (fun r n => IntOp.maxsi r (g n)) v).toInt
      ∧ (∀ n ∈ l, (g n).toInt ≤ (l.foldl (fun r n => IntOp.maxsi r (g n)) v).toInt)
      ∧ (l.foldl (fun r n => IntOp.maxsi r (g n)) v = v ∨ ∃ n ∈ l, l.foldl (fun r n => IntOp.maxsi r (g n)) v = g n)
  | [], v => ⟨le_rfl, fun _ h => absurd h (List.not_mem_nil), Or.inl rfl⟩
  | a :: l, v => by
    obtain ⟨h1, h2, h3⟩ := foldl_maxsi_spec g l (IntOp.maxsi v (g a))
    rw [toInt_maxsi] at h1
    rw [List.foldl_cons]
    refine ⟨le_trans (le_max_left _ _) h1, fun n hn => ?_, ?_⟩
    · rcases List.mem_cons.mp hn with rfl | hn
      · exact le_trans (le_max_right _ _) h1
      · exact h2 n hn
    · rcases h3 with h3 | ⟨n, hn, h3⟩
      · rw [h3]
        rcases max_cases v.toInt (g a).toInt with ⟨hm, _⟩ | ⟨hm, _⟩
        · exact Or.inl (BitVec.eq_of_toInt_eq (by rw [toInt_maxsi, hm]))
        · exact Or.inr ⟨a, List.mem_cons_self, BitVec.eq_of_toInt_eq (by rw [toInt_maxsi, hm])⟩
      · exact Or.inr ⟨n, List.mem_cons_of_mem _ hn, h3⟩

/-- A left fold of the signed maximum from a start no larger than a j, over elements each of which is the start or an
    entry of the prefix a 0, ..., a j, and among which every entry of the prefix occurs: the greatest of the prefix. -/
theorem isPrefMax_of_foldl_maxsi {ι : Type} {w : ℕ} (l : List ι) (E : ι → BitVec w) (v : BitVec w) (a : ℕ → ℤ) (j : ℕ)
    (hv : v.toInt ≤ a j)
    (hA : ∀ n ∈ l, E n = v ∨ ∃ k, k ≤ j ∧ (E n).toInt = a k)
    (hB : ∀ k, k ≤ j → ∃ n ∈ l, (E n).toInt = a k) :
    IsPrefMax a j (l.foldl (fun r n => IntOp.maxsi r (E n)) v).toInt := by
  obtain ⟨_, f2, f3⟩ := foldl_maxsi_spec E l v
  have hjj : a j ≤ (l.foldl (fun r n => IntOp.maxsi r (E n)) v).toInt := by
    obtain ⟨n, hn, e⟩ := hB j le_rfl
    rw [← e]; exact f2 n hn
  have hinit : l.foldl (fun r n => IntOp.maxsi r (E n)) v = v
      → ∃ k, k ≤ j ∧ (l.foldl (fun r n => IntOp.maxsi r (E n)) v).toInt = a k :=
    fun e0 => ⟨j, le_rfl, le_antisymm (by rw [e0]; exact hv) hjj⟩
  refine ⟨fun k hk => ?_, ?_⟩
  · obtain ⟨n, hn, e⟩ := hB k hk
    rw [← e]; exact f2 n hn
  · rcases f3 with e0 | ⟨n, hn, en⟩
    · exact hinit e0
    · rcases hA n hn with e1 | ⟨k, hk, e1⟩
      · exact hinit (en.trans e1)
      · exact ⟨k, hk, by rw [en, e1]⟩

/-- An integer as an extended real. -/
def toE (z : ℤ) : EReal := ((z : ℝ) : EReal)

theorem toE_mono : Monotone toE := fun _ _ h => EReal.coe_le_coe_iff.mpr (Int.cast_le.mpr h)

/-- Over a nonempty finite set, with a starting word no larger than any value: the signed maximum, converted, is the
    extended reals' maximum from bottom of the converted values. -/
theorem fold_max_coe_toInt {ι : Type} {w : ℕ} (s : Finset ι) (g : ι → BitVec w) (hs : s.Nonempty) (v : BitVec w)
    (hv : ∀ k ∈ s, v.toInt ≤ (g k).toInt) :
    s.fold max (⊥ : EReal) (fun k => toE (g k).toInt) = toE (s.fold IntOp.maxsi v g).toInt := by
  classical
  have key : ∀ t : Finset ι, max (toE v.toInt) (t.fold max (⊥ : EReal) (fun k => toE (g k).toInt))
      = toE (t.fold IntOp.maxsi v g).toInt := by
    intro t
    induction t using Finset.induction_on with
    | empty => rw [Finset.fold_empty, Finset.fold_empty, max_eq_left bot_le]
    | insert a t ha ih =>
      rw [Finset.fold_insert ha, Finset.fold_insert ha, max_left_comm, ih, toInt_maxsi, toE_mono.map_max]
  rw [← key s]
  obtain ⟨k, hk⟩ := hs
  refine (max_eq_right ?_).symm
  exact le_trans (toE_mono (hv k hk)) ((Finset.le_fold_max _).mpr (Or.inr ⟨k, hk, le_rfl⟩))

end Cert.PrefixMax
-- ==== Proof.LibReduceRead.lean ====
/-
  One-axis reductions of a matrix [A, B], read at coordinates.

  The library reads a reduction over one axis at a reduced index j as a sum (or a fold) over the dropped axis's
  coordinates k of the source at 'j with k inserted' (Shape.Reduces.lift). For a matrix that index is (r, k) when the
  columns are reduced and (k, c) when the rows are (lift_axis1, lift_axis0). With them: a float sum over either axis as a
  Fin-indexed sum of entries; a float maximum over the columns as the fold of max from the accumulator's value; and the
  host's one-operand reduce by signed maximum over the columns as the fold of the signed maximum from the initial word.
  The accumulator's proof arguments are left as variables of the type the printed operation carries.
-/
import proofs.«160260_j74964359185003_2_alg».proof.Proof.LibPrefixMax
import Idealize.ShloMosaic.PureOps.Ideal.Laws
import Idealize.ShloMosaic.Lib.ValueIdx

namespace Cert.ReduceRead

open Idealize.ShloMosaic Idealize.ShloMosaic.ValueIdx Cert.PrefixMax

variable {A B : ℕ}

/-- Reducing the columns: the source index over row r with column k inserted is (r, k). -/
theorem lift_axis1 (h : (⟨2, ![A, B]⟩ : Shape).Reduces [1] ⟨1, ![A]⟩) (r : Fin A) (k : Fin B) :
    h.lift (ix1 r) k = ix2 r k := by
  funext c
  apply Fin.ext
  show h.liftVal (ix1 r) k.val c = (ix2 r k c).val
  unfold Shape.Reduces.liftVal
  match c with
  | ⟨0, _⟩ => simp
  | ⟨1, _⟩ => simp

/-- Reducing the rows: the source index over column c with row k inserted is (k, c). -/
theorem lift_axis0 (h : (⟨2, ![A, B]⟩ : Shape).Reduces [0] ⟨1, ![B]⟩) (c : Fin B) (k : Fin A) :
    h.lift (ix1 c) k = ix2 k c := by
  funext d
  apply Fin.ext
  show h.liftVal (ix1 c) k.val d = (ix2 k c d).val
  unfold Shape.Reduces.liftVal
  match d with
  | ⟨0, _⟩ => simp
  | ⟨1, _⟩ => simp

/-- A float sum over the columns, at row r: the sum of the row's entries. -/
theorem add_axis1 {φ : FTy} (src : FVec Ideal (⟨2, ![A, B]⟩ : Shape) φ) (acc : BitVec φ.bits)
    (h : (⟨2, ![A, B]⟩ : Shape).Reduces [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) :=
  (Ideal.multiReduction_add_single src acc h hφ hacc (ix1 r)).trans
    (Finset.sum_congr rfl fun k _ => congrArg src (lift_axis1 h r k))

/-- A float sum over the rows, at column c: the sum of the column's entries. -/
theorem add_axis0 {φ : FTy} (src : FVec Ideal (⟨2, ![A, B]⟩ : Shape) φ) (acc : BitVec φ.bits)
    (h : (⟨2, ![A, B]⟩ : Shape).Reduces [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) :=
  (Ideal.multiReduction_add_single src acc h hφ hacc (ix1 c)).trans
    (Finset.sum_congr rfl fun k _ => congrArg src (lift_axis0 h c k))

/-- A float maximum over the columns, at row r: the fold of max over the row's entries from the accumulator's value. -/
theorem max_axis1 {φ : FTy} (src : FVec Ideal (⟨2, ![A, B]⟩ : Shape) φ) (acc : BitVec φ.bits)
    (h : (⟨2, ![A, B]⟩ : Shape).Reduces [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (FloatOps.ofBits φ acc) (fun k => src (ix2 r k)) :=
  (Ideal.multiReduction_maximumf_single src acc h hφ hacc (ix1 r)).trans
    (congrArg (fun f => (Finset.univ : Finset (Fin B)).fold max (FloatOps.ofBits φ acc) f)
      (funext fun k => congrArg src (lift_axis1 h r k)))

/-- The host's reduce by signed maximum over the columns, at row r: the fold of the signed maximum over the row's entries
    from the initial word. -/
theorem hostMaxsi_axis1 {u : Shape} (x : (⟨2, ![A, B]⟩ : Shape).Idx → BitVec 32) (init : u.Idx → BitVec 32)
    (h' : (⟨2, ![A, B]⟩ : Shape).ReducesTo [1] ⟨1, ![A]⟩) (h : (⟨2, ![A, B]⟩ : Shape).Reduces [1] ⟨1, ![A]⟩)
    (hu : 0 < u.numel) (r : Fin A) :
    Host.reduce IntOp.maxsi x init h' hu (ix1 r)
      = (Finset.univ : Finset (Fin B)).fold IntOp.maxsi (init (Shape.Idx.first hu)) (fun k => x (ix2 r k)) :=
  (Host.reduce_eq_fold_single IntOp.maxsi x init h' h hu (ix1 r)).trans
    (congrArg (fun f => (Finset.univ : Finset (Fin B)).fold IntOp.maxsi (init (Shape.Idx.first hu)) f)
      (funext fun k => congrArg x (lift_axis1 h r k)))

end Cert.ReduceRead
-- ==== Proof.Region0.lean ====
/-
  The first kernel region: a grid of ten points, point t holding rows 10000·t … 10000·t + 9999 of x and of the scale
  column d, and writing back those rows of x scaled, (r, k) ↦ x(r, k) · d(r, 0). Its blocks tile the [100000, 2] output, so after
  the region the output array is scaleRows x d, whatever the two input arrays hold when the region is entered.
-/
import proofs.«160260_j74964359185003_2_alg».proof.Proof.Gen.KernelIdeal.Frame
import proofs.«160260_j74964359185003_2_alg».proof.Proof.Spec
import proofs.«160260_j74964359185003_2_alg».proof.Proof.LibKeepdims
import proofs.«160260_j74964359185003_2_alg».proof.Proof.LibMatmulRows
import proofs.«160260_j74964359185003_2_alg».proof.Proof.LibReduceRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Gen Cert.GCN
open Idealize.ShloMosaic Idealize.ShloMosaic.TcCoe Idealize.SL.Sem Idealize.ShloMosaic.ValueIdx
open Idealize.ShloMosaic.Pipeline (Dat)

theorem hz0 : (![0, 0] : Fin 2 → Nat) = fun _ => 0 := funext fun a => by fin_cases a <;> rfl

/-- The body's stored value at (r, k): the row's entry times the row's scale. -/
theorem pay0_apply (x0 : Vec Ideal S10000x2 .f32) (x1 : Vec Ideal S10000x1 .f32) (r : Fin 10000) (k : Fin 2) :
    k0_pay1 (F := Ideal) x0 x1 (ix2 r k) = x0 (ix2 r k) * x1 (ix2 r 0) := by
  unfold k0_pay1
  rw [mulf_apply, Cert.LibKeepdims.broadcastTo_a1_ab_apply, shapeCast_self]

/-- The printed index maps over the grid: a row-blocked window sits at block t, a whole window at block 0; every column block is 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem lt0 (t : Fin cfg0.N) : t.val < 10 := by
  have h := t.isLt
  have hN : cfg0.N = 10 := N_0
  omega

section
variable (V : (c : Dev nD) → (b : Ref sig .tc) → Buf (Elt Ideal) ((c : Thread nD τ).loc b))

/-- WHAT POINT t WRITES BACK is block t of the whole-array function. -/
theorem flushed0 (c : Dev nD) (t : Fin cfg0.N) :
    (dat0 (F := Ideal) V c).flushed 2 t
      = ((cfg0.win 2).blk t).view.read (Elt Ideal) (scaleRows (V c main_arg0) (V c main_v17)) := by
  show (cfg0.win 2).cut (grid0.coords t) ((dat0 (F := Ideal) V c).after 2 t) = _
  rw [after0_2]
  unfold out0_2
  rw [View.canon_unit_zero hz0]
  simp only [View.ld_unit_zero (S := S10000x2) hz0, View.ld_unit_zero (S := S10000x1) hz0]
  obtain ⟨e0, e1, e2, e3, e4, e5⟩ := idx_facts0 t
  have ht := lt0 t
  funext j
  obtain ⟨r, k, rfl⟩ : ∃ (r : Fin 10000) (k : Fin 2), j = ix2 r k := ⟨j 0, j 1, eq_ix2 j⟩
  show k0_pay1 (F := Ideal) (iblk0 V c 0 t) (iblk0 V c 1 t) (ix2 r k)
    = (scaleRows (V c main_arg0) (V c main_v17)) (((cfg0.win 2).blk t).view.emb (ix2 r k))
  refine (pay0_apply _ _ r k).trans ?_
  have hr := r.isLt
  have hk := k.isLt
  have hO : ((cfg0.win 2).blk t).view.emb (ix2 r k) = ix2 (⟨t.val * 10000 + r.val, by omega⟩ : Fin 100000) k := by
    funext a; apply Fin.ext
    match a with
    | ⟨0, _⟩ => show win0_2.index t (0 : Fin 2) * 10000 + 1 * r.val = t.val * 10000 + r.val; omega
    | ⟨1, _⟩ => show win0_2.index t (1 : Fin 2) * 2 + 1 * k.val = k.val; omega
  have rd0 : iblk0 V c 0 t (ix2 r k) = V c main_arg0 (ix2 (⟨t.val * 10000 + r.val, by omega⟩ : Fin 100000) k) := by
    show V c main_arg0 (((cfg0.win 0).blk t).view.emb (ix2 r k)) = _
    refine congrArg _ (funext fun a => Fin.ext ?_)
    match a with
    | ⟨0, _⟩ => show win0_0.index t (0 : Fin 2) * 10000 + 1 * r.val = t.val * 10000 + r.val; omega
    | ⟨1, _⟩ => show win0_0.index t (1 : Fin 2) * 2 + 1 * k.val = k.val; omega
  have rd1 : iblk0 V c 1 t (ix2 r (0 : Fin 1)) = V c main_v17 (ix2 (⟨t.val * 10000 + r.val, by omega⟩ : Fin 100000) (0 : Fin 1)) := by
    show V c main_v17 (((cfg0.win 1).blk t).view.emb (ix2 r (0 : Fin 1))) = _
    refine congrArg _ (funext fun a => Fin.ext ?_)
    match a with
    | ⟨0, _⟩ => show win0_1.index t (0 : Fin 2) * 10000 + 1 * r.val = t.val * 10000 + r.val; omega
    | ⟨1, _⟩ => show win0_1.index t (1 : Fin 2) * 1 + 1 * 0 = 0; omega
  rw [hO, scaleRows_apply]
  rw [rd0, rd1]

/-- An index of the output array is in point t's block iff each coordinate is in the block's range on its axis. -/
theorem mem_blk0 (t : Fin cfg0.N) (i : S100000x2.Idx) :
    i ∈ ((cfg0.win 2).blk t).view.set ↔ ∀ a : Fin 2, win0_2.index t a * S10000x2.size a ≤ (i a).val ∧ (i a).val < win0_2.index t a * S10000x2.size a + S10000x2.size a := by
  show i ∈ ((View.whole main_v18).slice (win0_2.rect t)).set ↔ _
  rw [View.set_slice_whole, Rect.mem_set_unit]
  exact Iff.rfl

/-- Row r of the output lies in the block of point r / 10000. -/
theorem cover0 (i : S100000x2.Idx) : ∃ t : Fin cfg0.N, (cfg0.win 2).flush t = true ∧ i ∈ ((cfg0.win 2).blk t).view.set := by
  have hi0 : (i 0).val < 100000 := (i 0).isLt
  have hi1 : (i 1).val < 2 := (i 1).isLt
  let t : Fin cfg0.N := ⟨(i 0).val / 10000, by rw [show cfg0.N = 10 from N_0]; omega⟩
  refine ⟨t, flush0_2 t, ?_⟩
  obtain ⟨e0, e1, e2, e3, e4, e5⟩ := idx_facts0 t
  have htv : t.val = (i 0).val / 10000 := rfl
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 2 ≤ (i 1).val ∧ (i 1).val < win0_2.index t (1 : Fin 2) * 2 + 2; omega

/-- THE ARRAY after the region. -/
theorem arr0 (c : Dev nD) :
    (dat0 (F := Ideal) V c).arrAt 2 cfg0.N = scaleRows (V c main_arg0) (V c main_v17) :=
  (dat0 (F := Ideal) V c).arrAt_eq_of_cover 2 _ (fun t _ => flushed0 V c t) cover0

end

end Cert.KernelIdeal.Regions

end
-- ==== Proof.Region1.lean ====
/-
  The second kernel region: point t holds rows 10000·t … of the aggregated features p and of the scale column d, the whole
  [2, 16] weights and the [1, 16] bias row, and writes back, for those rows,
  (r, f) ↦ max(Σ_a (p(r, a) · d(r, 0)) · W(a, f) + b(0, f), 0). Its blocks tile the [100000, 16] output.
-/
import proofs.«160260_j74964359185003_2_alg».proof.Proof.Gen.KernelIdeal.Frame
import proofs.«160260_j74964359185003_2_alg».proof.Proof.Spec
import proofs.«160260_j74964359185003_2_alg».proof.Proof.LibKeepdims
import proofs.«160260_j74964359185003_2_alg».proof.Proof.LibMatmulRows
import proofs.«160260_j74964359185003_2_alg».proof.Proof.LibReduceRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Gen Cert.GCN
open Idealize.ShloMosaic Idealize.ShloMosaic.TcCoe Idealize.SL.Sem Idealize.ShloMosaic.ValueIdx
open Idealize.ShloMosaic.Pipeline (Dat)

theorem hz1 : (![0, 0] : Fin 2 → Nat) = fun _ => 0 := funext fun a => by fin_cases a <;> rfl

/-- Which operand entries the product's dimension numbers read at an output index and a contraction index. -/
theorem dot_S10000x2_S2x16_S10000x16_1_0_0_1_n_n_l0 (i : S10000x16.Idx) (q : dot_S10000x2_S2x16_S10000x16_1_0_0_1_n_n.contr.Idx) : (dot_S10000x2_S2x16_S10000x16_1_0_0_1_n_n.lhsIdx i q 0).val = (i 0).val := by
  unfold DotDims.lhsIdx
  rw [dif_neg (show ¬(0 : Fin S10000x2.rank) ∈ dot_S10000x2_S2x16_S10000x16_1_0_0_1_n_n.lhsBatch by decide), dif_pos (show (0 : Fin S10000x2.rank) ∈ dot_S10000x2_S2x16_S10000x16_1_0_0_1_n_n.lhsNonContracting by decide)]
  rfl
theorem dot_S10000x2_S2x16_S10000x16_1_0_0_1_n_n_l1 (i : S10000x16.Idx) (q : dot_S10000x2_S2x16_S10000x16_1_0_0_1_n_n.contr.Idx) : (dot_S10000x2_S2x16_S10000x16_1_0_0_1_n_n.lhsIdx i q 1).val = (q ⟨0, by decide⟩).val :=
  dot_S10000x2_S2x16_S10000x16_1_0_0_1_n_n.lhsIdx_val_of_single rfl i q
theorem dot_S10000x2_S2x16_S10000x16_1_0_0_1_n_n_r0 (i : S10000x16.Idx) (q : dot_S10000x2_S2x16_S10000x16_1_0_0_1_n_n.contr.Idx) : (dot_S10000x2_S2x16_S10000x16_1_0_0_1_n_n.rhsIdx i q 0).val = (q ⟨0, by decide⟩).val :=
  dot_S10000x2_S2x16_S10000x16_1_0_0_1_n_n.rhsIdx_val_of_single rfl i q
theorem dot_S10000x2_S2x16_S10000x16_1_0_0_1_n_n_r1 (i : S10000x16.Idx) (q : dot_S10000x2_S2x16_S10000x16_1_0_0_1_n_n.contr.Idx) : (dot_S10000x2_S2x16_S10000x16_1_0_0_1_n_n.rhsIdx i q 1).val = (i 1).val := by
  unfold DotDims.rhsIdx
  rw [dif_neg (show ¬(1 : Fin S2x16.rank) ∈ dot_S10000x2_S2x16_S10000x16_1_0_0_1_n_n.rhsBatch by decide), dif_pos (show (1 : Fin S2x16.rank) ∈ dot_S10000x2_S2x16_S10000x16_1_0_0_1_n_n.rhsNonContracting by decide)]
  rfl

/-- The body's stored value at (r, f): the scaled row times column f of the weights, plus the bias, clamped below at 0. -/
theorem pay1_apply (x0 : Vec Ideal S10000x2 .f32) (x1 : Vec Ideal S10000x1 .f32) (x2 : Vec Ideal S2x16 .f32) (x3 : Vec Ideal S1x16 .f32)
    (r : Fin 10000) (f : Fin 16) :
    k1_pay1 (F := Ideal) x0 x1 x2 x3 (ix2 r f)
      = max ((∑ a : Fin 2, (x0 (ix2 r a) * x1 (ix2 r 0)) * x2 (ix2 a f)) + x3 (ix2 0 f)) 0 := by
  unfold k1_pay1
  rw [maximumf_apply, addf_apply, broadcast_apply, broadcastTo_1b_ab_apply]
  simp only [shapeCast_self]
  refine congrArg₂ max (congrArg (· + x3 (ix2 0 f)) ?_) Ideal.ofBits_zero_f32
  refine (Cert.LibMatmulRows.matmul_zero_ix2 dot_S10000x2_S2x16_S10000x16_1_0_0_1_n_n rfl rfl dot_S10000x2_S2x16_S10000x16_1_0_0_1_n_n_l0 dot_S10000x2_S2x16_S10000x16_1_0_0_1_n_n_l1 dot_S10000x2_S2x16_S10000x16_1_0_0_1_n_n_r0 dot_S10000x2_S2x16_S10000x16_1_0_0_1_n_n_r1 none _ x2 r f).trans ?_
  refine Finset.sum_congr rfl fun a _ => ?_
  rw [mulf_apply, Cert.LibKeepdims.broadcastTo_a1_ab_apply]

/-- The printed index maps over the grid: a row-blocked window sits at block t, a whole window at block 0; every column block is 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt1 (t : Fin cfg1.N) : t.val < 10 := by
  have h := t.isLt
  have hN : cfg1.N = 10 := N_1
  omega

section
variable (V : (c : Dev nD) → (b : Ref sig .tc) → Buf (Elt Ideal) ((c : Thread nD τ).loc b))

/-- WHAT POINT t WRITES BACK is block t of the whole-array function. -/
theorem flushed1 (c : Dev nD) (t : Fin cfg1.N) :
    (dat1 (F := Ideal) V c).flushed 4 t
      = ((cfg1.win 4).blk t).view.read (Elt Ideal) (hidden (V c main_v28) (V c main_v17) (V c main_arg2) (V c main_v29)) := by
  show (cfg1.win 4).cut (grid1.coords t) ((dat1 (F := Ideal) V c).after 4 t) = _
  rw [after1_4]
  unfold out1_4
  rw [View.canon_unit_zero hz1]
  simp only [View.ld_unit_zero (S := S10000x2) hz1, View.ld_unit_zero (S := S10000x1) hz1, View.ld_unit_zero (S := S2x16) hz1, View.ld_unit_zero (S := S1x16) hz1]
  obtain ⟨e0, e1, e2, e3, e4, e5, e6, e7, e8, e9⟩ := idx_facts1 t
  have ht := lt1 t
  funext j
  obtain ⟨r, k, rfl⟩ : ∃ (r : Fin 10000) (k : Fin 16), j = ix2 r k := ⟨j 0, j 1, eq_ix2 j⟩
  show k1_pay1 (F := Ideal) (iblk1 V c 0 t) (iblk1 V c 1 t) (iblk1 V c 2 t) (iblk1 V c 3 t) (ix2 r k)
    = (hidden (V c main_v28) (V c main_v17) (V c main_arg2) (V c main_v29)) (((cfg1.win 4).blk t).view.emb (ix2 r k))
  refine (pay1_apply _ _ _ _ r k).trans ?_
  have hr := r.isLt
  have hk := k.isLt
  have hO : ((cfg1.win 4).blk t).view.emb (ix2 r k) = ix2 (⟨t.val * 10000 + r.val, by omega⟩ : Fin 100000) k := by
    funext a; apply Fin.ext
    match a with
    | ⟨0, _⟩ => show win1_4.index t (0 : Fin 2) * 10000 + 1 * r.val = t.val * 10000 + r.val; omega
    | ⟨1, _⟩ => show win1_4.index t (1 : Fin 2) * 16 + 1 * k.val = k.val; omega
  have rd0 : ∀ (a : Fin 2), iblk1 V c 0 t (ix2 r a) = V c main_v28 (ix2 (⟨t.val * 10000 + r.val, by omega⟩ : Fin 100000) a) := fun a => by
    show V c main_v28 (((cfg1.win 0).blk t).view.emb (ix2 r a)) = _
    refine congrArg _ (funext fun ax => Fin.ext ?_)
    match ax with
    | ⟨0, _⟩ => show win1_0.index t (0 : Fin 2) * 10000 + 1 * r.val = t.val * 10000 + r.val; omega
    | ⟨1, _⟩ => show win1_0.index t (1 : Fin 2) * 2 + 1 * (a : Fin 2).val = (a : Fin 2).val; omega
  have rd1 : iblk1 V c 1 t (ix2 r (0 : Fin 1)) = V c main_v17 (ix2 (⟨t.val * 10000 + r.val, by omega⟩ : Fin 100000) (0 : Fin 1)) := by
    show V c main_v17 (((cfg1.win 1).blk t).view.emb (ix2 r (0 : Fin 1))) = _
    refine congrArg _ (funext fun ax => Fin.ext ?_)
    match ax with
    | ⟨0, _⟩ => show win1_1.index t (0 : Fin 2) * 10000 + 1 * r.val = t.val * 10000 + r.val; omega
    | ⟨1, _⟩ => show win1_1.index t (1 : Fin 2) * 1 + 1 * 0 = 0; omega
  have rd2 : ∀ (a : Fin 2), iblk1 V c 2 t (ix2 a k) = V c main_arg2 (ix2 a k) := fun a => by
    show V c main_arg2 (((cfg1.win 2).blk t).view.emb (ix2 a k)) = _
    refine congrArg _ (funext fun ax => Fin.ext ?_)
    match ax with
    | ⟨0, _⟩ => show win1_2.index t (0 : Fin 2) * 2 + 1 * (a : Fin 2).val = (a : Fin 2).val; omega
    | ⟨1, _⟩ => show win1_2.index t (1 : Fin 2) * 16 + 1 * (k : Fin 16).val = (k : Fin 16).val; omega
  have rd3 : iblk1 V c 3 t (ix2 (0 : Fin 1) k) = V c main_v29 (ix2 (0 : Fin 1) k) := by
    show V c main_v29 (((cfg1.win 3).blk t).view.emb (ix2 (0 : Fin 1) k)) = _
    refine congrArg _ (funext fun ax => Fin.ext ?_)
    match ax with
    | ⟨0, _⟩ => show win1_3.index t (0 : Fin 2) * 1 + 1 * 0 = 0; omega
    | ⟨1, _⟩ => show win1_3.index t (1 : Fin 2) * 16 + 1 * k.val = k.val; omega
  rw [hO, hidden_apply]
  simp only [rd0, rd1, rd2, rd3]

/-- An index of the output array is in point t's block iff each coordinate is in the block's range on its axis. -/
theorem mem_blk1 (t : Fin cfg1.N) (i : S100000x16.Idx) :
    i ∈ ((cfg1.win 4).blk t).view.set ↔ ∀ a : Fin 2, win1_4.index t a * S10000x16.size a ≤ (i a).val ∧ (i a).val < win1_4.index t a * S10000x16.size a + S10000x16.size a := by
  show i ∈ ((View.whole main_v30).slice (win1_4.rect t)).set ↔ _
  rw [View.set_slice_whole, Rect.mem_set_unit]
  exact Iff.rfl

/-- Row r of the output lies in the block of point r / 10000. -/
theorem cover1 (i : S100000x16.Idx) : ∃ t : Fin cfg1.N, (cfg1.win 4).flush t = true ∧ i ∈ ((cfg1.win 4).blk t).view.set := by
  have hi0 : (i 0).val < 100000 := (i 0).isLt
  have hi1 : (i 1).val < 16 := (i 1).isLt
  let t : Fin cfg1.N := ⟨(i 0).val / 10000, by rw [show cfg1.N = 10 from N_1]; omega⟩
  refine ⟨t, flush1_4 t, ?_⟩
  obtain ⟨e0, e1, e2, e3, e4, e5, e6, e7, e8, e9⟩ := idx_facts1 t
  have htv : t.val = (i 0).val / 10000 := rfl
  rw [mem_blk1]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 16 ≤ (i 1).val ∧ (i 1).val < win1_4.index t (1 : Fin 2) * 16 + 16; omega

/-- THE ARRAY after the region. -/
theorem arr1 (c : Dev nD) :
    (dat1 (F := Ideal) V c).arrAt 4 cfg1.N = hidden (V c main_v28) (V c main_v17) (V c main_arg2) (V c main_v29) :=
  (dat1 (F := Ideal) V c).arrAt_eq_of_cover 4 _ (fun t _ => flushed1 V c t) cover1

end

end Cert.KernelIdeal.Regions

end
-- ==== Proof.Region2.lean ====
/-
  The third kernel region: point t holds rows 10000·t … of the hidden features a and of the scale column d and the whole
  [16, 2] weights, and writes back, for those rows, (r, c) ↦ (Σ_q a(r, q) · W(q, c)) · d(r, 0). Its blocks tile the
  [100000, 2] output.
-/
import proofs.«160260_j74964359185003_2_alg».proof.Proof.Gen.KernelIdeal.Frame
import proofs.«160260_j74964359185003_2_alg».proof.Proof.Spec
import proofs.«160260_j74964359185003_2_alg».proof.Proof.LibKeepdims
import proofs.«160260_j74964359185003_2_alg».proof.Proof.LibMatmulRows
import proofs.«160260_j74964359185003_2_alg».proof.Proof.LibReduceRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Gen Cert.GCN
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl

/-- Which operand entries the product's dimension numbers read at an output index and a contraction index. -/
theorem dot_S10000x16_S16x2_S10000x2_1_0_0_1_n_n_l0 (i : S10000x2.Idx) (q : dot_S10000x16_S16x2_S10000x2_1_0_0_1_n_n.contr.Idx) : (dot_S10000x16_S16x2_S10000x2_1_0_0_1_n_n.lhsIdx i q 0).val = (i 0).val := by
  unfold DotDims.lhsIdx
  rw [dif_neg (show ¬(0 : Fin S10000x16.rank) ∈ dot_S10000x16_S16x2_S10000x2_1_0_0_1_n_n.lhsBatch by decide), dif_pos (show (0 : Fin S10000x16.rank) ∈ dot_S10000x16_S16x2_S10000x2_1_0_0_1_n_n.lhsNonContracting by decide)]
  rfl
theorem dot_S10000x16_S16x2_S10000x2_1_0_0_1_n_n_l1 (i : S10000x2.Idx) (q : dot_S10000x16_S16x2_S10000x2_1_0_0_1_n_n.contr.Idx) : (dot_S10000x16_S16x2_S10000x2_1_0_0_1_n_n.lhsIdx i q 1).val = (q ⟨0, by decide⟩).val :=
  dot_S10000x16_S16x2_S10000x2_1_0_0_1_n_n.lhsIdx_val_of_single rfl i q
theorem dot_S10000x16_S16x2_S10000x2_1_0_0_1_n_n_r0 (i : S10000x2.Idx) (q : dot_S10000x16_S16x2_S10000x2_1_0_0_1_n_n.contr.Idx) : (dot_S10000x16_S16x2_S10000x2_1_0_0_1_n_n.rhsIdx i q 0).val = (q ⟨0, by decide⟩).val :=
  dot_S10000x16_S16x2_S10000x2_1_0_0_1_n_n.rhsIdx_val_of_single rfl i q
theorem dot_S10000x16_S16x2_S10000x2_1_0_0_1_n_n_r1 (i : S10000x2.Idx) (q : dot_S10000x16_S16x2_S10000x2_1_0_0_1_n_n.contr.Idx) : (dot_S10000x16_S16x2_S10000x2_1_0_0_1_n_n.rhsIdx i q 1).val = (i 1).val := by
  unfold DotDims.rhsIdx
  rw [dif_neg (show ¬(1 : Fin S16x2.rank) ∈ dot_S10000x16_S16x2_S10000x2_1_0_0_1_n_n.rhsBatch by decide), dif_pos (show (1 : Fin S16x2.rank) ∈ dot_S10000x16_S16x2_S10000x2_1_0_0_1_n_n.rhsNonContracting by decide)]
  rfl

/-- The body's stored value at (r, c): the row times column c of the weights, then the row's scale. -/
theorem pay2_apply (x0 : Vec Ideal S10000x16 .f32) (x1 : Vec Ideal S16x2 .f32) (x2 : Vec Ideal S10000x1 .f32)
    (r : Fin 10000) (c : Fin 2) :
    k2_pay1 (F := Ideal) x0 x1 x2 (ix2 r c) = (∑ q : Fin 16, x0 (ix2 r q) * x1 (ix2 q c)) * x2 (ix2 r 0) := by
  unfold k2_pay1
  rw [mulf_apply, Cert.LibKeepdims.broadcastTo_a1_ab_apply, shapeCast_self, shapeCast_self]
  exact congrArg (· * x2 (ix2 r 0)) (Cert.LibMatmulRows.matmul_zero_ix2 dot_S10000x16_S16x2_S10000x2_1_0_0_1_n_n rfl rfl dot_S10000x16_S16x2_S10000x2_1_0_0_1_n_n_l0 dot_S10000x16_S16x2_S10000x2_1_0_0_1_n_n_l1 dot_S10000x16_S16x2_S10000x2_1_0_0_1_n_n_r0 dot_S10000x16_S16x2_S10000x2_1_0_0_1_n_n_r1 none x0 x1 r c)

/-- The printed index maps over the grid: a row-blocked window sits at block t, a whole window at block 0; every column block is 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem lt2 (t : Fin cfg2.N) : t.val < 10 := by
  have h := t.isLt
  have hN : cfg2.N = 10 := N_2
  omega

section
variable (V : (c : Dev nD) → (b : Ref sig .tc) → Buf (Elt Ideal) ((c : Thread nD τ).loc b))

/-- WHAT POINT t WRITES BACK is block t of the whole-array function. -/
theorem flushed2 (c : Dev nD) (t : Fin cfg2.N) :
    (dat2 (F := Ideal) V c).flushed 3 t
      = ((cfg2.win 3).blk t).view.read (Elt Ideal) (project (V c main_v30) (V c main_arg4) (V c main_v17)) := by
  show (cfg2.win 3).cut (grid2.coords t) ((dat2 (F := Ideal) V c).after 3 t) = _
  rw [after2_3]
  unfold out2_3
  rw [View.canon_unit_zero hz2]
  simp only [View.ld_unit_zero (S := S10000x16) hz2, View.ld_unit_zero (S := S16x2) hz2, View.ld_unit_zero (S := S10000x1) hz2]
  obtain ⟨e0, e1, e2, e3, e4, e5, e6, e7⟩ := idx_facts2 t
  have ht := lt2 t
  funext j
  obtain ⟨r, k, rfl⟩ : ∃ (r : Fin 10000) (k : Fin 2), j = ix2 r k := ⟨j 0, j 1, eq_ix2 j⟩
  show k2_pay1 (F := Ideal) (iblk2 V c 0 t) (iblk2 V c 1 t) (iblk2 V c 2 t) (ix2 r k)
    = (project (V c main_v30) (V c main_arg4) (V c main_v17)) (((cfg2.win 3).blk t).view.emb (ix2 r k))
  refine (pay2_apply _ _ _ r k).trans ?_
  have hr := r.isLt
  have hk := k.isLt
  have hO : ((cfg2.win 3).blk t).view.emb (ix2 r k) = ix2 (⟨t.val * 10000 + r.val, by omega⟩ : Fin 100000) k := by
    funext a; apply Fin.ext
    match a with
    | ⟨0, _⟩ => show win2_3.index t (0 : Fin 2) * 10000 + 1 * r.val = t.val * 10000 + r.val; omega
    | ⟨1, _⟩ => show win2_3.index t (1 : Fin 2) * 2 + 1 * k.val = k.val; omega
  have rd0 : ∀ (q : Fin 16), iblk2 V c 0 t (ix2 r q) = V c main_v30 (ix2 (⟨t.val * 10000 + r.val, by omega⟩ : Fin 100000) q) := fun q => by
    show V c main_v30 (((cfg2.win 0).blk t).view.emb (ix2 r q)) = _
    refine congrArg _ (funext fun a => Fin.ext ?_)
    match a with
    | ⟨0, _⟩ => show win2_0.index t (0 : Fin 2) * 10000 + 1 * r.val = t.val * 10000 + r.val; omega
    | ⟨1, _⟩ => show win2_0.index t (1 : Fin 2) * 16 + 1 * (q : Fin 16).val = (q : Fin 16).val; omega
  have rd1 : ∀ (q : Fin 16), iblk2 V c 1 t (ix2 q k) = V c main_arg4 (ix2 q k) := fun q => by
    show V c main_arg4 (((cfg2.win 1).blk t).view.emb (ix2 q k)) = _
    refine congrArg _ (funext fun a => Fin.ext ?_)
    match a with
    | ⟨0, _⟩ => show win2_1.index t (0 : Fin 2) * 16 + 1 * (q : Fin 16).val = (q : Fin 16).val; omega
    | ⟨1, _⟩ => show win2_1.index t (1 : Fin 2) * 2 + 1 * (k : Fin 2).val = (k : Fin 2).val; omega
  have rd2 : iblk2 V c 2 t (ix2 r (0 : Fin 1)) = V c main_v17 (ix2 (⟨t.val * 10000 + r.val, by omega⟩ : Fin 100000) (0 : Fin 1)) := by
    show V c main_v17 (((cfg2.win 2).blk t).view.emb (ix2 r (0 : Fin 1))) = _
    refine congrArg _ (funext fun a => Fin.ext ?_)
    match a with
    | ⟨0, _⟩ => show win2_2.index t (0 : Fin 2) * 10000 + 1 * r.val = t.val * 10000 + r.val; omega
    | ⟨1, _⟩ => show win2_2.index t (1 : Fin 2) * 1 + 1 * 0 = 0; omega
  rw [hO, project_apply]
  simp only [rd0, rd1, rd2]

/-- An index of the output array is in point t's block iff each coordinate is in the block's range on its axis. -/
theorem mem_blk2 (t : Fin cfg2.N) (i : S100000x2.Idx) :
    i ∈ ((cfg2.win 3).blk t).view.set ↔ ∀ a : Fin 2, win2_3.index t a * S10000x2.size a ≤ (i a).val ∧ (i a).val < win2_3.index t a * S10000x2.size a + S10000x2.size a := by
  show i ∈ ((View.whole main_v31).slice (win2_3.rect t)).set ↔ _
  rw [View.set_slice_whole, Rect.mem_set_unit]
  exact Iff.rfl

/-- Row r of the output lies in the block of point r / 10000. -/
theorem cover2 (i : S100000x2.Idx) : ∃ t : Fin cfg2.N, (cfg2.win 3).flush t = true ∧ i ∈ ((cfg2.win 3).blk t).view.set := by
  have hi0 : (i 0).val < 100000 := (i 0).isLt
  have hi1 : (i 1).val < 2 := (i 1).isLt
  let t : Fin cfg2.N := ⟨(i 0).val / 10000, by rw [show cfg2.N = 10 from N_2]; omega⟩
  refine ⟨t, flush2_3 t, ?_⟩
  obtain ⟨e0, e1, e2, e3, e4, e5, e6, e7⟩ := idx_facts2 t
  have htv : t.val = (i 0).val / 10000 := rfl
  rw [mem_blk2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 2 ≤ (i 1).val ∧ (i 1).val < win2_3.index t (1 : Fin 2) * 2 + 2; omega

/-- THE ARRAY after the region. -/
theorem arr2 (c : Dev nD) :
    (dat2 (F := Ideal) V c).arrAt 3 cfg2.N = project (V c main_v30) (V c main_arg4) (V c main_v17) :=
  (dat2 (F := Ideal) V c).arrAt_eq_of_cover 3 _ (fun t _ => flushed2 V c t) cover2

end

end Cert.KernelIdeal.Regions

end
-- ==== Proof.Region3.lean ====
/-
  The fourth kernel region: point t holds rows 10000·t … of the aggregated projections p and of the scale column d and
  the [1, 2] bias row, forms the logits (r, k) ↦ p(r, k) · d(r, 0) + b(0, k) of those rows and writes back the
  log-softmax of each row. Its blocks tile the [100000, 2] output.
-/
import proofs.«160260_j74964359185003_2_alg».proof.Proof.Gen.KernelIdeal.Frame
import proofs.«160260_j74964359185003_2_alg».proof.Proof.Spec
import proofs.«160260_j74964359185003_2_alg».proof.Proof.LibKeepdims
import proofs.«160260_j74964359185003_2_alg».proof.Proof.LibMatmulRows
import proofs.«160260_j74964359185003_2_alg».proof.Proof.LibReduceRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Gen Cert.GCN
open Idealize.ShloMosaic Idealize.ShloMosaic.TcCoe Idealize.SL.Sem Idealize.ShloMosaic.ValueIdx
open Idealize.ShloMosaic.Pipeline (Dat)

theorem hz3 : (![0, 0] : Fin 2 → Nat) = fun _ => 0 := funext fun a => by fin_cases a <;> rfl

/-- The block of logits: each row scaled by its node's scale, plus the bias row. -/
def logitsBlk (x0 : Vec Ideal S10000x2 .f32) (x1 : Vec Ideal S10000x1 .f32) (x2 : Vec Ideal S1x2 .f32) : FVec Ideal S10000x2 .f32 :=
  addf (mulf (shapeCast S10000x2 x0 shapeCasts_S10000x2_S10000x2)
      (broadcastTo S10000x2 (shapeCast S10000x1 x1 shapeCasts_S10000x1_S10000x1) broadcasts_S10000x1_S10000x2))
    (broadcastTo S10000x2 (shapeCast S1x2 x2 shapeCasts_S1x2_S1x2) broadcasts_S1x2_S10000x2)

/-- Every row's maximum (folded from −∞), repeated along the row. -/
def maxCol (v : FVec Ideal S10000x2 .f32) : FVec Ideal S10000x2 .f32 :=
  broadcastTo S10000x2 (shapeCast S10000x1 (multiReduction .maximumf [1] S10000 v 0xFF800000#32 reduces_S10000x2_S10000 (.inl rfl) rfl)
    shapeCasts_S10000_S10000x1) broadcasts_S10000x1_S10000x2

/-- The logarithm of every row's sum, repeated along the row. -/
def lseCol (w : FVec Ideal S10000x2 .f32) : FVec Ideal S10000x2 .f32 :=
  broadcastTo S10000x2 (log (shapeCast S10000x1 (multiReduction .add [1] S10000 w 0x00000000#32 reduces_S10000x2_S10000 (.inl rfl) rfl)
    shapeCasts_S10000_S10000x1)) broadcasts_S10000x1_S10000x2

/-- The body's stored value is the logits shifted by their row maxima, minus the log of the row sums of their exponentials. -/
theorem pay3_eq (x0 : Vec Ideal S10000x2 .f32) (x1 : Vec Ideal S10000x1 .f32) (x2 : Vec Ideal S1x2 .f32) :
    k3_pay1 (F := Ideal) x0 x1 x2
      = subf (subf (logitsBlk x0 x1 x2) (maxCol (logitsBlk x0 x1 x2)))
          (lseCol (exp (subf (logitsBlk x0 x1 x2) (maxCol (logitsBlk x0 x1 x2))))) := rfl

theorem logitsBlk_apply (x0 : Vec Ideal S10000x2 .f32) (x1 : Vec Ideal S10000x1 .f32) (x2 : Vec Ideal S1x2 .f32) (r : Fin 10000) (k : Fin 2) :
    logitsBlk x0 x1 x2 (ix2 r k) = x0 (ix2 r k) * x1 (ix2 r 0) + x2 (ix2 0 k) := by
  unfold logitsBlk
  rw [addf_apply, mulf_apply, shapeCast_self, Cert.LibKeepdims.broadcastTo_a1_ab_apply, shapeCast_self, broadcastTo_1b_ab_apply,
    shapeCast_self]

theorem maxCol_apply (v : FVec Ideal S10000x2 .f32) (r : Fin 10000) (k : Fin 2) :
    maxCol v (ix2 r k) = rowMax (fun k' => v (ix2 r k')) := by
  unfold maxCol
  rw [Cert.LibKeepdims.broadcastTo_a1_ab_apply, Cert.LibKeepdims.shapeCast_a_a1_apply]
  exact Cert.ReduceRead.max_axis1 v _ _ _ _ r

theorem lseCol_apply (w : FVec Ideal S10000x2 .f32) (r : Fin 10000) (k : Fin 2) :
    lseCol w (ix2 r k) = Ideal.log (∑ k' : Fin 2, w (ix2 r k')) := by
  unfold lseCol
  rw [Cert.LibKeepdims.broadcastTo_a1_ab_apply]
  show Ideal.log (shapeCast S10000x1 (multiReduction .add [1] S10000 w 0x00000000#32 reduces_S10000x2_S10000 (.inl rfl) rfl)
    shapeCasts_S10000_S10000x1 (ix2 r 0)) = _
  rw [Cert.LibKeepdims.shapeCast_a_a1_apply]
  exact congrArg Ideal.log (Cert.ReduceRead.add_axis1 w _ _ _ _ r)

/-- The body's stored value at (r, c): the log-softmax of row r of the logits, at entry c. -/
theorem pay3_apply (x0 : Vec Ideal S10000x2 .f32) (x1 : Vec Ideal S10000x1 .f32) (x2 : Vec Ideal S1x2 .f32)
    (r : Fin 10000) (c : Fin 2) :
    k3_pay1 (F := Ideal) x0 x1 x2 (ix2 r c) = lsm (fun k => x0 (ix2 r k) * x1 (ix2 r 0) + x2 (ix2 0 k)) c := by
  rw [pay3_eq, subf_apply, subf_apply, lseCol_apply, maxCol_apply]
  have hE : ∀ k : Fin 2, exp (subf (logitsBlk x0 x1 x2) (maxCol (logitsBlk x0 x1 x2))) (ix2 r k)
      = Ideal.exp (logitsBlk x0 x1 x2 (ix2 r k) - rowMax (fun k' => logitsBlk x0 x1 x2 (ix2 r k'))) := fun k => by
    show Ideal.exp (subf (logitsBlk x0 x1 x2) (maxCol (logitsBlk x0 x1 x2)) (ix2 r k)) = _
    rw [subf_apply, maxCol_apply]
  simp only [hE, logitsBlk_apply]
  rfl

/-- The printed index maps over the grid: a row-blocked window sits at block t, a whole window at block 0; every column block is 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem lt3 (t : Fin cfg3.N) : t.val < 10 := by
  have h := t.isLt
  have hN : cfg3.N = 10 := N_3
  omega

section
variable (V : (c : Dev nD) → (b : Ref sig .tc) → Buf (Elt Ideal) ((c : Thread nD τ).loc b))

/-- WHAT POINT t WRITES BACK is block t of the whole-array function. -/
theorem flushed3 (c : Dev nD) (t : Fin cfg3.N) :
    (dat3 (F := Ideal) V c).flushed 3 t
      = ((cfg3.win 3).blk t).view.read (Elt Ideal) (outRows (V c main_v41) (V c main_v17) (V c main_v42)) := by
  show (cfg3.win 3).cut (grid3.coords t) ((dat3 (F := Ideal) V c).after 3 t) = _
  rw [after3_3]
  unfold out3_3
  rw [View.canon_unit_zero hz3]
  simp only [View.ld_unit_zero (S := S10000x2) hz3, View.ld_unit_zero (S := S10000x1) hz3, View.ld_unit_zero (S := S1x2) hz3]
  obtain ⟨e0, e1, e2, e3, e4, e5, e6, e7⟩ := idx_facts3 t
  have ht := lt3 t
  funext j
  obtain ⟨r, k, rfl⟩ : ∃ (r : Fin 10000) (k : Fin 2), j = ix2 r k := ⟨j 0, j 1, eq_ix2 j⟩
  show k3_pay1 (F := Ideal) (iblk3 V c 0 t) (iblk3 V c 1 t) (iblk3 V c 2 t) (ix2 r k)
    = (outRows (V c main_v41) (V c main_v17) (V c main_v42)) (((cfg3.win 3).blk t).view.emb (ix2 r k))
  refine (pay3_apply _ _ _ r k).trans ?_
  have hr := r.isLt
  have hk := k.isLt
  have hO : ((cfg3.win 3).blk t).view.emb (ix2 r k) = ix2 (⟨t.val * 10000 + r.val, by omega⟩ : Fin 100000) k := by
    funext a; apply Fin.ext
    match a with
    | ⟨0, _⟩ => show win3_3.index t (0 : Fin 2) * 10000 + 1 * r.val = t.val * 10000 + r.val; omega
    | ⟨1, _⟩ => show win3_3.index t (1 : Fin 2) * 2 + 1 * k.val = k.val; omega
  have rd0 : ∀ (q : Fin 2), iblk3 V c 0 t (ix2 r q) = V c main_v41 (ix2 (⟨t.val * 10000 + r.val, by omega⟩ : Fin 100000) q) := fun q => by
    show V c main_v41 (((cfg3.win 0).blk t).view.emb (ix2 r q)) = _
    refine congrArg _ (funext fun a => Fin.ext ?_)
    match a with
    | ⟨0, _⟩ => show win3_0.index t (0 : Fin 2) * 10000 + 1 * r.val = t.val * 10000 + r.val; omega
    | ⟨1, _⟩ => show win3_0.index t (1 : Fin 2) * 2 + 1 * (q : Fin 2).val = (q : Fin 2).val; omega
  have rd1 : iblk3 V c 1 t (ix2 r (0 : Fin 1)) = V c main_v17 (ix2 (⟨t.val * 10000 + r.val, by omega⟩ : Fin 100000) (0 : Fin 1)) := by
    show V c main_v17 (((cfg3.win 1).blk t).view.emb (ix2 r (0 : Fin 1))) = _
    refine congrArg _ (funext fun a => Fin.ext ?_)
    match a with
    | ⟨0, _⟩ => show win3_1.index t (0 : Fin 2) * 10000 + 1 * r.val = t.val * 10000 + r.val; omega
    | ⟨1, _⟩ => show win3_1.index t (1 : Fin 2) * 1 + 1 * 0 = 0; omega
  have rd2 : ∀ (q : Fin 2), iblk3 V c 2 t (ix2 (0 : Fin 1) q) = V c main_v42 (ix2 (0 : Fin 1) q) := fun q => by
    show V c main_v42 (((cfg3.win 2).blk t).view.emb (ix2 (0 : Fin 1) q)) = _
    refine congrArg _ (funext fun a => Fin.ext ?_)
    match a with
    | ⟨0, _⟩ => show win3_2.index t (0 : Fin 2) * 1 + 1 * 0 = 0; omega
    | ⟨1, _⟩ => show win3_2.index t (1 : Fin 2) * 2 + 1 * q.val = q.val; omega
  rw [hO, outRows_apply]
  unfold logitRow
  simp only [rd0, rd1, rd2]

/-- An index of the output array is in point t's block iff each coordinate is in the block's range on its axis. -/
theorem mem_blk3 (t : Fin cfg3.N) (i : S100000x2.Idx) :
    i ∈ ((cfg3.win 3).blk t).view.set ↔ ∀ a : Fin 2, win3_3.index t a * S10000x2.size a ≤ (i a).val ∧ (i a).val < win3_3.index t a * S10000x2.size a + S10000x2.size a := by
  show i ∈ ((View.whole main_v43).slice (win3_3.rect t)).set ↔ _
  rw [View.set_slice_whole, Rect.mem_set_unit]
  exact Iff.rfl

/-- Row r of the output lies in the block of point r / 10000. -/
theorem cover3 (i : S100000x2.Idx) : ∃ t : Fin cfg3.N, (cfg3.win 3).flush t = true ∧ i ∈ ((cfg3.win 3).blk t).view.set := by
  have hi0 : (i 0).val < 100000 := (i 0).isLt
  have hi1 : (i 1).val < 2 := (i 1).isLt
  let t : Fin cfg3.N := ⟨(i 0).val / 10000, by rw [show cfg3.N = 10 from N_3]; omega⟩
  refine ⟨t, flush3_3 t, ?_⟩
  obtain ⟨e0, e1, e2, e3, e4, e5, e6, e7⟩ := idx_facts3 t
  have htv : t.val = (i 0).val / 10000 := rfl
  rw [mem_blk3]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 2 ≤ (i 1).val ∧ (i 1).val < win3_3.index t (1 : Fin 2) * 2 + 2; omega

/-- THE ARRAY after the region. -/
theorem arr3 (c : Dev nD) :
    (dat3 (F := Ideal) V c).arrAt 3 cfg3.N = outRows (V c main_v41) (V c main_v17) (V c main_v42) :=
  (dat3 (F := Ideal) V c).arrAt_eq_of_cover 3 _ (fun t _ => flushed3 V c t) cover3

end

end Cert.KernelIdeal.Regions

end
-- ==== Proof.LibSsaLocal.lean ====
/-
  Straight lines of host operations that write every buffer once.

  A line of operations is run by folding each operation's result over a valuation of the buffers (`after`). When no
  later operation writes a buffer again, what the buffer holds at the end is what its own operation left there, and
  what an operand holds at the end is what it held when the operation read it. So at the end of such a line every
  buffer holds its operation's function of what the operands hold at the end — an equation per operation, each
  mentioning only that operation, however long the line and however often a value is used.

  `not_written` turns "no operation from position K on writes r" into a decidable statement about the list of the
  references the operations write, in order (each operation of Lib/StableHlo.lean writes exactly one).
-/
import Idealize.ShloMosaic.Lib.StableHlo.Run

noncomputable section

namespace Cert.LibSsaLocal

open Idealize.ShloMosaic Idealize.ShloMosaic.TcCoe Idealize.SL.Sem Idealize.ShloMosaic.StableHlo

variable {sig : RefSig} {τ : Topo} {Val : EltTy → Type}

/-- Running two lines one after the other. -/
theorem after_append (l₁ l₂ : List (HloOp τ sig Val)) (F : Valuation τ sig Val) :
    after (l₁ ++ l₂) F = after l₂ (after l₁ F) := by
  induction l₁ generalizing F with
  | nil => rfl
  | cons op l ih => rw [List.cons_append, after_cons, after_cons, ih]

/-- A line cut at any position. -/
theorem after_take_drop (ops : List (HloOp τ sig Val)) (K : Nat) (F : Valuation τ sig Val) :
    after ops F = after (ops.drop K) (after (ops.take K) F) := by
  rw [← after_append, List.take_append_drop]

/-- A buffer no operation writes from position `K` on ends at what it held after the first `K` operations. -/
theorem after_eq_take (ops : List (HloOp τ sig Val)) (K : Nat) (F : Valuation τ sig Val) (b : DevRef τ sig)
    (h : ∀ o ∈ ops.drop K, b ∉ o.writes) : after ops F b = after (ops.take K) F b := by
  rw [after_take_drop ops K F]
  exact after_of_forall_not_mem _ _ h

/-- A buffer written by the operation at position `K` and by none after it ends at that operation's result, computed
    from the valuation the first `K` operations leave. -/
theorem after_at (ops : List (HloOp τ sig Val)) (K : Nat) (op : HloOp τ sig Val)
    (hop : ops.drop K = op :: ops.drop (K + 1)) (F : Valuation τ sig Val) (y : DevRef τ sig)
    (hy : ∀ o ∈ ops.drop (K + 1), y ∉ o.writes) :
    after ops F y = op.result (after (ops.take K) F) y := by
  rw [after_take_drop ops K F, hop, after_cons]
  exact after_of_forall_not_mem _ _ hy

/-- When the operations write, in order, exactly the references `ws`, a reference absent from `ws` past position `K`
    is written by no operation from position `K` on. -/
theorem not_written (ops : List (HloOp τ sig Val)) (ws : List (Ref sig .tc))
    (hws : ops.map (fun o => o.writes) = ws.map (fun r => ({Proc.devRef .tc r} : Finset (DevRef τ sig))))
    (K : Nat) (r : Ref sig .tc) (h : r ∉ ws.drop K) : ∀ o ∈ ops.drop K, Proc.devRef .tc r ∉ o.writes := by
  intro o ho hmem
  have h1 : o.writes ∈ (ops.drop K).map (fun o => o.writes) := List.mem_map.mpr ⟨o, ho, rfl⟩
  rw [List.map_drop, hws, ← List.map_drop] at h1
  obtain ⟨r', hr', e⟩ := List.mem_map.mp h1
  rw [← e, Finset.mem_singleton] at hmem
  exact h (Proc.devRef_injective _ hmem ▸ hr')

end Cert.LibSsaLocal

end
-- ==== Proof.KHost.lean ====
/-
  The idealized kernel's buffers at the boundaries of its @main, as functions of the argument arrays.
  @main is: a host stretch computing the edge sources src and targets dst (the given edges followed by one self loop per
  node), the degree, and the per-node scale d = where(deg > 0, rsqrt(max(deg, ε)), 0) as a column; the first region
  (rows of x scaled); a host stretch that gathers the scaled rows at the edges' sources (a negative word wrapped by N
  first) and scatter-adds them onto the edges' targets; the second and third regions (scale, 2 → 16, bias, relu; then
  16 → 2, scale); the same gather and scatter-add of the projected rows; the fourth region (scale, bias, row-wise
  log-softmax). Each host stretch reads back as its operations composed, each region's output array is its whole-array
  function (Region0 … Region3), and a buffer no later operation or write-back touches keeps its contents. The shared
  host values are named by the reference's stages (the same operations of the edge array): src, dst and the scale.
-/
import proofs.«160260_j74964359185003_2_alg».proof.Proof.Gen.KernelIdeal.Frame
import proofs.«160260_j74964359185003_2_alg».proof.Proof.Region0
import proofs.«160260_j74964359185003_2_alg».proof.Proof.Region1
import proofs.«160260_j74964359185003_2_alg».proof.Proof.Region2
import proofs.«160260_j74964359185003_2_alg».proof.Proof.Region3
import proofs.«160260_j74964359185003_2_alg».proof.Proof.RefRead
import proofs.«160260_j74964359185003_2_alg».proof.Proof.LibSsaLocal
import Idealize.ShloMosaic.Lib.StableHlo.Run

set_option maxRecDepth 16384

noncomputable section

namespace Cert.KernelIdeal.KHost

open Cert.KernelIdeal Cert.KernelIdeal.Gen Cert.KernelIdeal.Regions Cert.GCN
open Idealize.ShloMosaic Idealize.ShloMosaic.TcCoe Idealize.SL.Sem Idealize.ShloMosaic.ValueIdx
open Idealize.ShloMosaic.Pipeline (Dat)

/-- "No operation of the stretch writes this buffer": each operation writes one buffer, and it is another one. -/
macro "nw " ops:ident : tactic => `(tactic| exact List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

variable (m : (ℓ : Loc nD τ sig) → Buf (Elt Ideal) ℓ) (ρ : Dev nD → PrngReg)

/-! ## The shared host values, by the reference's stage names -/

/-- The edges' source words. -/
abbrev srcW (c : Dev nD) := Cert.ReferenceIdeal.ReadP.val_main_v3 (F := Ideal) (m ((c : Thread nD τ).loc main_arg1))
/-- The edges' target words. -/
abbrev dstW (c : Dev nD) := Cert.ReferenceIdeal.ReadP.val_main_v7 (F := Ideal) (m ((c : Thread nD τ).loc main_arg1))
/-- The per-node scale, as a vector. -/
abbrev scaleV (c : Dev nD) := Cert.ReferenceIdeal.ReadP.val_main_v17 (F := Ideal) (m ((c : Thread nD τ).loc main_arg1))
/-- The per-node scale, as a column. -/
def scaleCol (c : Dev nD) : Arr 100000 1 := shapeCast S100000x1 (scaleV m c) shapeCasts_S100000_S100000x1

/-- Gather the rows of a at the edges' sources (a negative word wrapped by N first) and scatter-add them onto the
    edges' targets, into zeros. -/
def agg (dst src : IVec S3300000 32) (a : FVec Ideal S100000x2 .f32) : FVec Ideal S100000x2 .f32 :=
  Host.scatterAdd scatter_S100000x2_S3300000x1_S3300000x2_1_0_0_1
    (broadcastInDim S100000x2 ![] bcast_S_S100000x2 (constant (F := Ideal) S_ .f32 0x00000000#32))
    (broadcastInDim S3300000x1 ![0] bcast_S3300000_S3300000x1_0 dst)
    (Host.gather gather_S100000x2_S3300000x1_S3300000x2_1_0_n_n_0_1_12 a
      (broadcastInDim S3300000x1 ![0] bcast_S3300000_S3300000x1_0
        (select (cmpi .slt src (broadcastInDim S3300000 ![] bcast_S_S3300000 (constantI S_ 32 0#32)))
          (addi src (broadcastInDim S3300000 ![] bcast_S_S3300000 (constantI S_ 32 100000#32))) src)))

/-! ## Up to the first region's entry -/

/-- A buffer none of the first three stretches writes holds its launch contents at the first region's entry. -/
theorem W3_keep (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes) :
    W3 m ρ c (Proc.devRef .tc b) = m ((c : Thread nD τ).loc b) :=
  (StableHlo.after_of_forall_not_mem _ _ h2).trans ((StableHlo.after_of_forall_not_mem _ _ h1).trans
    (StableHlo.after_of_forall_not_mem _ _ h0))

theorem W3_arg0 (c : Dev nD) : W3 m ρ c (Proc.devRef .tc main_arg0) = m ((c : Thread nD τ).loc main_arg0) :=
  W3_keep m ρ c main_arg0 (by nw hostOps0) (by nw hostOps0_1) (by nw hostOps0_2)
theorem W3_arg2 (c : Dev nD) : W3 m ρ c (Proc.devRef .tc main_arg2) = m ((c : Thread nD τ).loc main_arg2) :=
  W3_keep m ρ c main_arg2 (by nw hostOps0) (by nw hostOps0_1) (by nw hostOps0_2)
theorem W3_arg3 (c : Dev nD) : W3 m ρ c (Proc.devRef .tc main_arg3) = m ((c : Thread nD τ).loc main_arg3) :=
  W3_keep m ρ c main_arg3 (by nw hostOps0) (by nw hostOps0_1) (by nw hostOps0_2)
theorem W3_arg4 (c : Dev nD) : W3 m ρ c (Proc.devRef .tc main_arg4) = m ((c : Thread nD τ).loc main_arg4) :=
  W3_keep m ρ c main_arg4 (by nw hostOps0) (by nw hostOps0_1) (by nw hostOps0_2)
theorem W3_arg5 (c : Dev nD) : W3 m ρ c (Proc.devRef .tc main_arg5) = m ((c : Thread nD τ).loc main_arg5) :=
  W3_keep m ρ c main_arg5 (by nw hostOps0) (by nw hostOps0_1) (by nw hostOps0_2)

theorem W3_v3 (c : Dev nD) : W3 m ρ c (Proc.devRef .tc main_v3) = srcW m c := by
  show StableHlo.after hostOps0_2 (StableHlo.after hostOps0_1 (StableHlo.after hostOps0 (W0 m ρ c))) (Proc.devRef .tc main_v3) = _
  simp only [hostOps0, hostOps0_1, hostOps0_2]
  after_results
  rfl

theorem W3_v6 (c : Dev nD) : W3 m ρ c (Proc.devRef .tc main_v6) = dstW m c := by
  show StableHlo.after hostOps0_2 (StableHlo.after hostOps0_1 (StableHlo.after hostOps0 (W0 m ρ c))) (Proc.devRef .tc main_v6) = _
  simp only [hostOps0, hostOps0_1, hostOps0_2]
  after_results
  rfl

/-- The select-against-a-splat call (three operations spelt with typed references), from any contents: typed references made
    of literal buffers carry contents unchanged. -/
theorem where_v16 (Q : Valuation τ sig (Elt Ideal)) :
    StableHlo.after hostOps0_1 Q (Proc.devRef .tc main_v16)
      = (select (Q (Proc.devRef .tc main_v12)) (Q (Proc.devRef .tc main_v15))
          (broadcastInDim S100000 ![] bcast_S_S100000 (id (Q (Proc.devRef .tc main_cst_3)))) : FVec Ideal S100000 .f32) := by
  simp only [hostOps0_1, StableHlo.TRef.unary, StableHlo.TRef.ternary]
  after_results_simp
  rfl

/-- The reshape of the scale into a column, from any contents. -/
theorem col_v17 (Q : Valuation τ sig (Elt Ideal)) :
    StableHlo.after hostOps0_2 Q (Proc.devRef .tc main_v17)
      = (shapeCast S100000x1 (Q (Proc.devRef .tc main_v16)) shapeCasts_S100000_S100000x1 : FVec Ideal S100000x1 .f32) := by
  simp only [hostOps0_2]
  after_results
  rfl

section AnyFloats
variable {F : FTy → Type} [FloatOps F]

/-- The last fourteen operations of the first stretch, from contents holding the target words (a function of the edge
    array): the degree's comparison with 0, the reciprocal square root of the degree clamped below, and the zero word.
    At any float instance: the scatter-add is compared as it stands. -/
theorem tail0_v12 (Q : Valuation τ sig (Elt F)) (x1 : (⟨S2x3200000, .i32⟩ : BufTy).Contents (Elt F))
    (h6 : Q (Proc.devRef .tc main_v6) = Cert.ReferenceIdeal.ReadP.val_main_v7 (F := F) x1) :
    StableHlo.after ((hostOps0 : List (HloOp τ sig (Elt F))).drop 7) Q (Proc.devRef .tc main_v12)
      = Cert.ReferenceIdeal.ReadP.val_main_v13 (F := F) x1 := by
  simp only [hostOps0, List.drop]
  after_results_simp
  rw [h6]
  rfl
theorem tail0_v15 (Q : Valuation τ sig (Elt F)) (x1 : (⟨S2x3200000, .i32⟩ : BufTy).Contents (Elt F))
    (h6 : Q (Proc.devRef .tc main_v6) = Cert.ReferenceIdeal.ReadP.val_main_v7 (F := F) x1) :
    StableHlo.after ((hostOps0 : List (HloOp τ sig (Elt F))).drop 7) Q (Proc.devRef .tc main_v15)
      = Cert.ReferenceIdeal.ReadP.val_main_v16 (F := F) x1 := by
  simp only [hostOps0, List.drop]
  after_results_simp
  rw [h6]
  rfl
theorem tail0_cst3 (Q : Valuation τ sig (Elt F)) :
    StableHlo.after ((hostOps0 : List (HloOp τ sig (Elt F))).drop 7) Q (Proc.devRef .tc main_cst_3)
      = Cert.ReferenceIdeal.ReadP.val_main_cst_3 (F := F) := by
  simp only [hostOps0, List.drop]
  after_results_simp
  rfl

/-- The scale as the reference's stages compose it: the select of the comparison, the reciprocal square root and the
    splat of the zero word. -/
theorem scale_stage (x1 : (⟨S2x3200000, .i32⟩ : BufTy).Contents (Elt F)) :
    (select (Cert.ReferenceIdeal.ReadP.val_main_v13 (F := F) x1) (Cert.ReferenceIdeal.ReadP.val_main_v16 (F := F) x1)
        (broadcastInDim S100000 ![] bcast_S_S100000 (id (Cert.ReferenceIdeal.ReadP.val_main_cst_3 (F := F)))) : FVec F S100000 .f32)
      = Cert.ReferenceIdeal.ReadP.val_main_v17 (F := F) x1 := rfl

end AnyFloats

set_option maxHeartbeats 2000000 in
theorem W3_v17 (c : Dev nD) : W3 m ρ c (Proc.devRef .tc main_v17) = scaleCol m c := by
  show StableHlo.after hostOps0_2 (StableHlo.after hostOps0_1 (StableHlo.after hostOps0 (W0 m ρ c))) (Proc.devRef .tc main_v17) = _
  -- the target words are a concatenation: read them on the seven operations that produce them, then carry them as a buffer
  rw [col_v17, where_v16, Cert.LibSsaLocal.after_take_drop hostOps0 7 (W0 m ρ c)]
  have h6 : StableHlo.after ((hostOps0 : List (HloOp τ sig (Elt Ideal))).take 7) (W0 m ρ c) (Proc.devRef .tc main_v6) = dstW m c := by
    simp only [hostOps0, List.take]
    after_results
    rfl
  rw [tail0_v12 _ _ h6, tail0_v15 _ _ h6, tail0_cst3, scale_stage]
  rfl

/-! ## The first region, and the stretch after it -/

theorem W4_v18 (c : Dev nD) : W4 m ρ c (Proc.devRef .tc main_v18) = scaleRows (m ((c : Thread nD τ).loc main_arg0)) (scaleCol m c) := by
  refine (W4_arr m ρ c 2).trans ((arr0 (V3 m ρ) c).trans ?_)
  exact congrArg₂ scaleRows (W3_arg0 m ρ c) (W3_v17 m ρ c)

theorem W4_v17 (c : Dev nD) : W4 m ρ c (Proc.devRef .tc main_v17) = scaleCol m c :=
  (W4_arr m ρ c 1).trans ((((dat0 (V3 m ρ) c).arrAt_in 1 rfl _).trans (A_eq0 (V3 m ρ) c 1)).trans (W3_v17 m ρ c))

theorem W4_v3 (c : Dev nD) : W4 m ρ c (Proc.devRef .tc main_v3) = srcW m c :=
  (W4_of_ne m ρ c main_v3 (by decide)).trans (W3_v3 m ρ c)
theorem W4_v6 (c : Dev nD) : W4 m ρ c (Proc.devRef .tc main_v6) = dstW m c :=
  (W4_of_ne m ρ c main_v6 (by decide)).trans (W3_v6 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-- What the stretch after the first region leaves in its two results, from any contents it starts at. -/
theorem hostOps1_v28 (W : Valuation τ sig (Elt Ideal)) :
    StableHlo.after hostOps1 W (Proc.devRef .tc main_v28)
      = agg (W (Proc.devRef .tc main_v6)) (W (Proc.devRef .tc main_v3)) (W (Proc.devRef .tc main_v18)) := by
  simp only [hostOps1]
  after_results
  rfl
theorem hostOps1_v29 (W : Valuation τ sig (Elt Ideal)) :
    StableHlo.after hostOps1 W (Proc.devRef .tc main_v29)
      = (shapeCast S1x16 (W (Proc.devRef .tc main_arg3)) shapeCasts_S16_S1x16 : FVec Ideal S1x16 .f32) := by
  simp only [hostOps1]
  after_results
  rfl

theorem W5_v28 (c : Dev nD) : W5 m ρ c (Proc.devRef .tc main_v28)
    = agg (dstW m c) (srcW m c) (scaleRows (m ((c : Thread nD τ).loc main_arg0)) (scaleCol m c)) := by
  refine (hostOps1_v28 (W4 m ρ c)).trans ?_
  rw [W4_v6, W4_v3, W4_v18]
theorem W5_v29 (c : Dev nD) : W5 m ρ c (Proc.devRef .tc main_v29)
    = (shapeCast S1x16 (m ((c : Thread nD τ).loc main_arg3)) shapeCasts_S16_S1x16 : FVec Ideal S1x16 .f32) := by
  refine (hostOps1_v29 (W4 m ρ c)).trans ?_
  rw [W4_arg3]
theorem W5_v17 (c : Dev nD) : W5 m ρ c (Proc.devRef .tc main_v17) = scaleCol m c :=
  (StableHlo.after_of_forall_not_mem _ _ (by nw hostOps1)).trans (W4_v17 m ρ c)
theorem W5_v3 (c : Dev nD) : W5 m ρ c (Proc.devRef .tc main_v3) = srcW m c :=
  (StableHlo.after_of_forall_not_mem _ _ (by nw hostOps1)).trans (W4_v3 m ρ c)
theorem W5_v6 (c : Dev nD) : W5 m ρ c (Proc.devRef .tc main_v6) = dstW m c :=
  (StableHlo.after_of_forall_not_mem _ _ (by nw hostOps1)).trans (W4_v6 m ρ c)
theorem W5_arg2 (c : Dev nD) : W5 m ρ c (Proc.devRef .tc main_arg2) = m ((c : Thread nD τ).loc main_arg2) :=
  (StableHlo.after_of_forall_not_mem _ _ (by nw hostOps1)).trans (W4_arg2 m ρ c)
theorem W5_arg4 (c : Dev nD) : W5 m ρ c (Proc.devRef .tc main_arg4) = m ((c : Thread nD τ).loc main_arg4) :=
  (StableHlo.after_of_forall_not_mem _ _ (by nw hostOps1)).trans (W4_arg4 m ρ c)
theorem W5_arg5 (c : Dev nD) : W5 m ρ c (Proc.devRef .tc main_arg5) = m ((c : Thread nD τ).loc main_arg5) :=
  (StableHlo.after_of_forall_not_mem _ _ (by nw hostOps1)).trans (W4_arg5 m ρ c)

/-! ## The second and third regions -/

/-- The hidden features: the second region's output array. -/
def hiddenArr (c : Dev nD) : Arr 100000 16 :=
  hidden (agg (dstW m c) (srcW m c) (scaleRows (m ((c : Thread nD τ).loc main_arg0)) (scaleCol m c))) (scaleCol m c) (m ((c : Thread nD τ).loc main_arg2))
    (shapeCast S1x16 (m ((c : Thread nD τ).loc main_arg3)) shapeCasts_S16_S1x16 : FVec Ideal S1x16 .f32)

theorem W6_v30 (c : Dev nD) : W6 m ρ c (Proc.devRef .tc main_v30) = hiddenArr m c := by
  refine (W6_arr m ρ c 4).trans ((arr1 (V5 m ρ) c).trans ?_)
  unfold hiddenArr
  rw [show V5 m ρ c main_v28 = _ from W5_v28 m ρ c, show V5 m ρ c main_v17 = _ from W5_v17 m ρ c,
    show V5 m ρ c main_arg2 = _ from W5_arg2 m ρ c, show V5 m ρ c main_v29 = _ from W5_v29 m ρ c]
theorem W6_v17 (c : Dev nD) : W6 m ρ c (Proc.devRef .tc main_v17) = scaleCol m c :=
  (W6_arr m ρ c 1).trans ((((dat1 (V5 m ρ) c).arrAt_in 1 rfl _).trans (A_eq1 (V5 m ρ) c 1)).trans (W5_v17 m ρ c))
theorem W6_v3 (c : Dev nD) : W6 m ρ c (Proc.devRef .tc main_v3) = srcW m c :=
  (W6_of_ne m ρ c main_v3 (by decide)).trans (W5_v3 m ρ c)
theorem W6_v6 (c : Dev nD) : W6 m ρ c (Proc.devRef .tc main_v6) = dstW m c :=
  (W6_of_ne m ρ c main_v6 (by decide)).trans (W5_v6 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_arg5 (c : Dev nD) : W6 m ρ c (Proc.devRef .tc main_arg5) = m ((c : Thread nD τ).loc main_arg5) :=
  (W6_of_ne m ρ c main_arg5 (by decide)).trans (W5_arg5 m ρ c)

/-- The projected, scaled features: the third region's output array. -/
def projArr (c : Dev nD) : Arr 100000 2 := project (hiddenArr m c) (m ((c : Thread nD τ).loc main_arg4)) (scaleCol m c)

theorem W7_v31 (c : Dev nD) : W7 m ρ c (Proc.devRef .tc main_v31) = projArr m c := by
  refine (W7_arr m ρ c 3).trans ((arr2 (V6 m ρ) c).trans ?_)
  unfold projArr
  rw [show V6 m ρ c main_v30 = _ from W6_v30 m ρ c, show V6 m ρ c main_arg4 = _ from W6_arg4 m ρ c,
    show V6 m ρ c main_v17 = _ from W6_v17 m ρ c]
theorem W7_v17 (c : Dev nD) : W7 m ρ c (Proc.devRef .tc main_v17) = scaleCol m c :=
  (W7_arr m ρ c 2).trans ((((dat2 (V6 m ρ) c).arrAt_in 2 rfl _).trans (A_eq2 (V6 m ρ) c 2)).trans (W6_v17 m ρ c))
theorem W7_v3 (c : Dev nD) : W7 m ρ c (Proc.devRef .tc main_v3) = srcW m c :=
  (W7_of_ne m ρ c main_v3 (by decide)).trans (W6_v3 m ρ c)
theorem W7_v6 (c : Dev nD) : W7 m ρ c (Proc.devRef .tc main_v6) = dstW m c :=
  (W7_of_ne m ρ c main_v6 (by decide)).trans (W6_v6 m ρ c)
theorem W7_arg5 (c : Dev nD) : W7 m ρ c (Proc.devRef .tc main_arg5) = m ((c : Thread nD τ).loc main_arg5) :=
  (W7_of_ne m ρ c main_arg5 (by decide)).trans (W6_arg5 m ρ c)

/-! ## The last stretch and the fourth region -/

theorem hostOps3_v41 (W : Valuation τ sig (Elt Ideal)) :
    StableHlo.after hostOps3 W (Proc.devRef .tc main_v41)
      = agg (W (Proc.devRef .tc main_v6)) (W (Proc.devRef .tc main_v3)) (W (Proc.devRef .tc main_v31)) := by
  simp only [hostOps3]
  after_results
  rfl
theorem hostOps3_v42 (W : Valuation τ sig (Elt Ideal)) :
    StableHlo.after hostOps3 W (Proc.devRef .tc main_v42)
      = (shapeCast S1x2 (W (Proc.devRef .tc main_arg5)) shapeCasts_S2_S1x2 : FVec Ideal S1x2 .f32) := by
  simp only [hostOps3]
  after_results
  rfl

theorem W8_v41 (c : Dev nD) : W8 m ρ c (Proc.devRef .tc main_v41) = agg (dstW m c) (srcW m c) (projArr m c) := by
  refine (hostOps3_v41 (W7 m ρ c)).trans ?_
  rw [W7_v6, W7_v3, W7_v31]
theorem W8_v42 (c : Dev nD) : W8 m ρ c (Proc.devRef .tc main_v42)
    = (shapeCast S1x2 (m ((c : Thread nD τ).loc main_arg5)) shapeCasts_S2_S1x2 : FVec Ideal S1x2 .f32) := by
  refine (hostOps3_v42 (W7 m ρ c)).trans ?_
  rw [W7_arg5]
theorem W8_v17 (c : Dev nD) : W8 m ρ c (Proc.devRef .tc main_v17) = scaleCol m c :=
  (StableHlo.after_of_forall_not_mem _ _ (by nw hostOps3)).trans (W7_v17 m ρ c)

/-- THE KERNEL'S RESULT as a function of the argument arrays: the row-wise log-softmax of the aggregated projections
    scaled, plus the bias. -/
def kernelOut (c : Dev nD) : Arr 100000 2 :=
  outRows (agg (dstW m c) (srcW m c) (projArr m c)) (scaleCol m c)
    (shapeCast S1x2 (m ((c : Thread nD τ).loc main_arg5)) shapeCasts_S2_S1x2 : FVec Ideal S1x2 .f32)

theorem W9_v43 (c : Dev nD) : W9 m ρ c (Proc.devRef .tc main_v43) = kernelOut m c := by
  refine (W9_arr m ρ c 3).trans ((arr3 (V8 m ρ) c).trans ?_)
  unfold kernelOut
  rw [show V8 m ρ c main_v41 = _ from W8_v41 m ρ c, show V8 m ρ c main_v17 = _ from W8_v17 m ρ c,
    show V8 m ρ c main_v42 = _ from W8_v42 m ρ c]

end Cert.KernelIdeal.KHost

end
-- ==== Proof.RefRun.lean ====
/-
  The reference's run. Its @main is a line of 146 host operations (the three module-local functions it calls — a select
  against a splat, a relu, a row-wise log-softmax — stand inline at their call sites, each operation at the call's own
  buffers), every buffer written once. So every weakly fair execution terminates, nothing faulting, with the result buffer
  at the operations' composed function of the argument arrays — stated here by the stage names of the reference read one
  operation at a time (`val_main_v101`: the same operations composed, one definition per operation) — and with the
  arguments unchanged.
  The line is evaluated in four stretches, cut just after each pair of concatenations (the edge words followed by the
  self loops): a concatenation holds its operands inside dependent pairs, where no rewriting reaches, so its value is read
  on the short stretch that produces it and carried from there as the contents of its buffer.
-/
import proofs.«160260_j74964359185003_2_alg».proof.Proof.RefRead
import proofs.«160260_j74964359185003_2_alg».proof.Proof.LibSsaLocal
import Idealize.ShloMosaic.Lib.StableHlo.Run

noncomputable section

namespace Cert.ReferenceIdeal.RefRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- @main's 146 operations, in order (a called function's operations stand in its call's place, spelt with typed
    references). -/
abbrev ops : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    nullary main_v2 (iotaInDim S100000 32 0),
    binary main_v1 main_v2 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    nullary main_v6 (iotaInDim S100000 32 0),
    binary main_v5 main_v6 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x2B8CBCCC#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v16) (TRef.of (T := ⟨S100000, .f32⟩) main_call0_v1) (TRef.of (T := ⟨S100000, .f32⟩) main_v17) select,
    nullary main_c (constantI S_ 32 0#32),
    unary main_c main_v18 (broadcastInDim S3300000 ![] bcast_S_S3300000 : (⟨S_, .i32⟩ : BufTy).Contents (Elt F) → (⟨S3300000, .i32⟩ : BufTy).Contents (Elt F)),
    binary main_v3 main_v18 main_v19 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v20 (broadcastInDim S3300000 ![] bcast_S_S3300000 : (⟨S_, .i32⟩ : BufTy).Contents (Elt F) → (⟨S3300000, .i32⟩ : BufTy).Contents (Elt F)),
    binary main_v3 main_v20 main_v21 (addi : (⟨S3300000, .i32⟩ : BufTy).Contents (Elt F) → (⟨S3300000, .i32⟩ : BufTy).Contents (Elt F) → (⟨S3300000, .i32⟩ : BufTy).Contents (Elt F)),
    ternary main_v19 main_v21 main_v3 main_v22 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v22 main_v23 (broadcastInDim S3300000x1 ![0] bcast_S3300000_S3300000x1_0 : (⟨S3300000, .i32⟩ : BufTy).Contents (Elt F) → (⟨S3300000x1, .i32⟩ : BufTy).Contents (Elt F)),
    binary main_v17 main_v23 main_v24 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v27 (broadcastInDim S3300000 ![] bcast_S_S3300000 : (⟨S_, .i32⟩ : BufTy).Contents (Elt F) → (⟨S3300000, .i32⟩ : BufTy).Contents (Elt F)),
    binary main_v7 main_v27 main_v28 (addi : (⟨S3300000, .i32⟩ : BufTy).Contents (Elt F) → (⟨S3300000, .i32⟩ : BufTy).Contents (Elt F) → (⟨S3300000, .i32⟩ : BufTy).Contents (Elt F)),
    ternary main_v26 main_v28 main_v7 main_v29 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v29 main_v30 (broadcastInDim S3300000x1 ![0] bcast_S3300000_S3300000x1_0 : (⟨S3300000, .i32⟩ : BufTy).Contents (Elt F) → (⟨S3300000x1, .i32⟩ : BufTy).Contents (Elt F)),
    binary main_v17 main_v30 main_v31 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v24 main_v31 main_v32 (mulf : (⟨S3300000, .f32⟩ : BufTy).Contents (Elt F) → (⟨S3300000, .f32⟩ : BufTy).Contents (Elt F) → (⟨S3300000, .f32⟩ : BufTy).Contents (Elt F)),
    binary main_arg0 main_arg2 main_v33 ((fun l r => Host.dotGeneral dot_S100000x2_S2x16_S100000x16_1_0_0_1_n_n none l r) : (⟨S100000x2, .f32⟩ : BufTy).Contents (Elt F) → (⟨S2x16, .f32⟩ : BufTy).Contents (Elt F) → (⟨S100000x16, .f32⟩ : BufTy).Contents (Elt F)),
    nullary main_c_7 (constantI S_ 32 0#32),
    unary main_c_7 main_v34 (broadcastInDim S3300000 ![] bcast_S_S3300000 : (⟨S_, .i32⟩ : BufTy).Contents (Elt F) → (⟨S3300000, .i32⟩ : BufTy).Contents (Elt F)),
    binary main_v3 main_v34 main_v35 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v36 (broadcastInDim S3300000 ![] bcast_S_S3300000 : (⟨S_, .i32⟩ : BufTy).Contents (Elt F) → (⟨S3300000, .i32⟩ : BufTy).Contents (Elt F)),
    binary main_v3 main_v36 main_v37 (addi : (⟨S3300000, .i32⟩ : BufTy).Contents (Elt F) → (⟨S3300000, .i32⟩ : BufTy).Contents (Elt F) → (⟨S3300000, .i32⟩ : BufTy).Contents (Elt F)),
    ternary main_v35 main_v37 main_v3 main_v38 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v38 main_v39 (broadcastInDim S3300000x1 ![0] bcast_S3300000_S3300000x1_0 : (⟨S3300000, .i32⟩ : BufTy).Contents (Elt F) → (⟨S3300000x1, .i32⟩ : BufTy).Contents (Elt F)),
    binary main_v33 main_v39 main_v40 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v32 main_v41 (broadcastInDim S3300000x1 ![0] bcast_S3300000_S3300000x1_0 : (⟨S3300000, .f32⟩ : BufTy).Contents (Elt F) → (⟨S3300000x1, .f32⟩ : BufTy).Contents (Elt F)),
    unary main_v41 main_v42 (broadcastInDim S3300000x16 ![0, 1] bcast_S3300000x1_S3300000x16_0_1 : (⟨S3300000x1, .f32⟩ : BufTy).Contents (Elt F) → (⟨S3300000x16, .f32⟩ : BufTy).Contents (Elt F)),
    binary main_v40 main_v42 main_v43 (mulf : (⟨S3300000x16, .f32⟩ : BufTy).Contents (Elt F) → (⟨S3300000x16, .f32⟩ : BufTy).Contents (Elt F) → (⟨S3300000x16, .f32⟩ : BufTy).Contents (Elt F)),
    nullary main_cst_9 (constant S_ .f32 0x00000000#32),
    unary main_cst_9 main_v44 (broadcastInDim S100000x16 ![] bcast_S_S100000x16 : (⟨S_, .f32⟩ : BufTy).Contents (Elt F) → (⟨S100000x16, .f32⟩ : BufTy).Contents (Elt F)),
    unary main_v7 main_v45 (broadcastInDim S3300000x1 ![0] bcast_S3300000_S3300000x1_0 : (⟨S3300000, .i32⟩ : BufTy).Contents (Elt F) → (⟨S3300000x1, .i32⟩ : BufTy).Contents (Elt F)),
    ternary main_v44 main_v45 main_v43 main_v46 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v47 (broadcastInDim S1x16 ![1] bcast_S16_S1x16_1 : (⟨S16, .f32⟩ : BufTy).Contents (Elt F) → (⟨S1x16, .f32⟩ : BufTy).Contents (Elt F)),
    unary main_v47 main_v48 (broadcastInDim S100000x16 ![0, 1] bcast_S1x16_S100000x16_0_1 : (⟨S1x16, .f32⟩ : BufTy).Contents (Elt F) → (⟨S100000x16, .f32⟩ : BufTy).Contents (Elt F)),
    binary main_v46 main_v48 main_v49 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v49) (TRef.of (T := ⟨S100000x16, .f32⟩) main_call1_v0) (TRef.of (T := ⟨S100000x16, .f32⟩) main_v50) maximumf,
    unary main_arg1 main_v51 ((extractStridedSlice S1x3200000 ![0, 0] · slices_S2x3200000_S1x3200000_0_0) : (⟨S2x3200000, .i32⟩ : BufTy).Contents (Elt F) → (⟨S1x3200000, .i32⟩ : BufTy).Contents (Elt F)),
    reshape main_v51 main_v52 rfl shapeCasts_S1x3200000_S3200000,
    nullary main_v53 (iotaInDim S100000 32 0),
    binary main_v52 main_v53 main_v54 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v55 ((extractStridedSlice S1x3200000 ![1, 0] · slices_S2x3200000_S1x3200000_1_0) : (⟨S2x3200000, .i32⟩ : BufTy).Contents (Elt F) → (⟨S1x3200000, .i32⟩ : BufTy).Contents (Elt F)),
    reshape main_v55 main_v56 rfl shapeCasts_S1x3200000_S3200000,
    nullary main_v57 (iotaInDim S100000 32 0),
    binary main_v56 main_v57 main_v58 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_10 (constant S_ .f32 0x3F800000#32),
    unary main_cst_10 main_v59 (broadcastInDim S3300000 ![] bcast_S_S3300000 : (⟨S_, .f32⟩ : BufTy).Contents (Elt F) → (⟨S3300000, .f32⟩ : BufTy).Contents (Elt F)),
    nullary main_cst_11 (constant S_ .f32 0x00000000#32),
    unary main_cst_11 main_v60 (broadcastInDim S100000 ![] bcast_S_S100000 : (⟨S_, .f32⟩ : BufTy).Contents (Elt F) → (⟨S100000, .f32⟩ : BufTy).Contents (Elt F)),
    unary main_v58 main_v61 (broadcastInDim S3300000x1 ![0] bcast_S3300000_S3300000x1_0 : (⟨S3300000, .i32⟩ : BufTy).Contents (Elt F) → (⟨S3300000x1, .i32⟩ : BufTy).Contents (Elt F)),
    ternary main_v60 main_v61 main_v59 main_v62 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_12 (constant S_ .f32 0x00000000#32),
    unary main_cst_12 main_v63 (broadcastInDim S100000 ![] bcast_S_S100000 : (⟨S_, .f32⟩ : BufTy).Contents (Elt F) → (⟨S100000, .f32⟩ : BufTy).Contents (Elt F)),
    binary main_v62 main_v63 main_v64 (cmpf .ogt : (⟨S100000, .f32⟩ : BufTy).Contents (Elt F) → (⟨S100000, .f32⟩ : BufTy).Contents (Elt F) → (⟨S100000, .i1⟩ : BufTy).Contents (Elt F)),
    nullary main_cst_13 (constant S_ .f32 0x2B8CBCCC#32),
    unary main_cst_13 main_v65 (broadcastInDim S100000 ![] bcast_S_S100000 : (⟨S_, .f32⟩ : BufTy).Contents (Elt F) → (⟨S100000, .f32⟩ : BufTy).Contents (Elt F)),
    binary main_v62 main_v65 main_v66 (maximumf : (⟨S100000, .f32⟩ : BufTy).Contents (Elt F) → (⟨S100000, .f32⟩ : BufTy).Contents (Elt F) → (⟨S100000, .f32⟩ : BufTy).Contents (Elt F)),
    unary main_v66 main_v67 (Host.rsqrt : (⟨S100000, .f32⟩ : BufTy).Contents (Elt F) → (⟨S100000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v64) (TRef.of (T := ⟨S100000, .f32⟩) main_v67) (TRef.of (T := ⟨S100000, .f32⟩) main_call2_v1) (TRef.of (T := ⟨S100000, .f32⟩) main_v68) select,
    nullary main_c_15 (constantI S_ 32 0#32),
    unary main_c_15 main_v69 (broadcastInDim S3300000 ![] bcast_S_S3300000 : (⟨S_, .i32⟩ : BufTy).Contents (Elt F) → (⟨S3300000, .i32⟩ : BufTy).Contents (Elt F)),
    binary main_v54 main_v69 main_v70 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v71 (broadcastInDim S3300000 ![] bcast_S_S3300000 : (⟨S_, .i32⟩ : BufTy).Contents (Elt F) → (⟨S3300000, .i32⟩ : BufTy).Contents (Elt F)),
    binary main_v54 main_v71 main_v72 (addi : (⟨S3300000, .i32⟩ : BufTy).Contents (Elt F) → (⟨S3300000, .i32⟩ : BufTy).Contents (Elt F) → (⟨S3300000, .i32⟩ : BufTy).Contents (Elt F)),
    ternary main_v70 main_v72 main_v54 main_v73 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v73 main_v74 (broadcastInDim S3300000x1 ![0] bcast_S3300000_S3300000x1_0 : (⟨S3300000, .i32⟩ : BufTy).Contents (Elt F) → (⟨S3300000x1, .i32⟩ : BufTy).Contents (Elt F)),
    binary main_v68 main_v74 main_v75 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_17 (constantI S_ 32 0#32),
    unary main_c_17 main_v76 (broadcastInDim S3300000 ![] bcast_S_S3300000 : (⟨S_, .i32⟩ : BufTy).Contents (Elt F) → (⟨S3300000, .i32⟩ : BufTy).Contents (Elt F)),
    binary main_v58 main_v76 main_v77 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v78 (broadcastInDim S3300000 ![] bcast_S_S3300000 : (⟨S_, .i32⟩ : BufTy).Contents (Elt F) → (⟨S3300000, .i32⟩ : BufTy).Contents (Elt F)),
    binary main_v58 main_v78 main_v79 (addi : (⟨S3300000, .i32⟩ : BufTy).Contents (Elt F) → (⟨S3300000, .i32⟩ : BufTy).Contents (Elt F) → (⟨S3300000, .i32⟩ : BufTy).Contents (Elt F)),
    ternary main_v77 main_v79 main_v58 main_v80 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v80 main_v81 (broadcastInDim S3300000x1 ![0] bcast_S3300000_S3300000x1_0 : (⟨S3300000, .i32⟩ : BufTy).Contents (Elt F) → (⟨S3300000x1, .i32⟩ : BufTy).Contents (Elt F)),
    binary main_v68 main_v81 main_v82 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v75 main_v82 main_v83 (mulf : (⟨S3300000, .f32⟩ : BufTy).Contents (Elt F) → (⟨S3300000, .f32⟩ : BufTy).Contents (Elt F) → (⟨S3300000, .f32⟩ : BufTy).Contents (Elt F)),
    binary main_v50 main_arg4 main_v84 ((fun l r => Host.dotGeneral dot_S100000x16_S16x2_S100000x2_1_0_0_1_n_n none l r) : (⟨S100000x16, .f32⟩ : BufTy).Contents (Elt F) → (⟨S16x2, .f32⟩ : BufTy).Contents (Elt F) → (⟨S100000x2, .f32⟩ : BufTy).Contents (Elt F)),
    nullary main_c_19 (constantI S_ 32 0#32),
    unary main_c_19 main_v85 (broadcastInDim S3300000 ![] bcast_S_S3300000 : (⟨S_, .i32⟩ : BufTy).Contents (Elt F) → (⟨S3300000, .i32⟩ : BufTy).Contents (Elt F)),
    binary main_v54 main_v85 main_v86 (cmpi .slt : (⟨S3300000, .i32⟩ : BufTy).Contents (Elt F) → (⟨S3300000, .i32⟩ : BufTy).Contents (Elt F) → (⟨S3300000, .i1⟩ : BufTy).Contents (Elt F)),
    nullary main_c_20 (constantI S_ 32 100000#32),
    unary main_c_20 main_v87 (broadcastInDim S3300000 ![] bcast_S_S3300000 : (⟨S_, .i32⟩ : BufTy).Contents (Elt F) → (⟨S3300000, .i32⟩ : BufTy).Contents (Elt F)),
    binary main_v54 main_v87 main_v88 (addi : (⟨S3300000, .i32⟩ : BufTy).Contents (Elt F) → (⟨S3300000, .i32⟩ : BufTy).Contents (Elt F) → (⟨S3300000, .i32⟩ : BufTy).Contents (Elt F)),
    ternary main_v86 main_v88 main_v54 main_v89 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v89 main_v90 (broadcastInDim S3300000x1 ![0] bcast_S3300000_S3300000x1_0 : (⟨S3300000, .i32⟩ : BufTy).Contents (Elt F) → (⟨S3300000x1, .i32⟩ : BufTy).Contents (Elt F)),
    binary main_v84 main_v90 main_v91 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v83 main_v92 (broadcastInDim S3300000x1 ![0] bcast_S3300000_S3300000x1_0 : (⟨S3300000, .f32⟩ : BufTy).Contents (Elt F) → (⟨S3300000x1, .f32⟩ : BufTy).Contents (Elt F)),
    unary main_v92 main_v93 (broadcastInDim S3300000x2 ![0, 1] bcast_S3300000x1_S3300000x2_0_1 : (⟨S3300000x1, .f32⟩ : BufTy).Contents (Elt F) → (⟨S3300000x2, .f32⟩ : BufTy).Contents (Elt F)),
    binary main_v91 main_v93 main_v94 (mulf : (⟨S3300000x2, .f32⟩ : BufTy).Contents (Elt F) → (⟨S3300000x2, .f32⟩ : BufTy).Contents (Elt F) → (⟨S3300000x2, .f32⟩ : BufTy).Contents (Elt F)),
    nullary main_cst_21 (constant S_ .f32 0x00000000#32),
    unary main_cst_21 main_v95 (broadcastInDim S100000x2 ![] bcast_S_S100000x2 : (⟨S_, .f32⟩ : BufTy).Contents (Elt F) → (⟨S100000x2, .f32⟩ : BufTy).Contents (Elt F)),
    unary main_v58 main_v96 (broadcastInDim S3300000x1 ![0] bcast_S3300000_S3300000x1_0 : (⟨S3300000, .i32⟩ : BufTy).Contents (Elt F) → (⟨S3300000x1, .i32⟩ : BufTy).Contents (Elt F)),
    ternary main_v95 main_v96 main_v94 main_v97 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)),
    unary main_arg5 main_v98 (broadcastInDim S1x2 ![1] bcast_S2_S1x2_1 : (⟨S2, .f32⟩ : BufTy).Contents (Elt F) → (⟨S1x2, .f32⟩ : BufTy).Contents (Elt F)),
    unary main_v98 main_v99 (broadcastInDim S100000x2 ![0, 1] bcast_S1x2_S100000x2_0_1 : (⟨S1x2, .f32⟩ : BufTy).Contents (Elt F) → (⟨S100000x2, .f32⟩ : BufTy).Contents (Elt F)),
    binary main_v97 main_v99 main_v100 (addf : (⟨S100000x2, .f32⟩ : BufTy).Contents (Elt F) → (⟨S100000x2, .f32⟩ : BufTy).Contents (Elt F) → (⟨S100000x2, .f32⟩ : BufTy).Contents (Elt F)),
    TRef.nullary (TRef.of (T := ⟨S_, .f32⟩) main_call3_cst) (constant S_ .f32 0xFF800000#32),
    TRef.binary (TRef.of (T := ⟨S100000x2, .f32⟩) main_v100) (TRef.of (T := ⟨S_, .f32⟩) main_call3_cst) (TRef.of (T := ⟨S100000, .f32⟩) main_call3_v0) (fun x v => Host.reduce FloatOps.maximumf x v reducesTo_S100000x2_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x2, .f32⟩) main_call3_v4) (broadcastInDim S100000x2 ![0, 1] bcast_S100000x1_S100000x2_0_1),
    TRef.binary (TRef.of (T := ⟨S100000x2, .f32⟩) main_v100) (TRef.of (T := ⟨S100000x2, .f32⟩) main_call3_v4) (TRef.of (T := ⟨S100000x2, .f32⟩) main_call3_v5) subf,
    TRef.unary (TRef.of (T := ⟨S100000x2, .f32⟩) main_call3_v5) (TRef.of (T := ⟨S100000x2, .f32⟩) main_call3_v6) Host.exp,
    TRef.nullary (TRef.of (T := ⟨S_, .f32⟩) main_call3_cst_1) (constant S_ .f32 0x00000000#32),
    TRef.binary (TRef.of (T := ⟨S100000x2, .f32⟩) main_call3_v6) (TRef.of (T := ⟨S_, .f32⟩) main_call3_cst_1) (TRef.of (T := ⟨S100000, .f32⟩) main_call3_v7) (fun x v => Host.reduceAdd x v reducesTo_S100000x2_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x2, .f32⟩) main_call3_v10) (broadcastInDim S100000x2 ![0, 1] bcast_S100000x1_S100000x2_0_1),
    TRef.binary (TRef.of (T := ⟨S100000x2, .f32⟩) main_call3_v5) (TRef.of (T := ⟨S100000x2, .f32⟩) main_call3_v10) (TRef.of (T := ⟨S100000x2, .f32⟩) main_v101) subf ]

set_option maxRecDepth 8192 in
set_option maxHeartbeats 4000000 in
/-- @main is that line. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., nullary_bufs_sub .., binary_bufs_sub .., unary_bufs_sub .., reshape_bufs_sub .., nullary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., nullary_bufs_sub .., binary_bufs_sub .., unary_bufs_sub .., reshape_bufs_sub .., nullary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The four stretches -/

/-- Operations 1–8: the edges' source and target words, each the given words followed by the self loops. -/
abbrev opsA : List (HloOp τ sig (Elt F)) := (ops (F := F)).take 8
/-- Operations 9–67: the degree, the scale, the first layer and its relu. -/
abbrev opsB : List (HloOp τ sig (Elt F)) := ((ops (F := F)).drop 8).take 59
/-- Operations 68–75: the edges' words again. -/
abbrev opsA' : List (HloOp τ sig (Elt F)) := (((ops (F := F)).drop 8).drop 59).take 8
/-- Operations 76–146: the degree and scale again, the second layer, the log-softmax. -/
abbrev opsC : List (HloOp τ sig (Elt F)) := (((ops (F := F)).drop 8).drop 59).drop 8

theorem after_cut (V : Valuation τ sig (Elt F)) :
    after ops V = after opsC (after opsA' (after opsB (after opsA V))) := by
  rw [Cert.LibSsaLocal.after_take_drop ops 8 V, Cert.LibSsaLocal.after_take_drop ((ops (F := F)).drop 8) 59,
    Cert.LibSsaLocal.after_take_drop (((ops (F := F)).drop 8).drop 59) 8]

section Stretches
variable (W : Valuation τ sig (Elt F))
  (x0 : (⟨S100000x2, .f32⟩ : BufTy).Contents (Elt F)) (x1 : (⟨S2x3200000, .i32⟩ : BufTy).Contents (Elt F))
  (x2 : (⟨S2x16, .f32⟩ : BufTy).Contents (Elt F)) (x3 : (⟨S16, .f32⟩ : BufTy).Contents (Elt F))
  (x4 : (⟨S16x2, .f32⟩ : BufTy).Contents (Elt F)) (x5 : (⟨S2, .f32⟩ : BufTy).Contents (Elt F))

set_option maxRecDepth 8192 in
theorem A_v3 (h1 : W (Proc.devRef .tc main_arg1) = x1) : after opsA W (Proc.devRef .tc main_v3) = val_main_v3 (F := F) x1 := by
  subst h1
  simp only [opsA, ops, List.take, List.drop]
  after_results
  rfl
set_option maxRecDepth 8192 in
theorem A_v7 (h1 : W (Proc.devRef .tc main_arg1) = x1) : after opsA W (Proc.devRef .tc main_v7) = val_main_v7 (F := F) x1 := by
  subst h1
  simp only [opsA, ops, List.take, List.drop]
  after_results
  rfl
set_option maxRecDepth 8192 in
theorem A_keep (b : Ref sig .tc) (hb : ∀ op ∈ (opsA : List (HloOp τ sig (Elt F))), Proc.devRef .tc b ∉ op.writes) :
    after opsA W (Proc.devRef .tc b) = W (Proc.devRef .tc b) := after_of_forall_not_mem _ _ hb

set_option maxRecDepth 65536 in
set_option maxHeartbeats 40000000 in
/-- Operations 9–67 from contents that hold the edges' words and the arguments: the first layer after its relu. -/
theorem B_v50 (h3 : W (Proc.devRef .tc main_v3) = val_main_v3 (F := F) x1) (h7 : W (Proc.devRef .tc main_v7) = val_main_v7 (F := F) x1)
    (h0 : W (Proc.devRef .tc main_arg0) = x0) (h2 : W (Proc.devRef .tc main_arg2) = x2) (ha3 : W (Proc.devRef .tc main_arg3) = x3) :
    after opsB W (Proc.devRef .tc main_v50) = val_main_v50 (F := F) x0 x1 x2 x3 := by
  simp only [opsB, ops, List.take, List.drop, StableHlo.TRef.unary, StableHlo.TRef.binary, StableHlo.TRef.ternary, StableHlo.TRef.nullary]
  after_results_simp
  rw [h3, h7, h0, h2, ha3]
  rfl
set_option maxRecDepth 8192 in
theorem B_keep (b : Ref sig .tc) (hb : ∀ op ∈ (opsB : List (HloOp τ sig (Elt F))), Proc.devRef .tc b ∉ op.writes) :
    after opsB W (Proc.devRef .tc b) = W (Proc.devRef .tc b) := after_of_forall_not_mem _ _ hb

set_option maxRecDepth 8192 in
theorem A'_v54 (h1 : W (Proc.devRef .tc main_arg1) = x1) : after opsA' W (Proc.devRef .tc main_v54) = val_main_v54 (F := F) x1 := by
  subst h1
  simp only [opsA', ops, List.take, List.drop]
  after_results
  rfl
set_option maxRecDepth 8192 in
theorem A'_v58 (h1 : W (Proc.devRef .tc main_arg1) = x1) : after opsA' W (Proc.devRef .tc main_v58) = val_main_v58 (F := F) x1 := by
  subst h1
  simp only [opsA', ops, List.take, List.drop]
  after_results
  rfl
set_option maxRecDepth 8192 in
theorem A'_keep (b : Ref sig .tc) (hb : ∀ op ∈ (opsA' : List (HloOp τ sig (Elt F))), Proc.devRef .tc b ∉ op.writes) :
    after opsA' W (Proc.devRef .tc b) = W (Proc.devRef .tc b) := after_of_forall_not_mem _ _ hb

section
-- the row maximum is a fold over the whole array's indices: it is compared as it stands, never unfolded
attribute [local irreducible] Idealize.ShloMosaic.Host.reduce
set_option maxRecDepth 65536 in
set_option maxHeartbeats 40000000 in
/-- Operations 76–146 from contents that hold the edges' words, the first layer and the arguments: the result. -/
theorem C_v101 (h54 : W (Proc.devRef .tc main_v54) = val_main_v54 (F := F) x1) (h58 : W (Proc.devRef .tc main_v58) = val_main_v58 (F := F) x1)
    (h50 : W (Proc.devRef .tc main_v50) = val_main_v50 (F := F) x0 x1 x2 x3) (h4 : W (Proc.devRef .tc main_arg4) = x4) (h5 : W (Proc.devRef .tc main_arg5) = x5) :
    after opsC W (Proc.devRef .tc main_v101) = val_main_v101 (F := F) x0 x1 x2 x3 x4 x5 := by
  simp only [opsC, ops, List.take, List.drop, StableHlo.TRef.unary, StableHlo.TRef.binary, StableHlo.TRef.ternary, StableHlo.TRef.nullary]
  after_results_simp
  rw [h54, h58, h50, h4, h5]
  rfl
end

end Stretches

/-- "No operation of the stretch writes this buffer." -/
macro "nwr " ops:ident : tactic => `(tactic| exact List.forall_iff_forall_mem.mp (by
    simp only [$ops:ident, ops, List.take, List.drop, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))

set_option maxRecDepth 65536 in
set_option maxHeartbeats 40000000 in
/-- THE RESULT of the line from any contents: the stages' composed term of the argument buffers' contents. -/
theorem res_eq (V : Valuation τ sig (Elt F)) :
    after ops V (Proc.devRef .tc main_v101)
      = val_main_v101 (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) := by
  rw [after_cut]
  -- the arguments are written by no operation
  have a1 : ∀ b : Ref sig .tc, (∀ op ∈ (opsA : List (HloOp τ sig (Elt F))), Proc.devRef .tc b ∉ op.writes) →
      after opsA V (Proc.devRef .tc b) = V (Proc.devRef .tc b) := fun b hb => A_keep V b hb
  refine C_v101 _ _ _ _ _ _ _ ?_ ?_ ?_ ?_ ?_
  · exact A'_v54 _ _ (((B_keep _ main_arg1 (by nwr opsB)).trans (A_keep V main_arg1 (by nwr opsA))))
  · exact A'_v58 _ _ (((B_keep _ main_arg1 (by nwr opsB)).trans (A_keep V main_arg1 (by nwr opsA))))
  · refine (A'_keep _ main_v50 (by nwr opsA')).trans ?_
    exact B_v50 _ _ _ _ _ (A_v3 V _ rfl) (A_v7 V _ rfl) (A_keep V main_arg0 (by nwr opsA)) (A_keep V main_arg2 (by nwr opsA))
      (A_keep V main_arg3 (by nwr opsA))
  · exact (A'_keep _ main_arg4 (by nwr opsA')).trans ((B_keep _ main_arg4 (by nwr opsB)).trans (A_keep V main_arg4 (by nwr opsA)))
  · exact (A'_keep _ main_arg5 (by nwr opsA')).trans ((B_keep _ main_arg5 (by nwr opsB)).trans (A_keep V main_arg5 (by nwr opsA)))

set_option maxRecDepth 65536 in
set_option maxHeartbeats 58400000 in
/-- On every device, from any memory with zero counters: every weakly fair execution of @main terminates with the result
    at the stages' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v101)
        = val_main_v101 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v101).trans (res_eq _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.LibScatterGather.lean ====
/-
  Row scatter-add and row gather, read at an index. A table of N rows of width C; E row numbers, held as an
  [E, 1] array of integer words; E update rows of width C.
  Scatter-add: update element (e, k') lands on table element (i, k) exactly when the signed reading of word e
  is i and k' = k, so table element (i, k) receives the sum over those e whose word reads i of update (e, k).
  Gather: result element (e, k) is table element (r, k) with r the signed reading of word e clamped into [0, N - 1].
-/
import Idealize.ShloMosaic.PureOps.Ideal
import Idealize.ShloMosaic.PureOps.Ideal.Laws
import Idealize.ShloMosaic.Lib.ValueIdx
import Idealize.ShloMosaic.Lib.ReduceAll

noncomputable section

open scoped BigOperators

namespace Cert.ScatterGather

open Idealize.ShloMosaic Idealize.ShloMosaic.ValueIdx

/-! ## Scatter-add along rows -/

/-- The dimension numbers of a scatter of whole rows: the update's axis 1 is the window, the table's axis 0 is
    the scattered one, one index word per update row. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the row axis the window of update element (e, k') starts at the signed reading of word e. -/
theorem start_row : (rowScatter N E C wf).start (ix2 e k') idx 0 = (idx (ix2 e 0)).toInt := by
  unfold ScatterDims.start
  rw [dif_pos (show (0 : Fin 2) ∈ (rowScatter N E C wf).scatterDimsToOperandDims from List.mem_singleton.mpr rfl)]
  have hsi : (rowScatter N E C wf).siIdx (ix2 e k') ⟨List.idxOf (0 : Fin 2) (rowScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis it starts at 0. -/
theorem start_col : (rowScatter N E C wf).start (ix2 e k') idx 1 = 0 := rfl

/-- The window coordinate on the row axis is 0 … -/
theorem window_row : (rowScatter N E C wf).window (ix2 e k') 0 = 0 := rfl

/-- … and on the column axis it is k'. -/
theorem window_col : (rowScatter N E C wf).window (ix2 e k') 1 = k'.val := rfl

end Scatter

section ScatterIdx
variable {N E C w : Nat} (wf : ScatterDims.WF ⟨2, ![N, C]⟩ ⟨2, ![E, 1]⟩ ⟨2, ![E, C]⟩ [1] [0] [0] 1)
  (idx : IVec ⟨2, ![E, 1]⟩ w)

/-- WHERE AN UPDATE ELEMENT LANDS: (e, k') lands on (i, k) exactly when word e reads i and k' = k. -/
theorem resultIdx_rows (e : Fin E) (k' : Fin C) (i : Fin N) (k : Fin C) :
    (rowScatter N E C wf).resultIdx? (ix2 e k') idx = some (ix2 i k) ↔ (idx (ix2 e 0)).toInt = (i.val : ℤ) ∧ k' = k := by
  unfold ScatterDims.resultIdx?
  split
  · rename_i h
    rw [Option.some.injEq]
    constructor
    · intro hf
      have h0 := congrArg Fin.val (congrFun hf 0)
      have h1 := congrArg Fin.val (congrFun hf 1)
      have g0 := (h 0).1
      simp only [start_row, window_row, start_col, window_col] at h0 h1 g0
      refine ⟨?_, Fin.ext ?_⟩
      · show (idx (ix2 e 0)).toInt = (i.val : ℤ)
        have : ((idx (ix2 e 0)).toInt + ((0 : ℕ) : ℤ)).toNat = i.val := h0
        omega
      · have : ((0 : ℤ) + (k'.val : ℤ)).toNat = k.val := h1
        omega
    · rintro ⟨hv, rfl⟩
      funext a; refine Fin.ext ?_
      match a with
      | ⟨0, _⟩ =>
        show ((rowScatter N E C wf).start (ix2 e k') idx 0 + ((rowScatter N E C wf).window (ix2 e k') 0 : ℤ)).toNat = i.val
        rw [start_row, window_row, hv]; omega
      | ⟨1, _⟩ =>
        show ((rowScatter N E C wf).start (ix2 e k') idx 1 + ((rowScatter N E C wf).window (ix2 e k') 1 : ℤ)).toNat = k'.val
        rw [start_col, window_col]; omega
  · rename_i h
    constructor
    · intro hf; exact absurd hf (by simp)
    · rintro ⟨hv, rfl⟩
      refine absurd (fun a => ?_) h
      match a with
      | ⟨0, _⟩ =>
        show 0 ≤ (rowScatter N E C wf).start (ix2 e k') idx 0 + ((rowScatter N E C wf).window (ix2 e k') 0 : ℤ) ∧
          (rowScatter N E C wf).start (ix2 e k') idx 0 + ((rowScatter N E C wf).window (ix2 e k') 0 : ℤ) < (N : ℤ)
        rw [start_row, window_row, hv]; have := i.isLt; omega
      | ⟨1, _⟩ =>
        show 0 ≤ (rowScatter N E C wf).start (ix2 e k') idx 1 + ((rowScatter N E C wf).window (ix2 e k') 1 : ℤ) ∧
          (rowScatter N E C wf).start (ix2 e k') idx 1 + ((rowScatter N E C wf).window (ix2 e k') 1 : ℤ) < (C : ℤ)
        rw [start_col, window_col]; have := k'.isLt; omega

/-- THE SCATTER-ADD READ AT (i, k): the table's element plus the updates (e, k) of the rows e whose word reads i. -/
theorem scatterAdd_rows_apply (x : (⟨2, ![N, C]⟩ : Shape).Idx → EReal) (upd : (⟨2, ![E, C]⟩ : Shape).Idx → EReal)
    (i : Fin N) (k : Fin C) :
    Ideal.hostScatterAdd (rowScatter N E C wf) x idx upd (ix2 i k)
      = x (ix2 i k) + ∑ e ∈ Finset.univ.filter (fun e : Fin E => (idx (ix2 e 0)).toInt = (i.val : ℤ)), upd (ix2 e k) := by
  unfold Ideal.hostScatterAdd
  congr 1
  rw [Finset.sum_filter, sum_idx2, Finset.sum_filter]
  refine Finset.sum_congr rfl fun e _ => ?_
  simp only [resultIdx_rows]
  by_cases hv : (idx (ix2 e 0)).toInt = (i.val : ℤ)
  · simp only [hv, true_and, if_true]
    rw [Finset.sum_ite_eq' Finset.univ k (fun b => upd (ix2 e b))]
    simp
  · simp only [hv, false_and, if_false, Finset.sum_const_zero]

end ScatterIdx

/-! ## Gather along rows -/

/-- The dimension numbers of a gather of whole rows: one index word per result row names a table row
    (slices of one row, all C columns), the result's axis 1 runs over the columns. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {α : Type} {N E C w : Nat}

/-- THE GATHER READ AT (e, k): the table at row "word e read signed, clamped into [0, N - 1]", column k. -/
theorem gather_rows_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGather N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGather N E C wf).start (ix2 e k) idx 0 + (rowGather N E C wf).batchCoord (ix2 e k) 0
        + (rowGather N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e k) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E C wf).start (ix2 e k) idx 1 + (rowGather N E C wf).batchCoord (ix2 e k) 1
        + (rowGather N E C wf).offCoord (ix2 e k) 1 = k.val
    rw [GatherDims.batchCoord_eq_zero _ _ _ List.not_mem_nil]
    have hs : (rowGather N E C wf).start (ix2 e k) idx 1 = 0 := rfl
    have ho : (rowGather N E C wf).offCoord (ix2 e k) 1 = k.val := rfl
    rw [hs, ho]; omega

/-- The same, with the table's row named by the caller: any r whose number is the clamped reading of word e. -/
theorem gather_rows_apply_of_eq (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) (r : Fin N)
    (hr : min (idx (ix2 e 0)).toInt.toNat (N - 1) = r.val) :
    Host.gather (rowGather N E C wf) x idx (ix2 e k) = x (ix2 r k) := by
  rw [gather_rows_apply hN wf]
  refine congrArg x (funext fun a => ?_)
  match a with
  | ⟨0, _⟩ => exact Fin.ext hr
  | ⟨1, _⟩ => rfl

end Gather

/-! ## Row lookup with a fill value for row numbers out of range

A lookup of rows of a table of 50000 rows by 800000 signed row numbers, in the form a lookup with "fill" mode
takes: a negative number is first wrapped by adding 50000; a row number that after that is outside [0, 49999]
gives a row of the fill value; otherwise the (clamped) gather gives the table's row. For a row number already
in [0, 50000) nothing is wrapped, both range tests pass, nothing is clamped, and the result is the table's row. -/

/-- A left fold by `and` over one-bit words that are all 1, started at 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from 1 is 1 at a result index when every element that reduces into it is 1. -/
theorem reduce_andi_eq_one_of_all {s t u : Shape} {axes : List (Fin s.rank)} (x : s.Idx → BitVec 1)
    (init : u.Idx → BitVec 1) (h : s.ReducesTo axes t) (hu : 0 < u.numel) (j : t.Idx)
    (hi : init (Shape.Idx.first hu) = 1#1) (hx : ∀ i, h.drop i = j → x i = 1#1) :
    Host.reduce IntOp.andi x init h hu j = 1#1 := by
  rw [Host.reduce_eq_foldl, hi]
  refine foldl_andi_one x _ fun i hi' => ?_
  rw [List.mem_filter] at hi'
  exact hx i (by simpa using hi'.2)

/-- A vector of 800000 entries broadcast along axis 0 of an [800000, m] array reads, at (e, c), its entry e. -/
theorem broadcast_rows_apply {α : Type} {m : Nat}
    (hb : (⟨1, ![800000]⟩ : Shape).BroadcastsInDim ⟨2, ![800000, m]⟩ (![0] : Fin 1 → Fin 2))
    (x : (⟨1, ![800000]⟩ : Shape).Idx → α) (i : (⟨2, ![800000, m]⟩ : Shape).Idx) :
    broadcastInDim ⟨2, ![800000, m]⟩ ![0] hb x i = x (ix1 (i 0)) := by
  unfold broadcastInDim
  refine congrArg x (funext fun a => Fin.ext ?_)
  match a with
  | ⟨0, _⟩ => rfl

section Take
variable {F : FTy → Type} [FloatOps F] {C : Nat}
  (hb0 : (⟨0, ![]⟩ : Shape).BroadcastsInDim ⟨1, ![800000]⟩ (![] : Fin 0 → Fin (⟨1, ![800000]⟩ : Shape).rank))
  (hb1 : (⟨1, ![800000]⟩ : Shape).BroadcastsInDim ⟨2, ![800000, 1]⟩ (![0] : Fin 1 → Fin (⟨2, ![800000, 1]⟩ : Shape).rank))
  (hb2 : (⟨0, ![]⟩ : Shape).BroadcastsInDim ⟨2, ![800000, 1]⟩ (![] : Fin 0 → Fin (⟨2, ![800000, 1]⟩ : Shape).rank))
  (hb3 : (⟨1, ![1]⟩ : Shape).BroadcastsInDim ⟨2, ![1, 1]⟩ (![1] : Fin 1 → Fin (⟨2, ![1, 1]⟩ : Shape).rank))
  (hb4 : (⟨2, ![1, 1]⟩ : Shape).BroadcastsInDim ⟨2, ![800000, 1]⟩ (![0, 1] : Fin 2 → Fin (⟨2, ![800000, 1]⟩ : Shape).rank))
  (hr : (⟨2, ![800000, 1]⟩ : Shape).ReducesTo [1] ⟨1, ![800000]⟩)
  (hu : 0 < (⟨0, ![]⟩ : Shape).numel)
  (hb5 : (⟨1, ![800000]⟩ : Shape).BroadcastsInDim ⟨2, ![800000, C]⟩ (![0] : Fin 1 → Fin (⟨2, ![800000, C]⟩ : Shape).rank))
  (hb6 : (⟨0, ![]⟩ : Shape).BroadcastsInDim ⟨2, ![800000, C]⟩ (![] : Fin 0 → Fin (⟨2, ![800000, C]⟩ : Shape).rank))
  (wf : GatherDims.WF ⟨2, ![50000, C]⟩ ⟨2, ![800000, 1]⟩ ⟨2, ![800000, C]⟩ [1] [0] [] [0] [] 1 ![1, C])

/-- The lookup: wrap negative row numbers, make the row numbers a column, test each against [0, 49999], gather the
    rows, and put the fill value (the pattern 0x7FC00000) where the test failed. -/
def takeFill (T : FVec F ⟨2, ![50000, C]⟩ .f32) (s : IVec ⟨1, ![800000]⟩ 32) : FVec F ⟨2, ![800000, C]⟩ .f32 :=
  select
    (broadcastInDim ⟨2, ![800000, C]⟩ ![0] hb5
      (Host.reduce IntOp.andi
        (andi
          (cmpi .sge
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![] hb2 (constantI ⟨0, ![]⟩ 32 0#32)))
          (cmpi .sle
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![0, 1] hb4
              (broadcastInDim ⟨2, ![1, 1]⟩ ![1] hb3 (constantI ⟨1, ![1]⟩ 32 49999#32)))))
        (constantI ⟨0, ![]⟩ 1 1#1) hr hu))
    (Host.gather (rowGather 50000 800000 C wf) T
      (broadcastInDim ⟨2, ![800000, 1]⟩ ![0] hb1
        (select (cmpi .slt s (broadcastInDim ⟨1, ![800000]⟩ ![] hb0 (constantI ⟨0, ![]⟩ 32 0#32)))
          (addi s (broadcastInDim ⟨1, ![800000]⟩ ![] hb0 (constantI ⟨0, ![]⟩ 32 50000#32))) s)))
    (broadcastInDim ⟨2, ![800000, C]⟩ ![] hb6 (constant ⟨0, ![]⟩ .f32 0x7FC00000#32))

/-- A nonnegative row number is not wrapped. -/
theorem wrap_apply (s : IVec ⟨1, ![800000]⟩ 32) (j : (⟨1, ![800000]⟩ : Shape).Idx) (h0 : 0 ≤ (s j).toInt) :
    select (cmpi .slt s (broadcastInDim ⟨1, ![800000]⟩ ![] hb0 (constantI ⟨0, ![]⟩ 32 0#32)))
      (addi s (broadcastInDim ⟨1, ![800000]⟩ ![] hb0 (constantI ⟨0, ![]⟩ 32 50000#32))) s j = s j := by
  show Scalar.select (IntOp.cmpi .slt (s j) 0#32) _ _ = s j
  unfold Scalar.select
  rw [if_neg]
  intro hc
  have := IntOp.cmpi_slt.1 hc
  rw [show (0#32 : BitVec 32).toInt = 0 from by decide] at this
  omega

/-- THE LOOKUP READ AT (e, k), for a row number in [0, 50000): the table's row of that number, column k. -/
theorem takeFill_apply (T : FVec F ⟨2, ![50000, C]⟩ .f32) (s : IVec ⟨1, ![800000]⟩ 32) (e : Fin 800000) (k : Fin C)
    (h0 : 0 ≤ (s (ix1 e)).toInt) (h1 : (s (ix1 e)).toInt < 50000) :
    takeFill hb0 hb1 hb2 hb3 hb4 hr hu hb5 hb6 wf T s (ix2 e k)
      = T (ix2 ⟨(s (ix1 e)).toInt.toNat, by omega⟩ k) := by
  unfold takeFill
  rw [select_apply, broadcast_rows_apply hb5]
  -- the row-number column read at row e is the row number e itself
  have hv : ∀ i : (⟨2, ![800000, 1]⟩ : Shape).Idx, i 0 = e →
      broadcastInDim ⟨2, ![800000, 1]⟩ ![0] hb1
        (select (cmpi .slt s (broadcastInDim ⟨1, ![800000]⟩ ![] hb0 (constantI ⟨0, ![]⟩ 32 0#32)))
          (addi s (broadcastInDim ⟨1, ![800000]⟩ ![] hb0 (constantI ⟨0, ![]⟩ 32 50000#32))) s) i = s (ix1 e) := by
    intro i hi
    rw [broadcast_rows_apply hb1, hi, wrap_apply hb0 s (ix1 e) h0]
  -- both range tests pass at row e
  have hok : Host.reduce IntOp.andi
        (andi
          (cmpi .sge
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![] hb2 (constantI ⟨0, ![]⟩ 32 0#32)))
          (cmpi .sle
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![0, 1] hb4
              (broadcastInDim ⟨2, ![1, 1]⟩ ![1] hb3 (constantI ⟨1, ![1]⟩ 32 49999#32)))))
        (constantI ⟨0, ![]⟩ 1 1#1) hr hu (ix1 ((ix2 e k : (⟨2, ![800000, C]⟩ : Shape).Idx) 0)) = 1#1 := by
    refine reduce_andi_eq_one_of_all _ _ hr hu _ rfl fun i hi => ?_
    have hi0 : i 0 = e := by
      have := congrArg Fin.val (congrFun hi 0)
      exact Fin.ext this
    show IntOp.andi (IntOp.cmpi .sge _ 0#32) (IntOp.cmpi .sle _ 49999#32) = 1#1
    rw [hv i hi0, IntOp.andi_eq_one, IntOp.cmpi_sge, IntOp.cmpi_sle,
      show (0#32 : BitVec 32).toInt = 0 from by decide, show (49999#32 : BitVec 32).toInt = 49999 from by decide]
    omega
  rw [hok, select_one]
  refine gather_rows_apply_of_eq (by decide) wf T _ e k _ ?_
  rw [hv (ix2 e 0) rfl]
  show min (s (ix1 e)).toInt.toNat (50000 - 1) = (s (ix1 e)).toInt.toNat
  omega

end Take

end Cert.ScatterGather

end
-- ==== Proof.LibVecGather.lean ====
/-
  Gather of single entries of a vector, read at an index. A vector of N entries; E positions, held as an [E, 1]
  array of integer words. Result entry e is the vector's entry r with r the signed reading of word e clamped into
  [0, N - 1].
-/
import Idealize.ShloMosaic.PureOps.Ideal
import Idealize.ShloMosaic.Lib.ValueIdx

noncomputable section

namespace Cert.VecGather

open Idealize.ShloMosaic Idealize.ShloMosaic.ValueIdx

/-- The dimension numbers of a gather of single entries of a vector: one index word per result entry names an
    entry of the vector (slices of one entry), no offset axis. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT e: the vector at entry "word e read signed, clamped into [0, N - 1]". -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e 0)).toInt.toNat (N - 1), by omega⟩) := by
  unfold Host.gather
  congr 1
  funext a
  refine Fin.ext ?_
  match a with
  | ⟨0, _⟩ =>
    show (vecGather N E wf).start (ix1 e) idx 0 + (vecGather N E wf).batchCoord (ix1 e) 0
        + (vecGather N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather N E wf).startIndexMap from List.mem_singleton.mpr rfl)]
    have hsi : (vecGather N E wf).siIdx (ix1 e) ⟨List.idxOf (0 : Fin 1) (vecGather N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Cert.VecGather

end
-- ==== Proof.LibRealEntries.lean ====
import Idealize.ShloMosaic.PureOps.Ideal
import Idealize.ShloMosaic.PureOps.Ideal.Laws

/-!
# Real entries inside the extended reals, and a scale moved through a contraction

On the extended reals a factor does not move across a sum in general (an infinite term absorbs). Where every entry
is a real number it does: `(∑ₖ aₖ·wₖ)·c = ∑ₖ (aₖ·c)·wₖ`. This file keeps the closure facts that say which
entries are reals — products, sums, maxima, a power of a base at least one to a negative real exponent, an exact
scatter-add of reals into reals — and that law; and the float words `-0.5` and `1.0` as reals.
-/

noncomputable section

open scoped BigOperators

namespace Cert.LibRealEntries

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.max {x y : EReal} (hx : IsReal x) (hy : IsReal y) : IsReal (max x y) := by
  rcases max_choice x y with h | h <;> rw [h] <;> assumption

/-- A finite sum of reals is a real. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self _ _)).add (ih fun i hi => h i (Finset.mem_insert_of_mem hi))

/-- The coercion of the reals commutes with a finite sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- THE LAW: over real entries a scale applied after a contraction is the contraction of the scaled left factors. -/
theorem scale_sum {ι : Type*} [Fintype ι] (a w : ι → EReal) (c : EReal) (ha : ∀ k, IsReal (a k)) (hw : ∀ k, IsReal (w k))
    (hc : IsReal c) : (∑ k, a k * w k) * c = ∑ k, (a k * c) * w k := by
  choose a' ha' using ha
  choose w' hw' using hw
  obtain ⟨c', rfl⟩ := hc
  obtain rfl : a = fun k => ((a' k : ℝ) : EReal) := funext ha'
  obtain rfl : w = fun k => ((w' k : ℝ) : EReal) := funext hw'
  have h1 : ∀ k, ((a' k : ℝ) : EReal) * ((w' k : ℝ) : EReal) = ((a' k * w' k : ℝ) : EReal) := fun k => (EReal.coe_mul _ _).symm
  have h2 : ∀ k, (((a' k : ℝ) : EReal) * ((c' : ℝ) : EReal)) * ((w' k : ℝ) : EReal) = ((a' k * c' * w' k : ℝ) : EReal) :=
    fun k => by rw [← EReal.coe_mul, ← EReal.coe_mul]
  simp only [h1, h2]
  rw [coe_sum, coe_sum, ← EReal.coe_mul]
  congr 1
  rw [Finset.sum_mul]
  exact Finset.sum_congr rfl fun k _ => by ring

/-- A base clamped below by one, raised to a negative real power, is a real: the power of a real base by the real
    power function, and `0` at the infinite base. -/
theorem isReal_pow_max_one (d : EReal) (y : ℝ) (hy : y < 0) : IsReal (Ideal.pow (max d 1) (y : EReal)) := by
  induction d using EReal.rec with
  | bot =>
    rw [max_eq_right bot_le, ← EReal.coe_one]
    exact ⟨Real.rpow 1 y, rfl⟩
  | top =>
    rw [max_eq_left le_top]
    show IsReal (if 0 < (y : EReal) then ⊤ else if (y : EReal) = 0 then 1 else 0)
    rw [if_neg (not_lt.mpr (EReal.coe_nonpos.mpr hy.le)), if_neg (by exact_mod_cast hy.ne)]
    exact isReal_zero
  | coe x =>
    rw [← EReal.coe_one, ← EReal.coe_strictMono.monotone.map_max]
    exact ⟨Real.rpow (max x 1) y, rfl⟩

/-- A scatter-add of reals into reals is an array of reals: each entry is the operand's plus a finite sum of updates. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

/-- The word of `-0.5` is the real `-1/2`. -/
theorem ofBits_neg_half : Ideal.ofBits .f32 0xBF000000#32 = (((-1 / 2 : ℝ)) : EReal) := by
  simp [Ideal.ofBits, Ideal.ieee, -EReal.coe_mul]; norm_num

/-- The word of `1.0` is `1`. -/
theorem ofBits_one : Ideal.ofBits .f32 0x3F800000#32 = 1 := by
  simp [Ideal.ofBits, Ideal.ieee, -EReal.coe_mul]; norm_num

end Cert.LibRealEntries

end
-- ==== Proof.LibGraphLayer.lean ====
/-
  One graph-convolution layer over N nodes, E edges and C features, written two ways, at the exact (extended-real)
  instance.  H : [N, C] are the node features after the linear map, dis : [N] a per-node scale, b : [C] a bias;
  an edge e reads node r e (a word read signed and clamped into [0, N - 1]) and lands on node n when its target
  word reads n.
    first form   K(n, f) = dis n * (0 + sum over the edges landing on n of H(r e, f) * dis(r e)) + b f
    second form  R(n, f) =         (0 + sum over the edges landing on n of H(r e, f) * (dis(r e) * dis(c' e))) + b f
  On the extended reals a factor does not move across a sum in general; it does where every entry is a real number.
  So the two forms agree, entry by entry, when H and dis have real entries and c' e = n for every edge landing on n.
-/
import Idealize.ShloMosaic.PureOps.Ideal
import Idealize.ShloMosaic.PureOps.Ideal.Laws
import Idealize.ShloMosaic.Lib.ValueIdx
import Idealize.ShloMosaic.Lib.Pipeline.Value
import proofs.«160260_j74964359185003_2_alg».proof.Proof.LibScatterGather
import proofs.«160260_j74964359185003_2_alg».proof.Proof.LibVecGather
import proofs.«160260_j74964359185003_2_alg».proof.Proof.LibRealEntries

noncomputable section

open scoped BigOperators

namespace Cert.Layer

open Idealize.ShloMosaic Idealize.ShloMosaic.ValueIdx Cert.LibRealEntries Cert.ScatterGather Cert.VecGather

/-! ## Broadcasts read at an index -/

/-- A vector of n entries made a column [n, 1] reads, at (p, z), its entry p. -/
theorem bc_col_apply {α : Type} {n : Nat}
    (hb : (⟨1, ![n]⟩ : Shape).BroadcastsInDim ⟨2, ![n, 1]⟩ (![0] : Fin 1 → Fin (⟨2, ![n, 1]⟩ : Shape).rank))
    (x : (⟨1, ![n]⟩ : Shape).Idx → α) (p : Fin n) (z : Fin 1) :
    broadcastInDim ⟨2, ![n, 1]⟩ ![0] hb x (ix2 p z) = x (ix1 p) := by
  refine broadcastInDim_apply _ hb x _ _ fun a => ?_
  match a with
  | ⟨0, _⟩ =>
    show p.val = if n = 1 then 0 else p.val
    split
    · have := p.isLt; omega
    · rfl

/-- A column [n, 1] stretched to [n, m] reads, at (p, k), its entry (p, 0). -/
theorem bc_cols_apply {α : Type} {n m : Nat}
    (hb : (⟨2, ![n, 1]⟩ : Shape).BroadcastsInDim ⟨2, ![n, m]⟩ (![0, 1] : Fin 2 → Fin (⟨2, ![n, m]⟩ : Shape).rank))
    (x : (⟨2, ![n, 1]⟩ : Shape).Idx → α) (p : Fin n) (k : Fin m) :
    broadcastInDim ⟨2, ![n, m]⟩ ![0, 1] hb x (ix2 p k) = x (ix2 p 0) := by
  refine broadcastInDim_apply _ hb x _ _ fun a => ?_
  match a with
  | ⟨0, _⟩ =>
    show p.val = if n = 1 then 0 else p.val
    split
    · have := p.isLt; omega
    · rfl
  | ⟨1, _⟩ => rfl

/-- A vector of m entries made a row [1, m] reads, at (z, k), its entry k. -/
theorem bc_row_apply {α : Type} {m : Nat}
    (hb : (⟨1, ![m]⟩ : Shape).BroadcastsInDim ⟨2, ![1, m]⟩ (![1] : Fin 1 → Fin (⟨2, ![1, m]⟩ : Shape).rank))
    (x : (⟨1, ![m]⟩ : Shape).Idx → α) (z : Fin 1) (k : Fin m) :
    broadcastInDim ⟨2, ![1, m]⟩ ![1] hb x (ix2 z k) = x (ix1 k) := by
  refine broadcastInDim_apply _ hb x _ _ fun a => ?_
  match a with
  | ⟨0, _⟩ =>
    show k.val = if m = 1 then 0 else k.val
    split
    · have := k.isLt; omega
    · rfl

/-- A row [1, m] stretched to [n, m] reads, at (p, k), its entry (0, k). -/
theorem bc_rows_apply {α : Type} {n m : Nat}
    (hb : (⟨2, ![1, m]⟩ : Shape).BroadcastsInDim ⟨2, ![n, m]⟩ (![0, 1] : Fin 2 → Fin (⟨2, ![n, m]⟩ : Shape).rank))
    (x : (⟨2, ![1, m]⟩ : Shape).Idx → α) (p : Fin n) (k : Fin m) :
    broadcastInDim ⟨2, ![n, m]⟩ ![0, 1] hb x (ix2 p k) = x (ix2 0 k) := by
  refine broadcastInDim_apply _ hb x _ _ fun a => ?_
  match a with
  | ⟨0, _⟩ => rfl
  | ⟨1, _⟩ =>
    show k.val = if m = 1 then 0 else k.val
    split
    · have := k.isLt; omega
    · rfl

/-- A scalar splat over any shape reads the scalar everywhere. -/
theorem bc_scalar_apply {α : Type} {s : Shape}
    (h0 : (⟨0, ![]⟩ : Shape).BroadcastsInDim s (![] : Fin 0 → Fin s.rank))
    (x : (⟨0, ![]⟩ : Shape).Idx → α) (i : s.Idx) :
    broadcastInDim s ![] h0 x i = x ix0 := by
  unfold broadcastInDim
  exact congrArg x (funext fun a => a.elim0)

/-- The splat of the zero word reads 0 everywhere. -/
theorem zero_splat_apply {s : Shape}
    (h0 : (⟨0, ![]⟩ : Shape).BroadcastsInDim s (![] : Fin 0 → Fin s.rank)) (i : s.Idx) :
    broadcastInDim s ![] h0 (constant (F := Ideal) ⟨0, ![]⟩ .f32 0x00000000#32) i = (0 : EReal) := by
  rw [bc_scalar_apply, constant_apply, Ideal.ofBits_zero_f32]

/-! ## Two small companions -/

/-- relu of a real entry is real: max with the zero splat -/
theorem relu_real {s : Shape} (h0 : (⟨0, ![]⟩ : Shape).BroadcastsInDim s (![] : Fin 0 → Fin s.rank))
    (x : FVec Ideal s .f32) (i : s.Idx) (hx : IsReal (x i)) :
    IsReal (maximumf x (broadcastInDim s ![] h0 (constant (F := Ideal) ⟨0, ![]⟩ .f32 0x00000000#32)) i) := by
  rw [maximumf_apply, zero_splat_apply]
  exact hx.max isReal_zero

/-- an edge word that reads a node number n ≥ 0 is not wrapped, and clamping it into [0, N-1] leaves n -/
theorem clamp_wrapped_of_reads {E N : Nat}
    (h0E : (⟨0, ![]⟩ : Shape).BroadcastsInDim ⟨1, ![E]⟩ (![] : Fin 0 → Fin (⟨1, ![E]⟩ : Shape).rank))
    (col : IVec ⟨1, ![E]⟩ 32) (Nw : BitVec 32) (e : Fin E) (n : Fin N) (h : (col (ix1 e)).toInt = (n.val : ℤ)) :
    min ((select (cmpi .slt col (broadcastInDim ⟨1, ![E]⟩ ![] h0E (constantI ⟨0, ![]⟩ 32 0#32)))
            (addi col (broadcastInDim ⟨1, ![E]⟩ ![] h0E (constantI ⟨0, ![]⟩ 32 Nw))) col) (ix1 e)).toInt.toNat (N - 1) = n.val := by
  have hsel : (select (cmpi .slt col (broadcastInDim ⟨1, ![E]⟩ ![] h0E (constantI ⟨0, ![]⟩ 32 0#32)))
      (addi col (broadcastInDim ⟨1, ![E]⟩ ![] h0E (constantI ⟨0, ![]⟩ 32 Nw))) col) (ix1 e) = col (ix1 e) := by
    show Scalar.select (IntOp.cmpi .slt (col (ix1 e)) 0#32) _ _ = col (ix1 e)
    unfold Scalar.select
    rw [if_neg]
    intro hc
    have := IntOp.cmpi_slt.1 hc
    rw [show (0#32 : BitVec 32).toInt = 0 from by decide] at this
    omega
  rw [hsel, h]
  have := n.isLt
  omega

/-! ## Scatter-add and gathers whose words are a vector made a column -/

/-- A 32-bit word read signed and clamped into [0, N - 1]: the entry a gather reads. -/
def clampIdx {N : Nat} (hN : 0 < N) (w : BitVec 32) : Fin N := ⟨min w.toInt.toNat (N - 1), by omega⟩

theorem clampIdx_val {N : Nat} (hN : 0 < N) (w : BitVec 32) : (clampIdx hN w).val = min w.toInt.toNat (N - 1) := rfl

section Readers
variable {N E C : Nat}
  (wfS : ScatterDims.WF ⟨2, ![N, C]⟩ ⟨2, ![E, 1]⟩ ⟨2, ![E, C]⟩ [1] [0] [0] 1)
  (wfG : GatherDims.WF ⟨2, ![N, C]⟩ ⟨2, ![E, 1]⟩ ⟨2, ![E, C]⟩ [1] [0] [] [0] [] 1 ![1, C])
  (wfV : GatherDims.WF ⟨1, ![N]⟩ ⟨2, ![E, 1]⟩ ⟨1, ![E]⟩ [] [0] [] [0] [] 1 ![1])
  (hE1 : (⟨1, ![E]⟩ : Shape).BroadcastsInDim ⟨2, ![E, 1]⟩ (![0] : Fin 1 → Fin (⟨2, ![E, 1]⟩ : Shape).rank))

/-- The exact scatter-add of rows read at (n, f): the table's entry plus the updates (e, f) of the edges e whose
    word reads n. -/
theorem scatterAdd_col_apply (x : FVec Ideal ⟨2, ![N, C]⟩ .f32) (idx : IVec ⟨1, ![E]⟩ 32)
    (upd : FVec Ideal ⟨2, ![E, C]⟩ .f32) (n : Fin N) (f : Fin C) :
    Host.scatterAdd (rowScatter N E C wfS) x (broadcastInDim ⟨2, ![E, 1]⟩ ![0] hE1 idx) upd (ix2 n f)
      = x (ix2 n f) + ∑ e ∈ Finset.univ.filter (fun e : Fin E => (idx (ix1 e)).toInt = (n.val : ℤ)), upd (ix2 e f) := by
  refine (scatterAdd_rows_apply wfS _ x upd n f).trans ?_
  refine congrArg (fun t => x (ix2 n f) + t) (Finset.sum_congr (Finset.filter_congr fun e _ => ?_) fun _ _ => rfl)
  rw [bc_col_apply]

/-- The gather of rows read at (e, k): the table at the row word e names, column k. -/
theorem gather_col_apply {α : Type} (hN : 0 < N) (x : (⟨2, ![N, C]⟩ : Shape).Idx → α) (idx : IVec ⟨1, ![E]⟩ 32)
    (e : Fin E) (k : Fin C) :
    Host.gather (rowGather N E C wfG) x (broadcastInDim ⟨2, ![E, 1]⟩ ![0] hE1 idx) (ix2 e k)
      = x (ix2 (clampIdx hN (idx (ix1 e))) k) :=
  gather_rows_apply_of_eq hN wfG x _ e k _ (by rw [bc_col_apply, clampIdx_val])

/-- The gather of single entries read at e: the vector at the entry word e names. -/
theorem gather_vcol_apply {α : Type} (hN : 0 < N) (x : (⟨1, ![N]⟩ : Shape).Idx → α) (idx : IVec ⟨1, ![E]⟩ 32)
    (e : Fin E) :
    Host.gather (vecGather N E wfV) x (broadcastInDim ⟨2, ![E, 1]⟩ ![0] hE1 idx) (ix1 e)
      = x (ix1 (clampIdx hN (idx (ix1 e)))) := by
  refine (gather_vec_apply hN wfV x _ e).trans (congrArg x (funext fun a => ?_))
  match a with
  | ⟨0, _⟩ =>
    refine Fin.ext ?_
    show min ((broadcastInDim ⟨2, ![E, 1]⟩ ![0] hE1 idx) (ix2 e 0)).toInt.toNat (N - 1) = (clampIdx hN (idx (ix1 e))).val
    rw [bc_col_apply, clampIdx_val]

end Readers

/-! ## The layer, two ways -/

section
variable {N E C : Nat}
  (wfS : ScatterDims.WF ⟨2, ![N, C]⟩ ⟨2, ![E, 1]⟩ ⟨2, ![E, C]⟩ [1] [0] [0] 1)
  (wfG : GatherDims.WF ⟨2, ![N, C]⟩ ⟨2, ![E, 1]⟩ ⟨2, ![E, C]⟩ [1] [0] [] [0] [] 1 ![1, C])
  (wfV : GatherDims.WF ⟨1, ![N]⟩ ⟨2, ![E, 1]⟩ ⟨1, ![E]⟩ [] [0] [] [0] [] 1 ![1])
  (hN1 : (⟨1, ![N]⟩ : Shape).BroadcastsInDim ⟨2, ![N, 1]⟩ (![0] : Fin 1 → Fin (⟨2, ![N, 1]⟩ : Shape).rank))
  (hNC : (⟨2, ![N, 1]⟩ : Shape).BroadcastsInDim ⟨2, ![N, C]⟩ (![0, 1] : Fin 2 → Fin (⟨2, ![N, C]⟩ : Shape).rank))
  (h0NC : (⟨0, ![]⟩ : Shape).BroadcastsInDim ⟨2, ![N, C]⟩ (![] : Fin 0 → Fin (⟨2, ![N, C]⟩ : Shape).rank))
  (hE1 : (⟨1, ![E]⟩ : Shape).BroadcastsInDim ⟨2, ![E, 1]⟩ (![0] : Fin 1 → Fin (⟨2, ![E, 1]⟩ : Shape).rank))
  (hEC : (⟨2, ![E, 1]⟩ : Shape).BroadcastsInDim ⟨2, ![E, C]⟩ (![0, 1] : Fin 2 → Fin (⟨2, ![E, C]⟩ : Shape).rank))
  (hC1 : (⟨1, ![C]⟩ : Shape).BroadcastsInDim ⟨2, ![1, C]⟩ (![1] : Fin 1 → Fin (⟨2, ![1, C]⟩ : Shape).rank))
  (h1C : (⟨2, ![1, C]⟩ : Shape).BroadcastsInDim ⟨2, ![N, C]⟩ (![0, 1] : Fin 2 → Fin (⟨2, ![N, C]⟩ : Shape).rank))

/-- the kernel's form of the layer -/
def layerK (H : FVec Ideal ⟨2, ![N, C]⟩ .f32) (dis : FVec Ideal ⟨1, ![N]⟩ .f32) (rowN col : IVec ⟨1, ![E]⟩ 32) (b : FVec Ideal ⟨1, ![C]⟩ .f32) :
    FVec Ideal ⟨2, ![N, C]⟩ .f32 :=
  addf
    (mulf (broadcastInDim ⟨2, ![N, C]⟩ ![0, 1] hNC (broadcastInDim ⟨2, ![N, 1]⟩ ![0] hN1 dis))
      (Host.scatterAdd (rowScatter N E C wfS)
        (broadcastInDim ⟨2, ![N, C]⟩ ![] h0NC (constant (F := Ideal) ⟨0, ![]⟩ .f32 0x00000000#32))
        (broadcastInDim ⟨2, ![E, 1]⟩ ![0] hE1 col)
        (Host.gather (rowGather N E C wfG)
          (mulf H (broadcastInDim ⟨2, ![N, C]⟩ ![0, 1] hNC (broadcastInDim ⟨2, ![N, 1]⟩ ![0] hN1 dis)))
          (broadcastInDim ⟨2, ![E, 1]⟩ ![0] hE1 rowN))))
    (broadcastInDim ⟨2, ![N, C]⟩ ![0, 1] h1C (broadcastInDim ⟨2, ![1, C]⟩ ![1] hC1 b))

/-- the reference's form of the layer -/
def layerR (H : FVec Ideal ⟨2, ![N, C]⟩ .f32) (dis : FVec Ideal ⟨1, ![N]⟩ .f32) (rowN colN col : IVec ⟨1, ![E]⟩ 32) (b : FVec Ideal ⟨1, ![C]⟩ .f32) :
    FVec Ideal ⟨2, ![N, C]⟩ .f32 :=
  addf
    (Host.scatterAdd (rowScatter N E C wfS)
      (broadcastInDim ⟨2, ![N, C]⟩ ![] h0NC (constant (F := Ideal) ⟨0, ![]⟩ .f32 0x00000000#32))
      (broadcastInDim ⟨2, ![E, 1]⟩ ![0] hE1 col)
      (mulf (Host.gather (rowGather N E C wfG) H (broadcastInDim ⟨2, ![E, 1]⟩ ![0] hE1 rowN))
        (broadcastInDim ⟨2, ![E, C]⟩ ![0, 1] hEC (broadcastInDim ⟨2, ![E, 1]⟩ ![0] hE1
          (mulf (Host.gather (vecGather N E wfV) dis (broadcastInDim ⟨2, ![E, 1]⟩ ![0] hE1 rowN))
                (Host.gather (vecGather N E wfV) dis (broadcastInDim ⟨2, ![E, 1]⟩ ![0] hE1 colN)))))))
    (broadcastInDim ⟨2, ![N, C]⟩ ![0, 1] h1C (broadcastInDim ⟨2, ![1, C]⟩ ![1] hC1 b))

/-- The first form read at (n, f). -/
theorem layerK_apply (hN : 0 < N) (H : FVec Ideal ⟨2, ![N, C]⟩ .f32) (dis : FVec Ideal ⟨1, ![N]⟩ .f32)
    (rowN col : IVec ⟨1, ![E]⟩ 32) (b : FVec Ideal ⟨1, ![C]⟩ .f32) (n : Fin N) (f : Fin C) :
    layerK wfS wfG hN1 hNC h0NC hE1 hC1 h1C H dis rowN col b (ix2 n f)
      = dis (ix1 n) * (0 + ∑ e ∈ Finset.univ.filter (fun e : Fin E => (col (ix1 e)).toInt = (n.val : ℤ)),
            H (ix2 (clampIdx hN (rowN (ix1 e))) f) * dis (ix1 (clampIdx hN (rowN (ix1 e)))))
          + b (ix1 f) := by
  unfold layerK
  rw [addf_apply, mulf_apply, bc_cols_apply hNC, bc_col_apply hN1, bc_rows_apply h1C, bc_row_apply hC1,
    scatterAdd_col_apply, zero_splat_apply]
  refine congrArg (fun t => dis (ix1 n) * (0 + t) + b (ix1 f)) (Finset.sum_congr rfl fun e _ => ?_)
  rw [gather_col_apply wfG hE1 hN, mulf_apply, bc_cols_apply hNC, bc_col_apply hN1]

/-- The second form read at (n, f). -/
theorem layerR_apply (hN : 0 < N) (H : FVec Ideal ⟨2, ![N, C]⟩ .f32) (dis : FVec Ideal ⟨1, ![N]⟩ .f32)
    (rowN colN col : IVec ⟨1, ![E]⟩ 32) (b : FVec Ideal ⟨1, ![C]⟩ .f32) (n : Fin N) (f : Fin C) :
    layerR wfS wfG wfV h0NC hE1 hEC hC1 h1C H dis rowN colN col b (ix2 n f)
      = (0 + ∑ e ∈ Finset.univ.filter (fun e : Fin E => (col (ix1 e)).toInt = (n.val : ℤ)),
            H (ix2 (clampIdx hN (rowN (ix1 e))) f)
              * (dis (ix1 (clampIdx hN (rowN (ix1 e)))) * dis (ix1 (clampIdx hN (colN (ix1 e))))))
          + b (ix1 f) := by
  unfold layerR
  rw [addf_apply, bc_rows_apply h1C, bc_row_apply hC1, scatterAdd_col_apply, zero_splat_apply]
  refine congrArg (fun t => (0 + t) + b (ix1 f)) (Finset.sum_congr rfl fun e _ => ?_)
  rw [mulf_apply, gather_col_apply wfG hE1 hN, bc_cols_apply hEC, bc_col_apply hE1, mulf_apply,
    gather_vcol_apply wfV hE1 hN, gather_vcol_apply wfV hE1 hN]

/-- THE LAW: over real entries, and with the second scale of every edge landing on n read at n itself, the two forms
    agree entry by entry. The outer scale dis n is a real, so it moves inside the finite sum of reals. -/
theorem layer_eq (hN : 0 < N) (H : FVec Ideal ⟨2, ![N, C]⟩ .f32) (dis : FVec Ideal ⟨1, ![N]⟩ .f32)
    (rowN colN col : IVec ⟨1, ![E]⟩ 32) (b : FVec Ideal ⟨1, ![C]⟩ .f32)
    (hH : ∀ (p : Fin N) (f : Fin C), IsReal (H (ix2 p f))) (hdis : ∀ n : Fin N, IsReal (dis (ix1 n)))
    (hcol : ∀ (e : Fin E) (n : Fin N), (col (ix1 e)).toInt = (n.val : ℤ) → min (colN (ix1 e)).toInt.toNat (N - 1) = n.val)
    (n : Fin N) (f : Fin C) :
    layerK wfS wfG hN1 hNC h0NC hE1 hC1 h1C H dis rowN col b (ix2 n f)
      = layerR wfS wfG wfV h0NC hE1 hEC hC1 h1C H dis rowN colN col b (ix2 n f) := by
  rw [layerK_apply wfS wfG hN1 hNC h0NC hE1 hC1 h1C hN, layerR_apply wfS wfG wfV h0NC hE1 hEC hC1 h1C hN]
  congr 1
  choose Hr hHr using hH
  choose dr hdr using hdis
  -- each term of the first form is the real H(r e, f) * dis(r e)
  have hK : ∀ e ∈ Finset.univ.filter (fun e : Fin E => (col (ix1 e)).toInt = (n.val : ℤ)),
      H (ix2 (clampIdx hN (rowN (ix1 e))) f) * dis (ix1 (clampIdx hN (rowN (ix1 e))))
        = ((Hr (clampIdx hN (rowN (ix1 e))) f * dr (clampIdx hN (rowN (ix1 e))) : ℝ) : EReal) := by
    intro e _
    rw [hHr, hdr, ← EReal.coe_mul]
  -- each term of the second form is the real H(r e, f) * (dis(r e) * dis n): the edge lands on n, so c' e = n
  have hR : ∀ e ∈ Finset.univ.filter (fun e : Fin E => (col (ix1 e)).toInt = (n.val : ℤ)),
      H (ix2 (clampIdx hN (rowN (ix1 e))) f)
          * (dis (ix1 (clampIdx hN (rowN (ix1 e)))) * dis (ix1 (clampIdx hN (colN (ix1 e)))))
        = ((Hr (clampIdx hN (rowN (ix1 e))) f * (dr (clampIdx hN (rowN (ix1 e))) * dr n) : ℝ) : EReal) := by
    intro e he
    have hc : clampIdx hN (colN (ix1 e)) = n := Fin.ext (hcol e n (Finset.mem_filter.mp he).2)
    rw [hc, hHr, hdr, hdr n, ← EReal.coe_mul, ← EReal.coe_mul]
  rw [Finset.sum_congr rfl hK, Finset.sum_congr rfl hR, coe_sum, coe_sum, zero_add, zero_add, hdr n, ← EReal.coe_mul]
  congr 1
  rw [Finset.mul_sum]
  exact Finset.sum_congr rfl fun e _ => by ring

/-- the layer's result is real where the inputs are -/
theorem layerR_real (hN : 0 < N) (H : FVec Ideal ⟨2, ![N, C]⟩ .f32) (dis : FVec Ideal ⟨1, ![N]⟩ .f32)
    (rowN colN col : IVec ⟨1, ![E]⟩ 32) (b : FVec Ideal ⟨1, ![C]⟩ .f32)
    (hH : ∀ (p : Fin N) (f : Fin C), IsReal (H (ix2 p f))) (hdis : ∀ n : Fin N, IsReal (dis (ix1 n)))
    (hb : ∀ f : Fin C, IsReal (b (ix1 f))) (n : Fin N) (f : Fin C) :
    IsReal (layerR wfS wfG wfV h0NC hE1 hEC hC1 h1C H dis rowN colN col b (ix2 n f)) := by
  rw [layerR_apply wfS wfG wfV h0NC hE1 hEC hC1 h1C hN]
  exact (isReal_zero.add (IsReal.sum _ _ fun e _ => (hH _ _).mul ((hdis _).mul (hdis _)))).add (hb f)

end

end Cert.Layer

end
-- ==== Proof.RefNames.lean ====
/-
  The reference side's names for the graph: lands n are the edges whose target word reads n; sIdx e / tIdx e the source /
  target word of edge e, wrapped if negative and clamped into [0, N − 1] (the entry a gather reads); dv the per-node scale
  where(deg > 0, rsqrt(max(deg, ε)), 0) of the degree deg = the number of edges landing on the node. All four are read off
  the reference's stages, which are functions of the edge array alone.
-/
import proofs.«160260_j74964359185003_2_alg».proof.Proof.RefRead
import proofs.«160260_j74964359185003_2_alg».proof.Proof.LibGraphLayer
import Idealize.ShloMosaic.Lib.ValueIdx

noncomputable section

namespace Cert.ReferenceIdeal.RefSide

open Cert.ReferenceIdeal Cert.ReferenceIdeal.ReadP
open Idealize.ShloMosaic Idealize.ShloMosaic.ValueIdx

variable (x1 : (⟨S2x3200000, .i32⟩ : BufTy).Contents (Elt Ideal))

/-- The edges whose target word reads node n. -/
def lands (n : Fin 100000) : Finset (Fin 3300000) :=
  Finset.univ.filter fun e : Fin 3300000 => (val_main_v7 (F := Ideal) x1 (ix1 e)).toInt = (n.val : ℤ)

/-- The node edge e reads: its source word, wrapped if negative, clamped into [0, N − 1]. -/
def sIdx (e : Fin 3300000) : Fin 100000 := Cert.Layer.clampIdx (by decide) (val_main_v22 (F := Ideal) x1 (ix1 e))

/-- The node the second scale of edge e is read at: its target word, wrapped if negative, clamped into [0, N − 1]. -/
def tIdx (e : Fin 3300000) : Fin 100000 := Cert.Layer.clampIdx (by decide) (val_main_v29 (F := Ideal) x1 (ix1 e))

/-- The per-node scale. -/
def dv (p : Fin 100000) : EReal := val_main_v17 (F := Ideal) x1 (ix1 p)

end Cert.ReferenceIdeal.RefSide

end
-- ==== Proof.Law.lean ====
/-
  The algebra that joins the two ways of writing a two-layer graph convolution, over abstract nodes ν and edges ε.
  An edge e reads node s e; the edges landing on node n are the finite set lands n; t e is the node the second scale of
  edge e is read at, and t e = n for every edge landing on n. dv is the per-node scale.

  Node-side scaling (scale the rows, aggregate, scale again, THEN apply the first linear map):
      aggK n k   = 0 + Σ_{e ∈ lands n} x(s e, k) · dv(s e)
      hidK n f   = max(Σ_k (aggK n k · dv n) · W1(k, f) + b1 f, 0)
      projK n c  = (Σ_q hidK n q · W2(q, c)) · dv n
      logitK n c = (0 + Σ_{e ∈ lands n} projK (s e) c) · dv n + b2 c
  Edge-side scaling (apply the linear map first, scale every message by dv(s e) · dv(t e), aggregate):
      lin1 p f   = Σ_k x(p, k) · W1(k, f)
      hidR n f   = max((0 + Σ_{e ∈ lands n} lin1 (s e) f · (dv(s e) · dv(t e))) + b1 f, 0)
      lin2 p c   = Σ_q hidR p q · W2(q, c)
      logitR n c = (0 + Σ_{e ∈ lands n} lin2 (s e) c · (dv(s e) · dv(t e))) + b2 c
  On the extended reals a factor does not move through a sum in general; where every entry is a real number it does
  (finite sums of reals, distributivity in ℝ). So with real x, W1, b1, W2, dv the two hidden layers agree and the two
  logits agree.
-/
import Mathlib.Data.EReal.Basic
import Mathlib.Data.EReal.Operations
import Mathlib.Algebra.BigOperators.Group.Finset.Basic
import Mathlib.Algebra.BigOperators.Ring.Finset
import Mathlib.Tactic.Ring
import proofs.«160260_j74964359185003_2_alg».proof.Proof.LibRealEntries

noncomputable section

open scoped BigOperators

namespace Cert.GCN.Law

open Cert.LibRealEntries

variable {ν ε : Type} (lands : ν → Finset ε) (s t : ε → ν)
  (x : ν → Fin 2 → EReal) (W1 : Fin 2 → Fin 16 → EReal) (b1 : Fin 16 → EReal)
  (W2 : Fin 16 → Fin 2 → EReal) (b2 : Fin 2 → EReal) (dv : ν → EReal)

def aggK (n : ν) (k : Fin 2) : EReal := 0 + ∑ e ∈ lands n, x (s e) k * dv (s e)
def hidK (n : ν) (f : Fin 16) : EReal := max ((∑ k : Fin 2, (aggK lands s x dv n k * dv n) * W1 k f) + b1 f) 0
def projK (n : ν) (c : Fin 2) : EReal := (∑ q : Fin 16, hidK lands s x W1 b1 dv n q * W2 q c) * dv n
def logitK (n : ν) (c : Fin 2) : EReal := (0 + ∑ e ∈ lands n, projK lands s x W1 b1 W2 dv (s e) c) * dv n + b2 c

def lin1 (p : ν) (f : Fin 16) : EReal := ∑ k : Fin 2, x p k * W1 k f
def hidR (n : ν) (f : Fin 16) : EReal :=
  max ((0 + ∑ e ∈ lands n, lin1 x W1 (s e) f * (dv (s e) * dv (t e))) + b1 f) 0
def lin2 (p : ν) (c : Fin 2) : EReal := ∑ q : Fin 16, hidR lands s t x W1 b1 dv p q * W2 q c
def logitR (n : ν) (c : Fin 2) : EReal :=
  (0 + ∑ e ∈ lands n, lin2 lands s t x W1 b1 W2 dv (s e) c * (dv (s e) * dv (t e))) + b2 c

section
variable (ht : ∀ n, ∀ e ∈ lands n, t e = n)
  (xr : ν → Fin 2 → ℝ) (hx : ∀ p k, x p k = (xr p k : EReal))
  (W1r : Fin 2 → Fin 16 → ℝ) (hW1 : ∀ k f, W1 k f = (W1r k f : EReal))
  (b1r : Fin 16 → ℝ) (hb1 : ∀ f, b1 f = (b1r f : EReal))
  (dr : ν → ℝ) (hd : ∀ p, dv p = (dr p : EReal))

include ht hx hW1 hb1 hd

/-- The hidden layer, node-side, is the coercion of a real. -/
theorem hidK_coe (n : ν) (f : Fin 16) :
    hidK lands s x W1 b1 dv n f
      = ((max ((∑ k : Fin 2, ((∑ e ∈ lands n, xr (s e) k * dr (s e)) * dr n) * W1r k f) + b1r f) 0 : ℝ) : EReal) := by
  unfold hidK aggK
  simp only [hx, hW1, hb1, hd, ← EReal.coe_mul, coe_sum, zero_add, ← EReal.coe_add]
  rw [← EReal.coe_zero]
  exact (EReal.coe_strictMono.monotone.map_max).symm

/-- The hidden layer, edge-side, is the coercion of a real. -/
theorem hidR_coe (n : ν) (f : Fin 16) :
    hidR lands s t x W1 b1 dv n f
      = ((max ((∑ e ∈ lands n, (∑ k : Fin 2, xr (s e) k * W1r k f) * (dr (s e) * dr n)) + b1r f) 0 : ℝ) : EReal) := by
  unfold hidR lin1
  have h : ∀ e ∈ lands n, (∑ k : Fin 2, x (s e) k * W1 k f) * (dv (s e) * dv (t e))
      = (((∑ k : Fin 2, xr (s e) k * W1r k f) * (dr (s e) * dr n) : ℝ) : EReal) := by
    intro e he
    rw [ht n e he]
    simp only [hx, hW1, hd, ← EReal.coe_mul, coe_sum]
  rw [Finset.sum_congr rfl h]
  simp only [hb1, coe_sum, zero_add, ← EReal.coe_add]
  rw [← EReal.coe_zero]
  exact (EReal.coe_strictMono.monotone.map_max).symm

/-- LAYER 1: the two hidden layers agree. -/
theorem hid_eq (n : ν) (f : Fin 16) : hidK lands s x W1 b1 dv n f = hidR lands s t x W1 b1 dv n f := by
  rw [hidK_coe lands s t x W1 b1 dv ht xr hx W1r hW1 b1r hb1 dr hd, hidR_coe lands s t x W1 b1 dv ht xr hx W1r hW1 b1r hb1 dr hd]
  congr 3
  simp only [Finset.sum_mul]
  rw [Finset.sum_comm]
  exact Finset.sum_congr rfl fun e _ => Finset.sum_congr rfl fun k _ => by ring

end

section
variable (ht : ∀ n, ∀ e ∈ lands n, t e = n)
  (hr : ν → Fin 16 → ℝ) (hh : ∀ p q, hidR lands s t x W1 b1 dv p q = (hr p q : EReal))
  (hKR : ∀ p q, hidK lands s x W1 b1 dv p q = hidR lands s t x W1 b1 dv p q)
  (W2r : Fin 16 → Fin 2 → ℝ) (hW2 : ∀ q c, W2 q c = (W2r q c : EReal))
  (dr : ν → ℝ) (hd : ∀ p, dv p = (dr p : EReal))

include ht hh hKR hW2 hd

/-- LAYER 2: the two logits agree, given that the hidden layers agree and are real. -/
theorem logit_eq (n : ν) (c : Fin 2) :
    logitK lands s x W1 b1 W2 b2 dv n c = logitR lands s t x W1 b1 W2 b2 dv n c := by
  unfold logitK logitR projK lin2
  congr 1
  have hK : ∀ e ∈ lands n, (∑ q : Fin 16, hidK lands s x W1 b1 dv (s e) q * W2 q c) * dv (s e)
      = (((∑ q : Fin 16, hr (s e) q * W2r q c) * dr (s e) : ℝ) : EReal) := by
    intro e _
    simp only [hKR, hh, hW2, hd, ← EReal.coe_mul, coe_sum]
  have hR : ∀ e ∈ lands n, (∑ q : Fin 16, hidR lands s t x W1 b1 dv (s e) q * W2 q c) * (dv (s e) * dv (t e))
      = (((∑ q : Fin 16, hr (s e) q * W2r q c) * (dr (s e) * dr n) : ℝ) : EReal) := by
    intro e he
    rw [ht n e he]
    simp only [hh, hW2, hd, ← EReal.coe_mul, coe_sum]
  rw [Finset.sum_congr rfl hK, Finset.sum_congr rfl hR, coe_sum, coe_sum, zero_add, zero_add, hd n, ← EReal.coe_mul]
  congr 1
  rw [Finset.sum_mul]
  exact Finset.sum_congr rfl fun e _ => by ring

end

end Cert.GCN.Law

end
-- ==== Proof.KSide.lean ====
/-
  The idealized kernel's result read at an index. With lands n the edges landing on node n, s e the node edge e reads,
  and dv the per-node scale (the reference side's names: the same operations of the edge array), the result at (n, c) is
  the log-softmax of row n of the node-side logits of Law.lean:
      gather-then-scatter-add of an array a reads at (n, k):   0 + Σ_{e ∈ lands n} a(s e, k),
      the scale column reads at (n, 0):                         dv n,
      the hidden array reads at (p, q):                         hidK p q,
      the projected array at (p, c):                            projK p c.
-/
import proofs.«160260_j74964359185003_2_alg».proof.Proof.KHost
import proofs.«160260_j74964359185003_2_alg».proof.Proof.RefNames
import proofs.«160260_j74964359185003_2_alg».proof.Proof.Law
import proofs.«160260_j74964359185003_2_alg».proof.Proof.LibGraphLayer
import proofs.«160260_j74964359185003_2_alg».proof.Proof.LibKeepdims

set_option maxRecDepth 16384

noncomputable section

open scoped BigOperators

namespace Cert.KernelIdeal.KSide

open Cert.KernelIdeal Cert.KernelIdeal.Gen Cert.KernelIdeal.KHost Cert.GCN
open Idealize.ShloMosaic Idealize.ShloMosaic.TcCoe Idealize.SL.Sem Idealize.ShloMosaic.ValueIdx

variable (m : (ℓ : Loc nD τ sig) → Buf (Elt Ideal) ℓ)

/-! ## The names, at the kernel's launch memory -/

abbrev X0 (c : Dev nD) : ReferenceIdeal.S100000x2.Idx → EReal := m ((c : Thread nD τ).loc main_arg0)
abbrev X1 (c : Dev nD) : ReferenceIdeal.S2x3200000.Idx → BitVec 32 := m ((c : Thread nD τ).loc main_arg1)
abbrev X2 (c : Dev nD) : ReferenceIdeal.S2x16.Idx → EReal := m ((c : Thread nD τ).loc main_arg2)
abbrev X3 (c : Dev nD) : ReferenceIdeal.S16.Idx → EReal := m ((c : Thread nD τ).loc main_arg3)
abbrev X4 (c : Dev nD) : ReferenceIdeal.S16x2.Idx → EReal := m ((c : Thread nD τ).loc main_arg4)
abbrev X5 (c : Dev nD) : ReferenceIdeal.S2.Idx → EReal := m ((c : Thread nD τ).loc main_arg5)

abbrev landsK (c : Dev nD) := Cert.ReferenceIdeal.RefSide.lands (X1 m c)
abbrev sK (c : Dev nD) := Cert.ReferenceIdeal.RefSide.sIdx (X1 m c)
abbrev dvK (c : Dev nD) := Cert.ReferenceIdeal.RefSide.dv (X1 m c)
abbrev xK (c : Dev nD) : Fin 100000 → Fin 2 → EReal := fun p k => X0 m c (ix2 p k)
abbrev w1K (c : Dev nD) : Fin 2 → Fin 16 → EReal := fun k f => X2 m c (ix2 k f)
abbrev b1K (c : Dev nD) : Fin 16 → EReal := fun f => X3 m c (ix1 f)
abbrev w2K (c : Dev nD) : Fin 16 → Fin 2 → EReal := fun q k => X4 m c (ix2 q k)
abbrev b2K (c : Dev nD) : Fin 2 → EReal := fun k => X5 m c (ix1 k)

/-! ## The readers -/

/-- The scale column at (n, 0) is the scale of node n. -/
theorem scaleCol_apply (c : Dev nD) (n : Fin 100000) : scaleCol m c (ix2 n 0) = dvK m c n := by
  unfold scaleCol
  exact Cert.LibKeepdims.shapeCast_a_a1_apply _ _ n 0

/-- Gather at the sources, scatter-add onto the targets, read at (n, k): the sum over the edges landing on n. -/
theorem agg_apply (c : Dev nD) (a : FVec Ideal S100000x2 .f32) (n : Fin 100000) (k : Fin 2) :
    agg (dstW m c) (srcW m c) a (ix2 n k) = 0 + ∑ e ∈ landsK m c n, a (ix2 (sK m c e) k) := by
  unfold agg
  refine (Cert.Layer.scatterAdd_col_apply (N := 100000) (E := 3300000) (C := 2)
    scatter_S100000x2_S3300000x1_S3300000x2_1_0_0_1_wf bcast_S3300000_S3300000x1_0 _ (dstW m c) _ n k).trans ?_
  rw [Cert.Layer.zero_splat_apply]
  refine congrArg (fun t => (0 : EReal) + t) (Finset.sum_congr rfl fun e _ => ?_)
  exact Cert.Layer.gather_col_apply (N := 100000) (E := 3300000) (C := 2)
    gather_S100000x2_S3300000x1_S3300000x2_1_0_n_n_0_1_12_wf bcast_S3300000_S3300000x1_0 (by decide) a _ e k

/-- A vector laid out as one row [1, n] reads, at (u, f), its entry f: both indices have row-major position f. -/
theorem shapeCast_row_apply {α : Type} {n : ℕ} (x : (⟨1, ![n]⟩ : Shape).Idx → α) (h : (⟨1, ![n]⟩ : Shape).ShapeCasts ⟨2, ![1, n]⟩)
    (u : Fin 1) (f : Fin n) : shapeCast ⟨2, ![1, n]⟩ x h (ix2 u f) = x (ix1 f) :=
  shapeCast_apply x h _ _ (by
    have hu : u.val = 0 := by omega
    rw [Shape.rowMajor_val_one, Shape.rowMajor_val_two]
    show f.val = u.val * n + f.val
    rw [hu, Nat.zero_mul, Nat.zero_add])

/-- The bias rows. -/
theorem biasRow16_apply (c : Dev nD) (f : Fin 16) :
    (shapeCast S1x16 (m ((c : Thread nD τ).loc main_arg3)) shapeCasts_S16_S1x16 : FVec Ideal S1x16 .f32) (ix2 0 f) = b1K m c f := by
  exact shapeCast_row_apply _ _ 0 f
theorem biasRow2_apply (c : Dev nD) (k : Fin 2) :
    (shapeCast S1x2 (m ((c : Thread nD τ).loc main_arg5)) shapeCasts_S2_S1x2 : FVec Ideal S1x2 .f32) (ix2 0 k) = b2K m c k := by
  exact shapeCast_row_apply _ _ 0 k

/-- The hidden array at (p, q) is the node-side hidden layer. -/
theorem hiddenArr_apply (c : Dev nD) (p : Fin 100000) (q : Fin 16) :
    hiddenArr m c (ix2 p q) = Law.hidK (landsK m c) (sK m c) (xK m c) (w1K m c) (b1K m c) (dvK m c) p q := by
  unfold hiddenArr
  rw [hidden_apply, biasRow16_apply, scaleCol_apply]
  unfold Law.hidK Law.aggK
  simp only [agg_apply, scaleRows_apply, scaleCol_apply]

/-- The projected array at (p, k) is the node-side projection. -/
theorem projArr_apply (c : Dev nD) (p : Fin 100000) (k : Fin 2) :
    projArr m c (ix2 p k) = Law.projK (landsK m c) (sK m c) (xK m c) (w1K m c) (b1K m c) (w2K m c) (dvK m c) p k := by
  unfold projArr
  rw [project_apply, scaleCol_apply]
  unfold Law.projK
  simp only [hiddenArr_apply]

/-- THE KERNEL'S RESULT at (n, k): the log-softmax of row n of the node-side logits. -/
theorem kernelOut_apply (c : Dev nD) (n : Fin 100000) (k : Fin 2) :
    kernelOut m c (ix2 n k)
      = lsm (fun k' => Law.logitK (landsK m c) (sK m c) (xK m c) (w1K m c) (b1K m c) (w2K m c) (b2K m c) (dvK m c) n k') k := by
  unfold kernelOut
  rw [outRows_apply]
  unfold logitRow Law.logitK
  simp only [agg_apply, projArr_apply, scaleCol_apply, biasRow2_apply]

end Cert.KernelIdeal.KSide

end
-- ==== Proof.LibERealAlgebra.lean ====
/- General facts about the extended reals as the exact ("ideal") reading of float programs uses them: sums,
   quotients and square roots of finite values stay finite and are the real operations; a few float words as the
   exact reals they denote; and two finite-sum identities over the reals. -/
import Idealize.ShloMosaic.PureOps.Ideal
import Idealize.ShloMosaic.PureOps.Ideal.Laws
import Mathlib.Data.EReal.Inv
import Mathlib.Analysis.SpecialFunctions.Pow.Real
import Mathlib.Algebra.BigOperators.Group.Finset.Basic
import Mathlib.Tactic

noncomputable section

namespace Cert.LibEReal

open Idealize.ShloMosaic
open scoped BigOperators

/-- A finite sum of finite extended reals is the (finite) real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The quotient of two finite values by a nonzero divisor is the real quotient. -/
theorem div_coe' (a b : ℝ) (hb : b ≠ 0) : Ideal.div (a : EReal) (b : EReal) = ((a / b : ℝ) : EReal) := by
  rw [Ideal.div_coe hb, ← EReal.coe_mul, mul_one_div]

/-- The square root of a nonnegative finite value is the real square root. -/
theorem sqrt_coe (x : ℝ) (hx : 0 ≤ x) : Ideal.sqrt (x : EReal) = ((Real.sqrt x : ℝ) : EReal) := by
  rw [Ideal.sqrt_coe, if_neg (not_lt.mpr hx)]

/-- The reciprocal square root of a positive finite value is the reciprocal of the real square root. -/
theorem rsqrt_coe (x : ℝ) (hx : 0 < x) : Ideal.rsqrt (x : EReal) = (((Real.sqrt x)⁻¹ : ℝ) : EReal) := by
  rw [Ideal.rsqrt_coe, if_neg (not_lt.mpr hx.le), if_neg hx.ne']

/-- Multiplying by the reciprocal square root of a positive value is dividing by its square root. -/
theorem mul_rsqrt_eq_div_sqrt (a x : ℝ) (hx : 0 < x) :
    (a : EReal) * Ideal.rsqrt (x : EReal) = Ideal.div (a : EReal) (Ideal.sqrt (x : EReal)) := by
  have hs : Real.sqrt x ≠ 0 := (Real.sqrt_pos.mpr hx).ne'
  rw [rsqrt_coe x hx, sqrt_coe x hx.le, div_coe' a _ hs, ← EReal.coe_mul, div_eq_mul_inv]

/-- The float word `0x3F800000` denotes `1`. -/
theorem ofBits_one : Ideal.ofBits .f32 0x3F800000#32 = 1 := by
  simp [Ideal.ofBits, Ideal.ieee, -EReal.coe_mul]; norm_num

/-- The float word `0x46800000` denotes `16384 = 2 ^ 14`. -/
theorem ofBits_16384 : Ideal.ofBits .f32 0x46800000#32 = ((16384 : ℝ) : EReal) := by
  simp [Ideal.ofBits, Ideal.ieee, -EReal.coe_mul]; norm_num

/-- The float word `0x3727C5AC` (the float nearest `1e-5`) denotes a positive real, `10995116 · 2 ^ (-40)`. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The float word `0x3C23D70A` (the float nearest `0.01`) denotes a real, `10737418 · 2 ^ (-30)`. -/
theorem ofBits_slope : ∃ s : ℝ, Ideal.ofBits .f32 0x3C23D70A#32 = (s : EReal) := by
  refine ⟨(10737418 : ℝ) * (2 : ℝ) ^ (-30 : ℤ), ?_⟩
  simp [Ideal.ofBits, Ideal.ieee, -EReal.coe_mul]

/-- Adding a self-loop (a `1` on the diagonal) to row `i` raises its row sum by `1`. -/
theorem rowsum_selfloop {n : ℕ} (g : Fin n → ℝ) (i : Fin n) :
    ∑ j, (g j + if i = j then 1 else 0) = (∑ j, g j) + 1 := by
  rw [Finset.sum_add_distrib, Finset.sum_ite_eq Finset.univ i (fun _ => (1 : ℝ)), if_pos (Finset.mem_univ i)]

/-- Row `i` of the symmetrically normalised matrix `D (G + I) D` applied to `hp`: the scale `d i` comes out of the
    sum, and the diagonal `1` contributes the single term `d i * hp i`. -/
theorem normalized_product {n : ℕ} (g d hp : Fin n → ℝ) (i : Fin n) :
    ∑ j, (((g j + if i = j then 1 else 0) * d i) * d j) * hp j
      = d i * ((∑ j, g j * (d j * hp j)) + d i * hp i) := by
  have h : ∀ j, (((g j + if i = j then 1 else 0) * d i) * d j) * hp j
      = d i * (g j * (d j * hp j)) + (if i = j then d i * (d j * hp j) else 0) := by
    intro j
    split_ifs <;> ring
  rw [Finset.sum_congr rfl (fun j _ => h j), Finset.sum_add_distrib, ← Finset.mul_sum,
    Finset.sum_ite_eq Finset.univ i (fun j => d i * (d j * hp j)), if_pos (Finset.mem_univ i)]
  ring

/-- The sum of two finite values is the real sum (the coercion pushed outward). -/
theorem coe_add (a b : ℝ) : (a : EReal) + (b : EReal) = ((a + b : ℝ) : EReal) := (EReal.coe_add a b).symm

/-- The difference of two finite values is the real difference (the coercion pushed outward). -/
theorem coe_sub (a b : ℝ) : (a : EReal) - (b : EReal) = ((a - b : ℝ) : EReal) := (EReal.coe_sub a b).symm

/-- The product of two finite values is the real product (the coercion pushed outward). -/
theorem coe_mul (a b : ℝ) : (a : EReal) * (b : EReal) = ((a * b : ℝ) : EReal) := (EReal.coe_mul a b).symm

/-- The negative of a finite value is the real negative (the coercion pushed outward). -/
theorem coe_neg (a : ℝ) : -(a : EReal) = ((-a : ℝ) : EReal) := (EReal.coe_neg a).symm

/-- A mean of squares (over `16384` terms' worth) is nonnegative. -/
theorem sum_sq_div_nonneg {n : ℕ} (f : Fin n → ℝ) : 0 ≤ (∑ k, f k * f k) / 16384 :=
  div_nonneg (Finset.sum_nonneg fun k _ => mul_self_nonneg (f k)) (by norm_num)

/-- A mean of squares plus a positive constant is positive. -/
theorem sum_sq_div_add_pos {n : ℕ} (f : Fin n → ℝ) {e : ℝ} (he : 0 < e) : 0 < (∑ k, f k * f k) / 16384 + e :=
  add_pos_of_nonneg_of_pos (sum_sq_div_nonneg f) he

end Cert.LibEReal

end
-- ==== Proof.RefSide.lean ====
/-
  The reference program read at an index. Its result is the log-softmax, row by row, of the second layer's logits; each
  layer is the edge-side form of the graph convolution (Law.lean): the linear map first, every message scaled by
  dv(s e) · dv(t e), summed over the edges landing on the node, bias added.
  The names: lands n are the edges whose target word reads n; sIdx e / tIdx e the source / target word of edge e,
  wrapped if negative and clamped into [0, N − 1] (the entry a gather reads); dv the per-node scale
  where(deg > 0, rsqrt(max(deg, ε)), 0) of the degree deg = the number of edges landing on the node.
-/
import proofs.«160260_j74964359185003_2_alg».proof.Proof.RefRead
import proofs.«160260_j74964359185003_2_alg».proof.Proof.RefNames
import proofs.«160260_j74964359185003_2_alg».proof.Proof.Spec
import proofs.«160260_j74964359185003_2_alg».proof.Proof.Law
import proofs.«160260_j74964359185003_2_alg».proof.Proof.LibGraphLayer
import proofs.«160260_j74964359185003_2_alg».proof.Proof.LibERealAlgebra
import proofs.«160260_j74964359185003_2_alg».proof.Proof.LibReduceRead
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefSide

open Cert.ReferenceIdeal Cert.ReferenceIdeal.ReadP Cert.GCN Cert.LibRealEntries
open Idealize.ShloMosaic Idealize.ShloMosaic.ValueIdx

variable (x0 : (⟨S100000x2, .f32⟩ : BufTy).Contents (Elt Ideal)) (x1 : (⟨S2x3200000, .i32⟩ : BufTy).Contents (Elt Ideal))
  (x2 : (⟨S2x16, .f32⟩ : BufTy).Contents (Elt Ideal)) (x3 : (⟨S16, .f32⟩ : BufTy).Contents (Elt Ideal))
  (x4 : (⟨S16x2, .f32⟩ : BufTy).Contents (Elt Ideal)) (x5 : (⟨S2, .f32⟩ : BufTy).Contents (Elt Ideal))

/-- An edge landing on n has its second scale read at n. -/
theorem t_of_lands : ∀ n : Fin 100000, ∀ e ∈ lands x1 n, tIdx x1 e = n := by
  intro n e he
  have h : (val_main_v7 (F := Ideal) x1 (ix1 e)).toInt = (n.val : ℤ) := (Finset.mem_filter.mp he).2
  exact Fin.ext (Cert.Layer.clamp_wrapped_of_reads Gen.bcast_S_S3300000 (val_main_v7 (F := Ideal) x1) 100000#32 e n h)

/-- The word 0x2B8CBCCC (the float nearest 1e-12) denotes a positive real, 9223372 · 2 ^ (-63). -/
theorem eps_word : ∃ e : ℝ, 0 < e ∧ Ideal.ofBits .f32 0x2B8CBCCC#32 = (e : EReal) := by
  refine ⟨(9223372 : ℝ) * (2 : ℝ) ^ (-63 : ℤ), by positivity, ?_⟩
  simp [Ideal.ofBits, Ideal.ieee, -EReal.coe_mul]

/-- The exact scatter-add of real updates into a real table has real entries (any table, any updates). -/
theorem scatterAdd_isReal {s si su : Shape} (d : ScatterDims s si su) {w : Nat} (x : FVec Ideal s .f32) (idx : IVec si w)
    (upd : FVec Ideal su .f32) (hx : ∀ i, IsReal (x i)) (hu : ∀ j, IsReal (upd j)) (i : s.Idx) :
    IsReal (Host.scatterAdd d x idx upd i) :=
  isReal_hostScatterAdd d x idx upd hx hu i

/-- The degree of a node, the scatter-add of ones into zeros, is a real number. -/
theorem deg_real (p : Fin 100000) : IsReal (val_main_v11 (F := Ideal) x1 (ix1 p)) := by
  have h9 : ∀ i, IsReal (val_main_v9 (F := Ideal) i) := fun i => by
    rw [show val_main_v9 (F := Ideal) i = 0 from Cert.Layer.zero_splat_apply _ i]
    exact isReal_zero
  have h8 : ∀ j, IsReal (val_main_v8 (F := Ideal) j) := fun j => by
    rw [show val_main_v8 (F := Ideal) j = 1 from
      (Cert.Layer.bc_scalar_apply _ _ j).trans ((constant_apply _ _).trans ofBits_one)]
    exact isReal_one
  unfold val_main_v11
  exact scatterAdd_isReal _ _ _ _ h9 h8 _

/-- Every entry of the scale is a real number. -/
theorem dv_real (p : Fin 100000) : IsReal (dv x1 p) := by
  obtain ⟨ε, hε, hεw⟩ := eps_word
  obtain ⟨d, hd⟩ := deg_real x1 p
  have h12 : val_main_v12 (F := Ideal) (ix1 p) = 0 := Cert.Layer.zero_splat_apply _ _
  have h14 : val_main_v14 (F := Ideal) (ix1 p) = (ε : EReal) :=
    (Cert.Layer.bc_scalar_apply _ _ _).trans ((constant_apply _ _).trans hεw)
  have hz : val_main_call0_v1 (F := Ideal) (ix1 p) = 0 := Cert.Layer.zero_splat_apply _ _
  unfold dv
  rw [val_main_v17_apply, val_main_v13_apply, val_main_v16_apply, val_main_v15_apply, h12, h14, hz, hd,
    Ideal.cmpf_def, Ideal.hostUnary_rsqrt_def, Ideal.maximumf_def]
  unfold Scalar.select Ideal.cmp
  by_cases hpos : (0 : EReal) < (d : EReal)
  · have hd0 : 0 < d := by exact_mod_cast hpos
    have hm : max (d : EReal) (ε : EReal) = ((max d ε : ℝ) : EReal) := (EReal.coe_strictMono.monotone.map_max).symm
    rw [if_pos (by simp [hpos]), hm, Cert.LibEReal.rsqrt_coe _ (lt_max_of_lt_left hd0)]
    exact isReal_coe _
  · rw [if_neg (by simp [hpos])]
    exact isReal_zero

/-- The first linear map read at (p, f). -/
theorem lin1_read (p : Fin 100000) (f : Fin 16) :
    val_main_v33 (F := Ideal) x0 x2 (ix2 p f)
      = Law.lin1 (fun p k => x0 (ix2 p k)) (fun k f => x2 (ix2 k f)) p f := by
  rw [val_main_v33_apply]
  unfold Law.lin1
  refine Finset.sum_congr rfl fun k _ => ?_
  have hl : lidx_main_v33 (ix2 p f) k = ix2 p k :=
    funext fun a => Fin.ext (by match a with | ⟨0, _⟩ => rfl | ⟨1, _⟩ => rfl)
  have hr : ridx_main_v33 (ix2 p f) k = ix2 k f :=
    funext fun a => Fin.ext (by match a with | ⟨0, _⟩ => rfl | ⟨1, _⟩ => rfl)
  rw [hl, hr]

/-- The first layer before relu is the layer's edge-side form over the first linear map: the same operations of the
    same arrays, under their other names. -/
theorem v49_eq :
    val_main_v49 (F := Ideal) x0 x1 x2 x3
      = Cert.Layer.layerR (N := 100000) (E := 3300000) (C := 16)
          Gen.scatter_S100000x16_S3300000x1_S3300000x16_1_0_0_1_wf
          Gen.gather_S100000x16_S3300000x1_S3300000x16_1_0_n_n_0_1_116_wf
          Gen.gather_S100000_S3300000x1_S3300000_n_0_n_n_0_1_1_wf
          Gen.bcast_S_S100000x16 Gen.bcast_S3300000_S3300000x1_0 Gen.bcast_S3300000x1_S3300000x16_0_1
          Gen.bcast_S16_S1x16_1 Gen.bcast_S1x16_S100000x16_0_1
          (val_main_v33 (F := Ideal) x0 x2) (val_main_v17 (F := Ideal) x1) (val_main_v22 (F := Ideal) x1)
          (val_main_v29 (F := Ideal) x1) (val_main_v7 (F := Ideal) x1) x3 := rfl

/-- The first layer after relu, at (n, f). -/
theorem hid_apply (n : Fin 100000) (f : Fin 16) :
    val_main_v50 (F := Ideal) x0 x1 x2 x3 (ix2 n f)
      = Law.hidR (lands x1) (sIdx x1) (tIdx x1) (fun p k => x0 (ix2 p k)) (fun k f => x2 (ix2 k f)) (fun f => x3 (ix1 f)) (dv x1) n f := by
  have h0 : val_main_call1_v0 (F := Ideal) (ix2 n f) = 0 := Cert.Layer.zero_splat_apply _ _
  rw [val_main_v50_apply, Ideal.maximumf_def, h0, v49_eq,
    Cert.Layer.layerR_apply _ _ _ _ _ _ _ _ (by decide : 0 < 100000)]
  unfold Law.hidR
  refine congrArg (fun t => max ((0 + t) + x3 (ix1 f)) 0) (Finset.sum_congr rfl fun e _ => ?_)
  rw [lin1_read]
  rfl

/-- The second layer before the softmax is the layer's edge-side form over the second linear map, on the same index
    arrays and the same scale as the first layer (the program computes them a second time, by the same operations). -/
theorem v100_eq :
    val_main_v100 (F := Ideal) x0 x1 x2 x3 x4 x5
      = Cert.Layer.layerR (N := 100000) (E := 3300000) (C := 2)
          Gen.scatter_S100000x2_S3300000x1_S3300000x2_1_0_0_1_wf
          Gen.gather_S100000x2_S3300000x1_S3300000x2_1_0_n_n_0_1_12_wf
          Gen.gather_S100000_S3300000x1_S3300000_n_0_n_n_0_1_1_wf
          Gen.bcast_S_S100000x2 Gen.bcast_S3300000_S3300000x1_0 Gen.bcast_S3300000x1_S3300000x2_0_1
          Gen.bcast_S2_S1x2_1 Gen.bcast_S1x2_S100000x2_0_1
          (val_main_v84 (F := Ideal) x0 x1 x2 x3 x4) (val_main_v17 (F := Ideal) x1) (val_main_v22 (F := Ideal) x1)
          (val_main_v29 (F := Ideal) x1) (val_main_v7 (F := Ideal) x1) x5 := rfl

/-- The second linear map read at (p, c). -/
theorem lin2_read (p : Fin 100000) (c : Fin 2) :
    val_main_v84 (F := Ideal) x0 x1 x2 x3 x4 (ix2 p c)
      = Law.lin2 (lands x1) (sIdx x1) (tIdx x1) (fun p k => x0 (ix2 p k)) (fun k f => x2 (ix2 k f)) (fun f => x3 (ix1 f))
          (fun q c => x4 (ix2 q c)) (dv x1) p c := by
  rw [val_main_v84_apply]
  unfold Law.lin2
  refine Finset.sum_congr rfl fun q _ => ?_
  have hl : lidx_main_v84 (ix2 p c) q = ix2 p q :=
    funext fun a => Fin.ext (by match a with | ⟨0, _⟩ => rfl | ⟨1, _⟩ => rfl)
  have hr : ridx_main_v84 (ix2 p c) q = ix2 q c :=
    funext fun a => Fin.ext (by match a with | ⟨0, _⟩ => rfl | ⟨1, _⟩ => rfl)
  rw [hl, hr, hid_apply]

/-- The second layer's logits, at (n, k). -/
theorem logit_apply (n : Fin 100000) (k : Fin 2) :
    val_main_v100 (F := Ideal) x0 x1 x2 x3 x4 x5 (ix2 n k)
      = Law.logitR (lands x1) (sIdx x1) (tIdx x1) (fun p k => x0 (ix2 p k)) (fun k f => x2 (ix2 k f)) (fun f => x3 (ix1 f))
          (fun q c => x4 (ix2 q c)) (fun c => x5 (ix1 c)) (dv x1) n k := by
  rw [v100_eq, Cert.Layer.layerR_apply _ _ _ _ _ _ _ _ (by decide : 0 < 100000)]
  unfold Law.logitR
  refine congrArg (fun t => (0 + t) + x5 (ix1 k)) (Finset.sum_congr rfl fun e _ => ?_)
  rw [lin2_read]
  rfl

/-- The host's reduce by the float maximum over the columns, at row r: the fold of max over the row's entries from the
    initial value b. -/
theorem hostMaxf_axis1 {A B : ℕ} {u : Shape} (x : FVec Ideal (⟨2, ![A, B]⟩ : Shape) .f32) (init : FVec Ideal u .f32)
    (b : EReal) (h' : (⟨2, ![A, B]⟩ : Shape).ReducesTo [1] ⟨1, ![A]⟩) (h : (⟨2, ![A, B]⟩ : Shape).Reduces [1] ⟨1, ![A]⟩)
    (hu : 0 < u.numel) (hb : init (Shape.Idx.first hu) = b) (r : Fin A) :
    Host.reduce FloatOps.maximumf x init h' hu (ix1 r)
      = (Finset.univ : Finset (Fin B)).fold max b (fun k => x (ix2 r k)) := by
  subst hb
  exact (Host.reduce_eq_fold_single FloatOps.maximumf x init h' h hu (ix1 r)).trans
    (congrArg (fun f => (Finset.univ : Finset (Fin B)).fold max (init (Shape.Idx.first hu)) f)
      (funext fun k => congrArg x (Cert.ReduceRead.lift_axis1 h r k)))

/-- The word of −∞ is the bottom of the extended reals. -/
theorem negInf_bot : (negInf : EReal) = ⊥ := by
  simp [negInf, Ideal.ofBits, Ideal.ieee]

/-- The row maximum the program subtracts, at row n. -/
theorem rowmax_read (n : Fin 100000) :
    val_main_call3_v2 (F := Ideal) x0 x1 x2 x3 x4 x5 (ix1 n)
      = rowMax (fun k => val_main_v100 (F := Ideal) x0 x1 x2 x3 x4 x5 (ix2 n k)) := by
  have h1 : val_main_call3_v1 (F := Ideal) (ix1 n) = ⊥ :=
    (Cert.Layer.bc_scalar_apply _ _ _).trans ((constant_apply _ _).trans negInf_bot)
  rw [val_main_call3_v2_apply, Ideal.maximumf_def, h1, max_eq_right bot_le]
  unfold val_main_call3_v0 rowMax
  exact hostMaxf_axis1 _ _ negInf _ (by decide) _ (constant_apply _ _) n

/-- The result, at (n, c): the log-softmax of row n of the logits. -/
theorem out_apply (n : Fin 100000) (c : Fin 2) :
    val_main_v101 (F := Ideal) x0 x1 x2 x3 x4 x5 (ix2 n c)
      = lsm (fun k => val_main_v100 (F := Ideal) x0 x1 x2 x3 x4 x5 (ix2 n k)) c := by
  -- the shifted logits, at any (n, k)
  have h5 : ∀ k : Fin 2, val_main_call3_v5 (F := Ideal) x0 x1 x2 x3 x4 x5 (ix2 n k)
      = val_main_v100 (F := Ideal) x0 x1 x2 x3 x4 x5 (ix2 n k)
        - rowMax (fun k => val_main_v100 (F := Ideal) x0 x1 x2 x3 x4 x5 (ix2 n k)) := by
    intro k
    have hi : idx_main_call3_v3 (idx_main_call3_v4 (ix2 n k)) = ix1 n :=
      funext fun a => Fin.ext (by match a with | ⟨0, _⟩ => rfl)
    rw [val_main_call3_v5_apply, Ideal.subf_def, val_main_call3_v4_apply, val_main_call3_v3_apply, hi, rowmax_read]
  -- the zero word the sum starts from
  have hc : ∀ i, val_main_call3_cst_1 (F := Ideal) i = 0 := fun i => (constant_apply _ _).trans Ideal.ofBits_zero_f32
  -- the logarithm of the row's sum of exponentials
  have h10 : val_main_call3_v10 (F := Ideal) x0 x1 x2 x3 x4 x5 (ix2 n c)
      = Ideal.log (∑ k : Fin 2, Ideal.exp (val_main_v100 (F := Ideal) x0 x1 x2 x3 x4 x5 (ix2 n k)
          - rowMax (fun k => val_main_v100 (F := Ideal) x0 x1 x2 x3 x4 x5 (ix2 n k)))) := by
    rw [val_main_call3_v10_apply, val_main_call3_v9_apply, Ideal.hostUnary_log_def, val_main_call3_v8_apply,
      val_main_call3_v7_apply, hc, zero_add]
    refine congrArg Ideal.log (Finset.sum_congr rfl fun k _ => ?_)
    have hi : idx_main_call3_v7 (idx_main_call3_v8 (idx_main_call3_v10 (ix2 n c))) k = ix2 n k :=
      funext fun a => Fin.ext (by match a with | ⟨0, _⟩ => rfl | ⟨1, _⟩ => rfl)
    rw [hi, val_main_call3_v6_apply, Ideal.hostUnary_exp_def, h5]
  rw [val_main_v101_apply, Ideal.subf_def, h5, h10]
  unfold lsm
  rfl

end Cert.ReferenceIdeal.RefSide

end
-- ==== Proof.Finite.lean ====
/-
  What the precondition says of the float inputs. The printed predicate takes, of each float input, the absolute value
  of every entry, compares it below +∞, folds the comparisons of one input by "and" into one word, and joins the five
  words by "and"; the claim's precondition is that the result is 1. An extended real whose absolute value max(x, −x) is
  below +∞ is neither +∞ nor −∞: it is a real number. So under the precondition every entry of x, W1, b1, W2, b2 is a real.
-/
import proofs.«160260_j74964359185003_2_alg».proof.Pre_finite_inputs
import proofs.«160260_j74964359185003_2_alg».proof.Proof.LibRealEntries
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic Cert.LibRealEntries Cert.Pre_finite_inputs

/-- The float word of +∞. -/
theorem ofBits_posInf : Ideal.ofBits .f32 0x7F800000#32 = ⊤ := by simp [Ideal.ofBits, Ideal.ieee]

/-- An extended real whose absolute value compares below +∞ is a real number. -/
theorem isReal_of_abs_lt (x : EReal)
    (h : FloatOps.cmpf (F := Ideal) .olt (FloatOps.hostAbsf (F := Ideal) (φ := .f32) x) (Ideal.ofBits .f32 0x7F800000#32) = 1#1) : IsReal x := by
  rw [ofBits_posInf] at h
  have h' : Ideal.cmp .olt (max x (-x)) ⊤ = 1#1 := h
  induction x using EReal.rec with
  | bot => exact absurd h' (by simp [Ideal.cmp])
  | coe r => exact ⟨r, rfl⟩
  | top => exact absurd h' (by simp [Ideal.cmp])

instance : Subsingleton (S_ : Shape).Idx := ⟨fun a b => funext fun d => d.elim0⟩

variable [hF : Cert.Pre_finite_inputs.Facts]

/-- Under the precondition every entry of the five float inputs is a real number. -/
theorem reals_of_pre (a0 : FVec Ideal S100000x2 .f32) (a1 : IVec S2x3200000 32) (a2 : FVec Ideal S2x16 .f32)
    (a3 : FVec Ideal S16 .f32) (a4 : FVec Ideal S16x2 .f32) (a5 : FVec Ideal S2 .f32)
    (h : Cert.Pre_finite_inputs.fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ (∀ i, IsReal (a5 i)) := by
  have h0 := congrFun h ValueIdx.ix0
  dsimp only [fn, fn_part1] at h0
  -- the five words, joined by "and", are all 1
  obtain ⟨h1234, h5⟩ := IntOp.andi_eq_one.mp h0
  obtain ⟨h123, h4⟩ := IntOp.andi_eq_one.mp h1234
  obtain ⟨h12, h3⟩ := IntOp.andi_eq_one.mp h123
  obtain ⟨h1, h2⟩ := IntOp.andi_eq_one.mp h12
  -- each word is a fold by "and" over one input's comparisons: every comparison is 1
  refine ⟨fun i => ?_, fun i => ?_, fun i => ?_, fun i => ?_, fun i => ?_⟩
  · exact isReal_of_abs_lt _ (Host.reduce_andi_all _ _ _ _ _ h1 i)
  · exact isReal_of_abs_lt _ (Host.reduce_andi_all _ _ _ _ _ h2 i)
  · exact isReal_of_abs_lt _ (Host.reduce_andi_all _ _ _ _ _ h3 i)
  · exact isReal_of_abs_lt _ (Host.reduce_andi_all _ _ _ _ _ h4 i)
  · exact isReal_of_abs_lt _ (Host.reduce_andi_all _ _ _ _ _ h5 i)

end Cert.FiniteInputs

end
-- ==== Proof.Bridge.lean ====
/-
  The two results are one function of the arguments. At every (n, c) the idealized kernel's result is the log-softmax
  of row n of the node-side logits and the reference's result the log-softmax of row n of the edge-side logits
  (KSide, RefSide); on real entries the two logits agree (Law.lean: a real factor moves through a finite sum of reals), and
  under the precondition every entry of x, W1, b1, W2 is a real, as is every entry of the scale. The log-softmax is the
  same function on both sides and is never opened.
-/
import proofs.«160260_j74964359185003_2_alg».proof.Proof.KSide
import proofs.«160260_j74964359185003_2_alg».proof.Proof.RefSide
import proofs.«160260_j74964359185003_2_alg».proof.Proof.Law
import proofs.«160260_j74964359185003_2_alg».proof.Proof.Finite

set_option maxRecDepth 16384

noncomputable section

open scoped BigOperators

namespace Cert.Bridge

open Cert.KernelIdeal Cert.KernelIdeal.KHost Cert.KernelIdeal.KSide Cert.GCN Cert.LibRealEntries
open Idealize.ShloMosaic Idealize.ShloMosaic.TcCoe Idealize.SL.Sem Idealize.ShloMosaic.ValueIdx

variable (m : (ℓ : Loc nD τ sig) → Buf (Elt Ideal) ℓ)

/-- THE RESULTS AGREE: with real entries in x, W1, b1 and W2, the kernel's result array is the reference's stage term of
    the same arguments. -/
theorem result_eq (c : Dev nD)
    (h0 : ∀ i, IsReal (X0 m c i)) (h2 : ∀ i, IsReal (X2 m c i)) (h3 : ∀ i, IsReal (X3 m c i)) (h4 : ∀ i, IsReal (X4 m c i)) :
    kernelOut m c
      = Cert.ReferenceIdeal.ReadP.val_main_v101 (F := Ideal) (X0 m c) (X1 m c) (X2 m c) (X3 m c) (X4 m c) (X5 m c) := by
  funext j
  obtain ⟨n, k, rfl⟩ : ∃ (n : Fin 100000) (k : Fin 2), j = ix2 n k := ⟨j 0, j 1, eq_ix2 j⟩
  rw [kernelOut_apply]
  refine Eq.trans ?_ (Cert.ReferenceIdeal.RefSide.out_apply (X0 m c) (X1 m c) (X2 m c) (X3 m c) (X4 m c) (X5 m c) n k).symm
  refine congrArg (fun v => lsm v k) (funext fun k' => ?_)
  rw [Cert.ReferenceIdeal.RefSide.logit_apply]
  -- real witnesses of the entries
  choose xr hxr using fun (p : Fin 100000) (a : Fin 2) => h0 (ix2 p a)
  choose w1r hw1r using fun (a : Fin 2) (f : Fin 16) => h2 (ix2 a f)
  choose b1r hb1r using fun (f : Fin 16) => h3 (ix1 f)
  choose w2r hw2r using fun (q : Fin 16) (a : Fin 2) => h4 (ix2 q a)
  choose dr hdr using fun (p : Fin 100000) => Cert.ReferenceIdeal.RefSide.dv_real (X1 m c) p
  have ht := Cert.ReferenceIdeal.RefSide.t_of_lands (X1 m c)
  exact Law.logit_eq (landsK m c) (sK m c) (Cert.ReferenceIdeal.RefSide.tIdx (X1 m c)) (xK m c) (w1K m c) (b1K m c) (w2K m c) (b2K m c) (dvK m c) ht
    (fun p q => max ((∑ e ∈ landsK m c p, (∑ a : Fin 2, xr (sK m c e) a * w1r a q) * (dr (sK m c e) * dr p)) + b1r q) 0)
    (fun p q => Law.hidR_coe (landsK m c) (sK m c) (Cert.ReferenceIdeal.RefSide.tIdx (X1 m c)) (xK m c) (w1K m c) (b1K m c) (dvK m c) ht xr hxr w1r hw1r b1r hb1r dr hdr p q)
    (fun p q => Law.hid_eq (landsK m c) (sK m c) (Cert.ReferenceIdeal.RefSide.tIdx (X1 m c)) (xK m c) (w1K m c) (b1K m c) (dvK m c) ht xr hxr w1r hw1r b1r hb1r dr hdr p q)
    w2r hw2r dr hdr n k'

end Cert.Bridge

end
-- ==== Proof.lean ====
/-
  The certificate of a two-layer graph convolution (100000 nodes, 3200000 edges and one self loop per node, features
  2 → 16 → 2, symmetric degree scaling, relu between the layers, a row-wise log-softmax at the end) computed by four
  node-level kernels among host gathers and scatter-adds, against the plain reference that scales every message on its
  edge.
  The frames of the two kernel programs are the generated ones; the reference's frame is its run with the result dropped.
  The idealization rewrote nothing. The two idealized programs end with equal results: the kernel's run ends with its
  result array at the last boundary of the fold through its segments, which is the whole-array function kernelOut of the
  arguments (the four regions' closed forms and the host stretches read back); the reference's run ends at its stages'
  composed term; and the two are one function where the float inputs are finite — the kernel scales node arrays before
  and after each aggregation, the reference scales each message by the product of its two ends' scales, and a real factor
  moves through a finite sum of reals.
-/
import proofs.«160260_j74964359185003_2_alg».proof.Defs
import proofs.«160260_j74964359185003_2_alg».proof.Proof.Gen.Kernel
import proofs.«160260_j74964359185003_2_alg».proof.Proof.Gen.Kernel.Frame
import proofs.«160260_j74964359185003_2_alg».proof.Proof.Gen.KernelIdeal
import proofs.«160260_j74964359185003_2_alg».proof.Proof.Gen.KernelIdeal.Frame
import proofs.«160260_j74964359185003_2_alg».proof.Proof.Gen.ReferenceIdeal
import proofs.«160260_j74964359185003_2_alg».proof.Proof.Gen.Pre_finite_inputs
import proofs.«160260_j74964359185003_2_alg».proof.Proof.KRun
import proofs.«160260_j74964359185003_2_alg».proof.Proof.KHost
import proofs.«160260_j74964359185003_2_alg».proof.Proof.RefRun
import proofs.«160260_j74964359185003_2_alg».proof.Proof.Bridge
import proofs.«160260_j74964359185003_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both idealized programs end at the kernel's whole-array function of the arguments. -/
theorem algebraic : Cert.algebraic_KernelIdeal_ReferenceIdeal := by
  intro m ρ m' ρ' hpre hagree
  refine ⟨fun c => Cert.KernelIdeal.KHost.kernelOut m c, ?_, ?_⟩
  · exact (θ_run Cert.KernelIdeal.defs _ _).mono
      (fun r h c => ⟨(h c).1.trans (Cert.KernelIdeal.KHost.W9_v43 m ρ c), (h c).2⟩)
      (Cert.KernelIdeal.KRun.run_named (F := Ideal) m ρ)
  · refine (θ_run Cert.ReferenceIdeal.defs _ _).mono (fun _ h c => ⟨(h c).1.trans ?_, (h c).2⟩)
      (Cert.ReferenceIdeal.RefRun.run (F := Ideal) m' ρ')
    obtain ⟨r0, r2, r3, r4, _⟩ := Cert.FiniteInputs.reals_of_pre _ _ _ _ _ _ (hpre c)
    rw [(hagree c).1, (hagree c).2.1, (hagree c).2.2.1, (hagree c).2.2.2.1, (hagree c).2.2.2.2.1, (hagree c).2.2.2.2.2]
    exact (Cert.Bridge.result_eq m c r0 r2 r3 r4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
